-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x196x768 : Shape := ⟨3, ![64, 196, 768]⟩
abbrev S64x196 : Shape := ⟨2, ![64, 196]⟩
abbrev S64 : Shape := ⟨1, ![64]⟩
abbrev S64x2x196 : Shape := ⟨3, ![64, 2, 196]⟩
abbrev S768x768 : Shape := ⟨2, ![768, 768]⟩
abbrev S768 : Shape := ⟨1, ![768]⟩
abbrev S1024x2x196 : Shape := ⟨3, ![1024, 2, 196]⟩
abbrev S_ : Shape := ⟨0, ![]⟩

class Facts : Prop where
  bcast_S_S64x196x768 : S_.BroadcastsInDim S64x196x768 (![] : Fin 0 → Fin S64x196x768.rank)
  reducesTo_S64x196x768_S_d0_1_2 : S64x196x768.ReducesTo [0, 1, 2] S_
  h_S_ : 0 < S_.numel
  bcast_S_S64x2x196 : S_.BroadcastsInDim S64x2x196 (![] : Fin 0 → Fin S64x2x196.rank)
  reducesTo_S64x2x196_S_d0_1_2 : S64x2x196.ReducesTo [0, 1, 2] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_
  bcast_S_S1024x2x196 : S_.BroadcastsInDim S1024x2x196 (![] : Fin 0 → Fin S1024x2x196.rank)
  reducesTo_S1024x2x196_S_d0_1_2 : S1024x2x196.ReducesTo [0, 1, 2] S_

variable [Facts]

def fn_part2 {F : FTy → Type} [FloatOps F] (main_arg9 : FVec F S768 .f32) (main_arg10 : FVec F S1024x2x196 .f32) (main_arg11 : FVec F S1024x2x196 .f32) (main_v33 : IVec S_ 1) : IVec S_ 1 :=
  let main_v34 : FVec F S768 .f32 := Host.absf main_arg9
  let main_cst_12 : FVec F S_ .f32 := constant S_ .f32 0x7F800000#32
  let main_v35 : FVec F S768 .f32 := broadcastInDim S768 ![] bcast_S_S768 main_cst_12
  let main_v36 : IVec S768 1 := cmpf .olt main_v34 main_v35
  let main_c_13 : IVec S_ 1 := constantI S_ 1 1#1
  let main_v37 : IVec S_ 1 := (fun x v => Host.reduce IntOp.andi x v reducesTo_S768_S_d0 h_S_) main_v36 main_c_13
  let main_v38 : IVec S_ 1 := andi main_v33 main_v37
  let main_v39 : FVec F S1024x2x196 .f32 := Host.absf main_arg10
  let main_cst_14 : FVec F S_ .f32 := constant S_ .f32 0x7F800000#32
  let main_v40 : FVec F S1024x2x196 .f32 := broadcastInDim S1024x2x196 ![] bcast_S_S1024x2x196 main_cst_14
  let main_v41 : IVec S1024x2x196 1 := cmpf .olt main_v39 main_v40
  let main_c_15 : IVec S_ 1 := constantI S_ 1 1#1
  let main_v42 : IVec S_ 1 := (fun x v => Host.reduce IntOp.andi x v reducesTo_S1024x2x196_S_d0_1_2 h_S_) main_v41 main_c_15
  let main_v43 : IVec S_ 1 := andi main_v38 main_v42
  let main_v44 : FVec F S1024x2x196 .f32 := Host.absf main_arg11
  let main_cst_16 : FVec F S_ .f32 := constant S_ .f32 0x7F800000#32
  let main_v45 : FVec F S1024x2x196 .f32 := broadcastInDim S1024x2x196 ![] bcast_S_S1024x2x196 main_cst_16
  let main_v46 : IVec S1024x2x196 1 := cmpf .olt main_v44 main_v45
  let main_c_17 : IVec S_ 1 := constantI S_ 1 1#1
  let main_v47 : IVec S_ 1 := (fun x v => Host.reduce IntOp.andi x v reducesTo_S1024x2x196_S_d0_1_2 h_S_) main_v46 main_c_17
  let main_v48 : IVec S_ 1 := andi main_v43 main_v47
  main_v48

def fn_part1 {F : FTy → Type} [FloatOps F] (main_arg6 : FVec F S768x768 .f32) (main_arg7 : FVec F S768 .f32) (main_arg8 : FVec F S768x768 .f32) (main_arg9 : FVec F S768 .f32) (main_arg10 : FVec F S1024x2x196 .f32) (main_arg11 : FVec F S1024x2x196 .f32) (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  let main_v19 : FVec F S768x768 .f32 := Host.absf main_arg6
  let main_cst_6 : FVec F S_ .f32 := constant S_ .f32 0x7F800000#32
  let main_v20 : FVec F S768x768 .f32 := broadcastInDim S768x768 ![] bcast_S_S768x768 main_cst_6
  let main_v21 : IVec S768x768 1 := cmpf .olt main_v19 main_v20
  let main_c_7 : IVec S_ 1 := constantI S_ 1 1#1
  let main_v22 : IVec S_ 1 := (fun x v => Host.reduce IntOp.andi x v reducesTo_S768x768_S_d0_1 h_S_) main_v21 main_c_7
  let main_v23 : IVec S_ 1 := andi main_v18 main_v22
  let main_v24 : FVec F S768 .f32 := Host.absf main_arg7
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  let main_v29 : FVec F S768x768 .f32 := Host.absf main_arg8
  let main_cst_10 : FVec F S_ .f32 := constant S_ .f32 0x7F800000#32
  let main_v30 : FVec F S768x768 .f32 := broadcastInDim S768x768 ![] bcast_S_S768x768 main_cst_10
  let main_v31 : IVec S768x768 1 := cmpf .olt main_v29 main_v30
  let main_c_11 : IVec S_ 1 := constantI S_ 1 1#1
  let main_v32 : IVec S_ 1 := (fun x v => Host.reduce IntOp.andi x v reducesTo_S768x768_S_d0_1 h_S_) main_v31 main_c_11
  let main_v33 : IVec S_ 1 := andi main_v28 main_v32
  fn_part2 (F := F) main_arg9 main_arg10 main_arg11 main_v33

def fn {F : FTy → Type} [FloatOps F] (main_arg0 : FVec F S64x196x768 .f32) (main_arg1 : IVec S64x196 1) (main_arg2 : IVec S64 32) (main_arg3 : FVec F S64x2x196 .f32) (main_arg4 : FVec F S768x768 .f32) (main_arg5 : FVec F S768 .f32) (main_arg6 : FVec F S768x768 .f32) (main_arg7 : FVec F S768 .f32) (main_arg8 : FVec F S768x768 .f32) (main_arg9 : FVec F S768 .f32) (main_arg10 : FVec F S1024x2x196 .f32) (main_arg11 : FVec F S1024x2x196 .f32) : IVec S_ 1 :=
  let main_v0 : FVec F S64x196x768 .f32 := Host.absf main_arg0
  let main_cst : FVec F S_ .f32 := constant S_ .f32 0x7F800000#32
  let main_v1 : FVec F S64x196x768 .f32 := broadcastInDim S64x196x768 ![] bcast_S_S64x196x768 main_cst
  let main_v2 : IVec S64x196x768 1 := cmpf .olt main_v0 main_v1
  let main_c : IVec S_ 1 := constantI S_ 1 1#1
  let main_v3 : IVec S_ 1 := (fun x v => Host.reduce IntOp.andi x v reducesTo_S64x196x768_S_d0_1_2 h_S_) main_v2 main_c
  let main_v4 : FVec F S64x2x196 .f32 := Host.absf main_arg3
  let main_cst_0 : FVec F S_ .f32 := constant S_ .f32 0x7F800000#32
  let main_v5 : FVec F S64x2x196 .f32 := broadcastInDim S64x2x196 ![] bcast_S_S64x2x196 main_cst_0
  let main_v6 : IVec S64x2x196 1 := cmpf .olt main_v4 main_v5
  let main_c_1 : IVec S_ 1 := constantI S_ 1 1#1
  let main_v7 : IVec S_ 1 := (fun x v => Host.reduce IntOp.andi x v reducesTo_S64x2x196_S_d0_1_2 h_S_) main_v6 main_c_1
  let main_v8 : IVec S_ 1 := andi main_v3 main_v7
  let main_v9 : FVec F S768x768 .f32 := Host.absf main_arg4
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  let main_v14 : FVec F S768 .f32 := Host.absf main_arg5
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_arg6 main_arg7 main_arg8 main_arg9 main_arg10 main_arg11 main_v13 main_v16
-- ==== Kernel.lean ====
abbrev S64x196x768 : Shape := ⟨3, ![64, 196, 768]⟩
abbrev S64x196 : Shape := ⟨2, ![64, 196]⟩
abbrev S64 : Shape := ⟨1, ![64]⟩
abbrev S64x2x196 : Shape := ⟨3, ![64, 2, 196]⟩
abbrev S768x768 : Shape := ⟨2, ![768, 768]⟩
abbrev S768 : Shape := ⟨1, ![768]⟩
abbrev S1024x2x196 : Shape := ⟨3, ![1024, 2, 196]⟩
abbrev S_ : Shape := ⟨0, ![]⟩
abbrev S64x1 : Shape := ⟨2, ![64, 1]⟩
abbrev S64x1x196 : Shape := ⟨3, ![64, 1, 196]⟩
abbrev S64x196x1 : Shape := ⟨3, ![64, 196, 1]⟩
abbrev S64x196x4 : Shape := ⟨3, ![64, 196, 4]⟩
abbrev S1x768 : Shape := ⟨2, ![1, 768]⟩
abbrev S4x196x768 : Shape := ⟨3, ![4, 196, 768]⟩
abbrev S4x196x4 : Shape := ⟨3, ![4, 196, 4]⟩
abbrev S196x196 : Shape := ⟨2, ![196, 196]⟩
abbrev S1x196x768 : Shape := ⟨3, ![1, 196, 768]⟩
abbrev S196x768 : Shape := ⟨2, ![196, 768]⟩
abbrev S196x1536 : Shape := ⟨2, ![196, 1536]⟩
abbrev S1x196x4 : Shape := ⟨3, ![1, 196, 4]⟩
abbrev S196x4 : Shape := ⟨2, ![196, 4]⟩
abbrev S196x1 : Shape := ⟨2, ![196, 1]⟩

abbrev nBuf : Space → Nat
  | .hbm => 80
  | .vmem => 12
  | .smem => 0
  | _ => 0

abbrev bufTy : (tb : Table) → Fin (tcTables nBuf tb) → BufTy
  | .hbm, ⟨0, _⟩ => ⟨S64x196x768, .f32⟩
  | .hbm, ⟨1, _⟩ => ⟨S64x196, .i1⟩
  | .hbm, ⟨2, _⟩ => ⟨S64, .i32⟩
  | .hbm, ⟨3, _⟩ => ⟨S64x2x196, .f32⟩
  | .hbm, ⟨4, _⟩ => ⟨S768x768, .f32⟩
  | .hbm, ⟨5, _⟩ => ⟨S768, .f32⟩
  | .hbm, ⟨6, _⟩ => ⟨S768x768, .f32⟩
  | .hbm, ⟨7, _⟩ => ⟨S768, .f32⟩
  | .hbm, ⟨8, _⟩ => ⟨S768x768, .f32⟩
  | .hbm, ⟨9, _⟩ => ⟨S768, .f32⟩
  | .hbm, ⟨10, _⟩ => ⟨S1024x2x196, .f32⟩
  | .hbm, ⟨11, _⟩ => ⟨S1024x2x196, .f32⟩
  | .hbm, ⟨12, _⟩ => ⟨S_, .i32⟩
  | .hbm, ⟨13, _⟩ => ⟨S64, .i32⟩
  | .hbm, ⟨14, _⟩ => ⟨S64, .i1⟩
  | .hbm, ⟨15, _⟩ => ⟨S_, .i32⟩
  | .hbm, ⟨16, _⟩ => ⟨S64, .i32⟩
  | .hbm, ⟨17, _⟩ => ⟨S64, .i32⟩
  | .hbm, ⟨18, _⟩ => ⟨S64, .i32⟩
  | .hbm, ⟨19, _⟩ => ⟨S64x1, .i32⟩
  | .hbm, ⟨20, _⟩ => ⟨S64x2x196, .f32⟩
  | .hbm, ⟨21, _⟩ => ⟨S_, .i32⟩
  | .hbm, ⟨22, _⟩ => ⟨S64, .i32⟩
  | .hbm, ⟨23, _⟩ => ⟨S64, .i1⟩
  | .hbm, ⟨24, _⟩ => ⟨S_, .i32⟩
  | .hbm, ⟨25, _⟩ => ⟨S64, .i32⟩
  | .hbm, ⟨26, _⟩ => ⟨S64, .i32⟩
  | .hbm, ⟨27, _⟩ => ⟨S64, .i32⟩
  | .hbm, ⟨28, _⟩ => ⟨S64x1, .i32⟩
  | .hbm, ⟨29, _⟩ => ⟨S64x2x196, .f32⟩
  | .hbm, ⟨30, _⟩ => ⟨S64x2x196, .f32⟩
  | .hbm, ⟨31, _⟩ => ⟨S64x2x196, .f32⟩
  | .hbm, ⟨32, _⟩ => ⟨S64x1x196, .f32⟩
  | .hbm, ⟨33, _⟩ => ⟨S64x196, .f32⟩
  | .hbm, ⟨34, _⟩ => ⟨S64x1x196, .f32⟩
  | .hbm, ⟨35, _⟩ => ⟨S64x196, .f32⟩
  | .hbm, ⟨36, _⟩ => ⟨S64x196, .f32⟩
  | .hbm, ⟨37, _⟩ => ⟨S64x196, .f32⟩
  | .hbm, ⟨38, _⟩ => ⟨S64x196, .f32⟩
  | .hbm, ⟨39, _⟩ => ⟨S64x196, .f32⟩
  | .hbm, ⟨40, _⟩ => ⟨S_, .f32⟩
  | .hbm, ⟨41, _⟩ => ⟨S64x196, .f32⟩
  | .hbm, ⟨42, _⟩ => ⟨S64x196, .f32⟩
  | .hbm, ⟨43, _⟩ => ⟨S64x196, .f32⟩
  | .hbm, ⟨44, _⟩ => ⟨S_, .f32⟩
  | .hbm, ⟨45, _⟩ => ⟨S64x196, .f32⟩
  | .hbm, ⟨46, _⟩ => ⟨S64x196, .f32⟩
  | .hbm, ⟨47, _⟩ => ⟨S64x196, .f32⟩
  | .hbm, ⟨48, _⟩ => ⟨S_, .f32⟩
  | .hbm, ⟨49, _⟩ => ⟨S64x196, .f32⟩
  | .hbm, ⟨50, _⟩ => ⟨S64x196, .f32⟩
  | .hbm, ⟨51, _⟩ => ⟨S64x196, .f32⟩
  | .hbm, ⟨52, _⟩ => ⟨S_, .f32⟩
  | .hbm, ⟨53, _⟩ => ⟨S64x196, .f32⟩
  | .hbm, ⟨54, _⟩ => ⟨S64x196, .f32⟩
  | .hbm, ⟨55, _⟩ => ⟨S64x196, .f32⟩
  | .hbm, ⟨56, _⟩ => ⟨S64x196x1, .f32⟩
  | .hbm, ⟨57, _⟩ => ⟨S64x196x1, .f32⟩
  | .hbm, ⟨58, _⟩ => ⟨S64x196x1, .f32⟩
  | .hbm, ⟨59, _⟩ => ⟨S64x196x1, .f32⟩
  | .hbm, ⟨60, _⟩ => ⟨S64x196x4, .f32⟩
  | .hbm, ⟨61, _⟩ => ⟨S_, .i32⟩
  | .hbm, ⟨62, _⟩ => ⟨S_, .i32⟩
  | .hbm, ⟨63, _⟩ => ⟨S_, .f32⟩
  | .hbm, ⟨64, _⟩ => ⟨S64x196x4, .f32⟩
  | .hbm, ⟨65, _⟩ => ⟨S64x196x4, .f32⟩
  | .hbm, ⟨66, _⟩ => ⟨S_, .f32⟩
  | .hbm, ⟨67, _⟩ => ⟨S64x196x4, .f32⟩
  | .hbm, ⟨68, _⟩ => ⟨S64x196x4, .f32⟩
  | .hbm, ⟨69, _⟩ => ⟨S64x196x4, .i32⟩
  | .hbm, ⟨70, _⟩ => ⟨S768x768, .f32⟩
  | .hbm, ⟨71, _⟩ => ⟨S768x768, .bf16⟩
  | .hbm, ⟨72, _⟩ => ⟨S768x768, .f32⟩
  | .hbm, ⟨73, _⟩ => ⟨S768x768, .bf16⟩
  | .hbm, ⟨74, _⟩ => ⟨S768x768, .f32⟩
  | .hbm, ⟨75, _⟩ => ⟨S768x768, .bf16⟩
  | .hbm, ⟨76, _⟩ => ⟨S1x768, .f32⟩
  | .hbm, ⟨77, _⟩ => ⟨S1x768, .f32⟩
  | .hbm, ⟨78, _⟩ => ⟨S1x768, .f32⟩
  | .hbm, ⟨79, _⟩ => ⟨S64x196x768, .f32⟩
  | .local _ .vmem, ⟨0, _⟩ => ⟨S4x196x768, .f32⟩
  | .local _ .vmem, ⟨1, _⟩ => ⟨S4x196x768, .f32⟩
  | .local _ .vmem, ⟨2, _⟩ => ⟨S4x196x4, .i32⟩
  | .local _ .vmem, ⟨3, _⟩ => ⟨S4x196x4, .i32⟩
  | .local _ .vmem, ⟨4, _⟩ => ⟨S768x768, .bf16⟩
  | .local _ .vmem, ⟨5, _⟩ => ⟨S1x768, .f32⟩
  | .local _ .vmem, ⟨6, _⟩ => ⟨S768x768, .bf16⟩
  | .local _ .vmem, ⟨7, _⟩ => ⟨S1x768, .f32⟩
  | .local _ .vmem, ⟨8, _⟩ => ⟨S768x768, .bf16⟩
  | .local _ .vmem, ⟨9, _⟩ => ⟨S1x768, .f32⟩
  | .local _ .vmem, ⟨10, _⟩ => ⟨S4x196x768, .f32⟩
  | .local _ .vmem, ⟨11, _⟩ => ⟨S4x196x768, .f32⟩
  | _, _ => ⟨S64x196x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_4 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c_6 : Ref sig .tc := ⟨.hbm, 61, rfl⟩
abbrev main_c_7 : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_call0_v3 : Ref sig .tc := ⟨.hbm, 66, rfl⟩
abbrev main_call0_v4 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x196x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x196x4 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S768x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4x196x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S64 : S_.BroadcastsInDim S64 (![] : Fin 0 → Fin S64.rank)
  bcast_S64_S64x1_0 : S64.BroadcastsInDim S64x1 (![0] : Fin 1 → Fin S64x1.rank)
  slices_S64x2x196_S64x1x196_0_0_0 : S64x2x196.Slices ![0, 0, 0] S64x1x196
  shapeCasts_S64x1x196_S64x196 : S64x1x196.ShapeCasts S64x196
  slices_S64x2x196_S64x1x196_0_1_0 : S64x2x196.Slices ![0, 1, 0] S64x1x196
  bcast_S_S64x196 : S_.BroadcastsInDim S64x196 (![] : Fin 0 → Fin S64x196.rank)
  bcast_S64x196_S64x196x1_0_1 : S64x196.BroadcastsInDim S64x196x1 (![0, 1] : Fin 2 → Fin S64x196x1.rank)
  concatenates_S64x196x1_S64x196x1_S64x196x1_S64x196x1_S64x196x4_d2 : Shape.Concatenates [S64x196x1, S64x196x1, S64x196x1, S64x196x1] S64x196x4 2
  bcast_S_S64x196x4 : S_.BroadcastsInDim S64x196x4 (![] : Fin 0 → Fin S64x196x4.rank)
  transposes_S768x768_S768x768_1_0 : S768x768.Transposes [1, 0] S768x768
  bitsLt_bf16_f32 : FTy.bits .bf16 < FTy.bits .f32
  shapeCasts_S768_S1x768 : S768.ShapeCasts S1x768
  iota_S196x196_d1_w32 : S196x196.Iotas .tc 32 [1]
  inb_S4x196x768_S1x196x768_0_0_0 : ∀ a, (![0, 0, 0] : Fin 3 → Nat) a + S1x196x768.size a ≤ S4x196x768.size a
  h_S1x196x768 : 0 < S1x196x768.numel
  shapeCasts_S1x196x768_S196x768 : S1x196x768.ShapeCasts S196x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S196x768 : S1x768.Broadcasts S196x768
  concatenates_S196x768_S196x768_S196x1536_d1 : Shape.Concatenates [S196x768, S196x768] S196x1536 1
  inb_S4x196x4_S1x196x4_0_0_0 : ∀ a, (![0, 0, 0] : Fin 3 → Nat) a + S1x196x4.size a ≤ S4x196x4.size a
  h_S1x196x4 : 0 < S1x196x4.numel
  shapeCasts_S1x196x4_S196x4 : S1x196x4.ShapeCasts S196x4
  slices_S196x4_o0_0_S196x1 : S196x4.Slices ![0, 0] S196x1
  broadcasts_S196x1_S196x196 : S196x1.Broadcasts S196x196
  natLt_1_32 : 1 < 32
  slices_S196x1536_o0_0_S196x768 : S196x1536.Slices ![0, 0] S196x768
  slices_S196x1536_o0_768_S196x768 : S196x1536.Slices ![0, 768] S196x768
  slices_S196x4_o0_1_S196x1 : S196x4.Slices ![0, 1] S196x1
  slices_S196x4_o0_2_S196x1 : S196x4.Slices ![0, 2] S196x1
  slices_S196x4_o0_3_S196x1 : S196x4.Slices ![0, 3] S196x1
  shapeCasts_S196x768_S1x196x768 : S196x768.ShapeCasts S1x196x768
  inb_S4x196x768_S1x196x768_1_0_0 : ∀ a, (![1, 0, 0] : Fin 3 → Nat) a + S1x196x768.size a ≤ S4x196x768.size a
  inb_S4x196x4_S1x196x4_1_0_0 : ∀ a, (![1, 0, 0] : Fin 3 → Nat) a + S1x196x4.size a ≤ S4x196x4.size a
  inb_S4x196x768_S1x196x768_2_0_0 : ∀ a, (![2, 0, 0] : Fin 3 → Nat) a + S1x196x768.size a ≤ S4x196x768.size a
  inb_S4x196x4_S1x196x4_2_0_0 : ∀ a, (![2, 0, 0] : Fin 3 → Nat) a + S1x196x4.size a ≤ S4x196x4.size a
  inb_S4x196x768_S1x196x768_3_0_0 : ∀ a, (![3, 0, 0] : Fin 3 → Nat) a + S1x196x768.size a ≤ S4x196x768.size a
  inb_S4x196x4_S1x196x4_3_0_0 : ∀ a, (![3, 0, 0] : Fin 3 → Nat) a + S1x196x4.size a ≤ S4x196x4.size a
  gather_S1024x2x196_S64x1_S64x2x196_12_0_n_n_0_1_12196_wf : GatherDims.WF S1024x2x196 S64x1 S64x2x196 [1, 2] [0] [] [0] [] 1 ![1, 2, 196]
  dot_S196x768_S768x768_S196x768_1_0_0_1_n_n_wf : DotDims.WF S196x768 S768x768 S196x768 [1] [0] [0] [1] [] []
  dot_S196x196_S196x1536_S196x1536_1_0_0_1_n_n_wf : DotDims.WF S196x196 S196x1536 S196x1536 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x196x768.size a ≤ S64x196x768.size a
  hwx0_0 : ∀ i : grid0.Coords, EltTy.bits .f32 = 32 ∨ (Rect.block (s := S64x196x768) S4x196x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x196x4.size a ≤ S64x196x4.size a
  hwx0_1 : ∀ i : grid0.Coords, EltTy.bits .i32 = 32 ∨ (Rect.block (s := S64x196x4) S4x196x4.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x768.size a ≤ S768x768.size a
  hwx0_2 : ∀ i : grid0.Coords, EltTy.bits .bf16 = 32 ∨ (Rect.block (s := S768x768) S768x768.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x768.size a ≤ S1x768.size a
  hwx0_3 : ∀ i : grid0.Coords, EltTy.bits .f32 = 32 ∨ (Rect.block (s := S1x768) S1x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768x768.size a ≤ S768x768.size a
  hwx0_4 : ∀ i : grid0.Coords, EltTy.bits .bf16 = 32 ∨ (Rect.block (s := S768x768) S768x768.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x768.size a ≤ S1x768.size a
  hwx0_5 : ∀ i : grid0.Coords, EltTy.bits .f32 = 32 ∨ (Rect.block (s := S1x768) S1x768.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S768x768.size a ≤ S768x768.size a
  hwx0_6 : ∀ i : grid0.Coords, EltTy.bits .bf16 = 32 ∨ (Rect.block (s := S768x768) S768x768.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x768.size a ≤ S1x768.size a
  hwx0_7 : ∀ i : grid0.Coords, EltTy.bits .f32 = 32 ∨ (Rect.block (s := S1x768) S1x768.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4x196x768.size a ≤ S64x196x768.size a
  hwx0_8 : ∀ i : grid0.Coords, EltTy.bits .f32 = 32 ∨ (Rect.block (s := S64x196x768) S4x196x768.size (cc0_transform_8 i) (hinb0_8 i)).WholeWords (EltTy.packing .f32)

variable [Facts₀]

def gather_S1024x2x196_S64x1_S64x2x196_12_0_n_n_0_1_12196 : GatherDims S1024x2x196 S64x1 S64x2x196 where
  offsetDims := [1, 2]
  collapsedSliceDims := [0]
  operandBatchingDims := []
  startIndicesBatchingDims := []
  startIndexMap := [0]
  indexVectorDim := 1
  sliceSizes := ![1, 2, 196]
  wf := gather_S1024x2x196_S64x1_S64x2x196_12_0_n_n_0_1_12196_wf
def dot_S196x768_S768x768_S196x768_1_0_0_1_n_n : DotDims S196x768 S768x768 S196x768 where
  lhsContracting := [1]
  rhsContracting := [0]
  lhsNonContracting := [0]
  rhsNonContracting := [1]
  lhsBatch := []
  rhsBatch := []
  wf := dot_S196x768_S768x768_S196x768_1_0_0_1_n_n_wf
def dot_S196x196_S196x1536_S196x1536_1_0_0_1_n_n : DotDims S196x196 S196x1536 S196x1536 where
  lhsContracting := [1]
  rhsContracting := [0]
  lhsNonContracting := [0]
  rhsNonContracting := [1]
  lhsBatch := []
  rhsBatch := []
  wf := dot_S196x196_S196x1536_S196x1536_1_0_0_1_n_n_wf

abbrev win0_0 : Pipeline.Window sig grid0 :=
  Pipeline.Window.ofSpec (Memref.whole main_arg0) S4x196x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v42) S4x196x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v44) S768x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v49) S1x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v46) S768x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v50) S1x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v48) S768x768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v51) S1x768.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v52) S4x196x768.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S64x196x768 : Shape := ⟨3, ![64, 196, 768]⟩
abbrev S64x196 : Shape := ⟨2, ![64, 196]⟩
abbrev S64 : Shape := ⟨1, ![64]⟩
abbrev S64x2x196 : Shape := ⟨3, ![64, 2, 196]⟩
abbrev S768x768 : Shape := ⟨2, ![768, 768]⟩
abbrev S768 : Shape := ⟨1, ![768]⟩
abbrev S1024x2x196 : Shape := ⟨3, ![1024, 2, 196]⟩
abbrev S1x1x768 : Shape := ⟨3, ![1, 1, 768]⟩
abbrev S_ : Shape := ⟨0, ![]⟩
abbrev S64x1 : Shape := ⟨2, ![64, 1]⟩
abbrev S64x1x196 : Shape := ⟨3, ![64, 1, 196]⟩
abbrev S64x196x1 : Shape := ⟨3, ![64, 196, 1]⟩
abbrev S64x196x4 : Shape := ⟨3, ![64, 196, 4]⟩
abbrev S64x1x1 : Shape := ⟨3, ![64, 1, 1]⟩
abbrev S64x196x4x1 : Shape := ⟨4, ![64, 196, 4, 1]⟩
abbrev S64x196x4x2 : Shape := ⟨4, ![64, 196, 4, 2]⟩
abbrev S64x196x4x768 : Shape := ⟨4, ![64, 196, 4, 768]⟩
abbrev S64x196x1x768 : Shape := ⟨4, ![64, 196, 1, 768]⟩

abbrev nBuf : Space → Nat
  | .hbm => 142
  | .vmem => 0
  | .smem => 0
  | _ => 0

abbrev hbmTy0_0 (i : Nat) : BufTy := match i % 128 with
  | 0 => ⟨S64x196x768, .f32⟩
  | 1 => ⟨S64x196, .i1⟩
  | 2 => ⟨S64, .i32⟩
  | 3 => ⟨S64x2x196, .f32⟩
  | 4 => ⟨S768x768, .f32⟩
  | 5 => ⟨S768, .f32⟩
  | 6 => ⟨S768x768, .f32⟩
  | 7 => ⟨S768, .f32⟩
  | 8 => ⟨S768x768, .f32⟩
  | 9 => ⟨S768, .f32⟩
  | 10 => ⟨S1024x2x196, .f32⟩
  | 11 => ⟨S1024x2x196, .f32⟩
  | 12 => ⟨S64x196x768, .f32⟩
  | 13 => ⟨S1x1x768, .f32⟩
  | 14 => ⟨S64x196x768, .f32⟩
  | 15 => ⟨S64x196x768, .f32⟩
  | 16 => ⟨S64x196x768, .f32⟩
  | 17 => ⟨S1x1x768, .f32⟩
  | 18 => ⟨S64x196x768, .f32⟩
  | 19 => ⟨S64x196x768, .f32⟩
  | 20 => ⟨S64x196x768, .f32⟩
  | 21 => ⟨S1x1x768, .f32⟩
  | 22 => ⟨S64x196x768, .f32⟩
  | 23 => ⟨S64x196x768, .f32⟩
  | 24 => ⟨S_, .i32⟩
  | 25 => ⟨S64, .i32⟩
  | 26 => ⟨S64, .i1⟩
  | 27 => ⟨S_, .i32⟩
  | 28 => ⟨S64, .i32⟩
  | 29 => ⟨S64, .i32⟩
  | 30 => ⟨S64, .i32⟩
  | 31 => ⟨S64x1, .i32⟩
  | 32 => ⟨S64x2x196, .f32⟩
  | 33 => ⟨S_, .i32⟩
  | 34 => ⟨S64, .i32⟩
  | 35 => ⟨S64, .i1⟩
  | 36 => ⟨S_, .i32⟩
  | 37 => ⟨S64, .i32⟩
  | 38 => ⟨S64, .i32⟩
  | 39 => ⟨S64, .i32⟩
  | 40 => ⟨S64x1, .i32⟩
  | 41 => ⟨S64x2x196, .f32⟩
  | 42 => ⟨S64x2x196, .f32⟩
  | 43 => ⟨S64x2x196, .f32⟩
  | 44 => ⟨S64x1x196, .f32⟩
  | 45 => ⟨S64x196, .f32⟩
  | 46 => ⟨S64x1x196, .f32⟩
  | 47 => ⟨S64x196, .f32⟩
  | 48 => ⟨S64x196, .f32⟩
  | 49 => ⟨S64x196, .f32⟩
  | 50 => ⟨S64x196, .f32⟩
  | 51 => ⟨S64x196, .f32⟩
  | 52 => ⟨S_, .f32⟩
  | 53 => ⟨S64x196, .f32⟩
  | 54 => ⟨S64x196, .f32⟩
  | 55 => ⟨S64x196, .f32⟩
  | 56 => ⟨S_, .f32⟩
  | 57 => ⟨S64x196, .f32⟩
  | 58 => ⟨S64x196, .f32⟩
  | 59 => ⟨S64x196, .f32⟩
  | 60 => ⟨S_, .f32⟩
  | 61 => ⟨S64x196, .f32⟩
  | 62 => ⟨S64x196, .f32⟩
  | 63 => ⟨S64x196, .f32⟩
  | 64 => ⟨S_, .f32⟩
  | 65 => ⟨S64x196, .f32⟩
  | 66 => ⟨S64x196, .f32⟩
  | 67 => ⟨S64x196, .f32⟩
  | 68 => ⟨S64x196x1, .f32⟩
  | 69 => ⟨S64x196x1, .f32⟩
  | 70 => ⟨S64x196x1, .f32⟩
  | 71 => ⟨S64x196x1, .f32⟩
  | 72 => ⟨S64x196x4, .f32⟩
  | 73 => ⟨S_, .i32⟩
  | 74 => ⟨S_, .i32⟩
  | 75 => ⟨S_, .f32⟩
  | 76 => ⟨S64x196x4, .f32⟩
  | 77 => ⟨S64x196x4, .f32⟩
  | 78 => ⟨S_, .f32⟩
  | 79 => ⟨S64x196x4, .f32⟩
  | 80 => ⟨S64x196x4, .f32⟩
  | 81 => ⟨S64x196x4, .i32⟩
  | 82 => ⟨S64, .i32⟩
  | 83 => ⟨S64x1x1, .i32⟩
  | 84 => ⟨S_, .i32⟩
  | 85 => ⟨S64x1x1, .i32⟩
  | 86 => ⟨S64x1x1, .i1⟩
  | 87 => ⟨S_, .i32⟩
  | 88 => ⟨S64x1x1, .i32⟩
  | 89 => ⟨S64x1x1, .i32⟩
  | 90 => ⟨S64x1x1, .i32⟩
  | 91 => ⟨S_, .i32⟩
  | 92 => ⟨S64x196x4, .i32⟩
  | 93 => ⟨S64x196x4, .i1⟩
  | 94 => ⟨S_, .i32⟩
  | 95 => ⟨S64x196x4, .i32⟩
  | 96 => ⟨S64x196x4, .i32⟩
  | 97 => ⟨S64x196x4, .i32⟩
  | 98 => ⟨S64x196x4, .i32⟩
  | 99 => ⟨S64x196x4x1, .i32⟩
  | 100 => ⟨S64x196x4x1, .i32⟩
  | 101 => ⟨S64x196x4x2, .i32⟩
  | 102 => ⟨S64x196x4x768, .f32⟩
  | 103 => ⟨S_, .i32⟩
  | 104 => ⟨S64x1x1, .i32⟩
  | 105 => ⟨S64x1x1, .i1⟩
  | 106 => ⟨S_, .i32⟩
  | 107 => ⟨S64x1x1, .i32⟩
  | 108 => ⟨S64x1x1, .i32⟩
  | 109 => ⟨S64x1x1, .i32⟩
  | 110 => ⟨S_, .i32⟩
  | 111 => ⟨S64x196x4, .i32⟩
  | 112 => ⟨S64x196x4, .i1⟩
  | 113 => ⟨S_, .i32⟩
  | 114 => ⟨S64x196x4, .i32⟩
  | 115 => ⟨S64x196x4, .i32⟩
  | 116 => ⟨S64x196x4, .i32⟩
  | 117 => ⟨S64x196x4, .i32⟩
  | 118 => ⟨S64x196x4x1, .i32⟩
  | 119 => ⟨S64x196x4x1, .i32⟩
  | 120 => ⟨S64x196x4x2, .i32⟩
  | 121 => ⟨S64x196x4x768, .f32⟩
  | 122 => ⟨S64x196x1x768, .f32⟩
  | 123 => ⟨S64x196x4x768, .f32⟩
  | 124 => ⟨S64x196x4x768, .f32⟩
  | 125 => ⟨S_, .f32⟩
  | 126 => ⟨S64x196x768, .f32⟩
  | 127 => ⟨S_, .f32⟩
  | _ => ⟨S64x196x768, .f32⟩

abbrev hbmTy0_1 (i : Nat) : BufTy := match i % 128 with
  | 0 => ⟨S64x196x768, .f32⟩
  | 1 => ⟨S64x196x768, .f32⟩
  | 2 => ⟨S64x196x1x768, .f32⟩
  | 3 => ⟨S64x196x4x768, .f32⟩
  | 4 => ⟨S64x196x4x768, .f32⟩
  | 5 => ⟨S64x196x4x768, .f32⟩
  | 6 => ⟨S_, .f32⟩
  | 7 => ⟨S64x196x768, .f32⟩
  | 8 => ⟨S64x196x1x768, .f32⟩
  | 9 => ⟨S64x196x4x768, .f32⟩
  | 10 => ⟨S64x196x4x768, .f32⟩
  | 11 => ⟨S64x196x4x768, .f32⟩
  | 12 => ⟨S_, .f32⟩
  | 13 => ⟨S64x196x768, .f32⟩
  | _ => ⟨S64x196x768, .f32⟩

abbrev hbmTy (i : Nat) : BufTy := match i / 128 with
  | 0 => hbmTy0_0 i
  | 1 => hbmTy0_1 i
  | _ => ⟨S64x196x768, .f32⟩

abbrev bufTy : (tb : Table) → Fin (tcTables nBuf tb) → BufTy
  | .hbm, ⟨i, _⟩ => hbmTy i
  | _, _ => ⟨S64x196x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_1 : Ref sig .tc := ⟨.hbm, 33, rfl⟩
abbrev main_v19 : Ref sig .tc := ⟨.hbm, 34, rfl⟩
abbrev main_v20 : Ref sig .tc := ⟨.hbm, 35, rfl⟩
abbrev main_c_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_3 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_4 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_5 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_c_6 : Ref sig .tc := ⟨.hbm, 73, rfl⟩
abbrev main_c_7 : Ref sig .tc := ⟨.hbm, 74, rfl⟩
abbrev main_call0_v0 : Ref sig .tc := ⟨.hbm, 75, rfl⟩
abbrev main_call0_v1 : Ref sig .tc := ⟨.hbm, 76, rfl⟩
abbrev main_call0_v2 : Ref sig .tc := ⟨.hbm, 77, rfl⟩
abbrev main_call0_v3 : Ref sig .tc := ⟨.hbm, 78, rfl⟩
abbrev main_call0_v4 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_c_8 : Ref sig .tc := ⟨.hbm, 84, rfl⟩
abbrev main_v57 : Ref sig .tc := ⟨.hbm, 85, rfl⟩
abbrev main_v58 : Ref sig .tc := ⟨.hbm, 86, rfl⟩
abbrev main_c_9 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_c_10 : Ref sig .tc := ⟨.hbm, 91, rfl⟩
abbrev main_v62 : Ref sig .tc := ⟨.hbm, 92, rfl⟩
abbrev main_v63 : Ref sig .tc := ⟨.hbm, 93, rfl⟩
abbrev main_c_11 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_12 : Ref sig .tc := ⟨.hbm, 103, rfl⟩
abbrev main_v72 : Ref sig .tc := ⟨.hbm, 104, rfl⟩
abbrev main_v73 : Ref sig .tc := ⟨.hbm, 105, rfl⟩
abbrev main_c_13 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_c_14 : Ref sig .tc := ⟨.hbm, 110, rfl⟩
abbrev main_v77 : Ref sig .tc := ⟨.hbm, 111, rfl⟩
abbrev main_v78 : Ref sig .tc := ⟨.hbm, 112, rfl⟩
abbrev main_c_15 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_cst_16 : Ref sig .tc := ⟨.hbm, 125, rfl⟩
abbrev main_v90 : Ref sig .tc := ⟨.hbm, 126, rfl⟩
abbrev main_cst_17 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_cst_18 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_cst_19 : Ref sig .tc := ⟨.hbm, 140, rfl⟩
abbrev main_v102 : Ref sig .tc := ⟨.hbm, 141, rfl⟩

abbrev nD : Nat := 1
abbrev τ : Topo := Topo.v7x

variable {F : FTy → Type} [FloatOps F]

class Facts₀ : Prop where
  bcast_S768_S1x1x768_2 : S768.BroadcastsInDim S1x1x768 (![2] : Fin 1 → Fin S1x1x768.rank)
  bcast_S1x1x768_S64x196x768_0_1_2 : S1x1x768.BroadcastsInDim S64x196x768 (![0, 1, 2] : Fin 3 → Fin S64x196x768.rank)
  bcast_S_S64 : S_.BroadcastsInDim S64 (![] : Fin 0 → Fin S64.rank)
  bcast_S64_S64x1_0 : S64.BroadcastsInDim S64x1 (![0] : Fin 1 → Fin S64x1.rank)
  slices_S64x2x196_S64x1x196_0_0_0 : S64x2x196.Slices ![0, 0, 0] S64x1x196
  shapeCasts_S64x1x196_S64x196 : S64x1x196.ShapeCasts S64x196
  slices_S64x2x196_S64x1x196_0_1_0 : S64x2x196.Slices ![0, 1, 0] S64x1x196
  bcast_S_S64x196 : S_.BroadcastsInDim S64x196 (![] : Fin 0 → Fin S64x196.rank)
  bcast_S64x196_S64x196x1_0_1 : S64x196.BroadcastsInDim S64x196x1 (![0, 1] : Fin 2 → Fin S64x196x1.rank)
  concatenates_S64x196x1_S64x196x1_S64x196x1_S64x196x1_S64x196x4_d2 : Shape.Concatenates [S64x196x1, S64x196x1, S64x196x1, S64x196x1] S64x196x4 2
  bcast_S_S64x196x4 : S_.BroadcastsInDim S64x196x4 (![] : Fin 0 → Fin S64x196x4.rank)
  bcast_S64_S64x1x1_0 : S64.BroadcastsInDim S64x1x1 (![0] : Fin 1 → Fin S64x1x1.rank)
  bcast_S_S64x1x1 : S_.BroadcastsInDim S64x1x1 (![] : Fin 0 → Fin S64x1x1.rank)
  bcast_S64x1x1_S64x196x4_0_1_2 : S64x1x1.BroadcastsInDim S64x196x4 (![0, 1, 2] : Fin 3 → Fin S64x196x4.rank)
  bcast_S64x196x4_S64x196x4x1_0_1_2 : S64x196x4.BroadcastsInDim S64x196x4x1 (![0, 1, 2] : Fin 3 → Fin S64x196x4x1.rank)
  concatenates_S64x196x4x1_S64x196x4x1_S64x196x4x2_d3 : Shape.Concatenates [S64x196x4x1, S64x196x4x1] S64x196x4x2 3
  bcast_S64x196x768_S64x196x1x768_0_1_3 : S64x196x768.BroadcastsInDim S64x196x1x768 (![0, 1, 3] : Fin 3 → Fin S64x196x1x768.rank)
  bcast_S64x196x1x768_S64x196x4x768_0_1_2_3 : S64x196x1x768.BroadcastsInDim S64x196x4x768 (![0, 1, 2, 3] : Fin 4 → Fin S64x196x4x768.rank)
  reducesTo_S64x196x4x768_S64x196x768_d2 : S64x196x4x768.ReducesTo [2] S64x196x768
  h_S_ : 0 < S_.numel
  bcast_S_S64x196x768 : S_.BroadcastsInDim S64x196x768 (![] : Fin 0 → Fin S64x196x768.rank)
  dot_S64x196x768_S768x768_S64x196x768_2_1_01_0_n_n_wf : DotDims.WF S64x196x768 S768x768 S64x196x768 [2] [1] [0, 1] [0] [] []
  gather_S1024x2x196_S64x1_S64x2x196_12_0_n_n_0_1_12196_wf : GatherDims.WF S1024x2x196 S64x1 S64x2x196 [1, 2] [0] [] [0] [] 1 ![1, 2, 196]
  gather_S64x196x768_S64x196x4x2_S64x196x4x768_3_01_n_n_01_3_11768_wf : GatherDims.WF S64x196x768 S64x196x4x2 S64x196x4x768 [3] [0, 1] [] [0, 1] [] 3 ![1, 1, 768]

variable [Facts₀]

def dot_S64x196x768_S768x768_S64x196x768_2_1_01_0_n_n : DotDims S64x196x768 S768x768 S64x196x768 where
  lhsContracting := [2]
  rhsContracting := [1]
  lhsNonContracting := [0, 1]
  rhsNonContracting := [0]
  lhsBatch := []
  rhsBatch := []
  wf := dot_S64x196x768_S768x768_S64x196x768_2_1_01_0_n_n_wf
def gather_S1024x2x196_S64x1_S64x2x196_12_0_n_n_0_1_12196 : GatherDims S1024x2x196 S64x1 S64x2x196 where
  offsetDims := [1, 2]
  collapsedSliceDims := [0]
  operandBatchingDims := []
  startIndicesBatchingDims := []
  startIndexMap := [0]
  indexVectorDim := 1
  sliceSizes := ![1, 2, 196]
  wf := gather_S1024x2x196_S64x1_S64x2x196_12_0_n_n_0_1_12196_wf
def gather_S64x196x768_S64x196x4x2_S64x196x4x768_3_01_n_n_01_3_11768 : GatherDims S64x196x768 S64x196x4x2 S64x196x4x768 where
  offsetDims := [3]
  collapsedSliceDims := [0, 1]
  operandBatchingDims := []
  startIndicesBatchingDims := []
  startIndexMap := [0, 1]
  indexVectorDim := 3
  sliceSizes := ![1, 1, 768]
  wf := gather_S64x196x768_S64x196x4x2_S64x196x4x768_3_01_n_n_01_3_11768_wf

class Facts : Prop extends Facts₀ where

variable [Facts]
-- ==== Proof.ImagesBits.lean ====
/-
  What the fused kernel's body stores at one grid point, at any float instance: four whole images of the output
  block, each a pure function (the body's own named arithmetic) of the four input images, their index rows, the three
  weight matrices and the three bias rows it loaded; and the output buffer after the body as those four pieces.
-/
import proofs.«123472_j1975684956773_2_alg».proof.Proof.Gen.Kernel.Skeleton
import Idealize.ShloMosaic.Lib.Pipeline.FrameBody

set_option maxRecDepth 16384

noncomputable section

namespace Cert.Kernel.Frame

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

/-! ## The body's accesses -/

abbrev rX0 : Rect S4x196x768 := Rect.unit (s := S4x196x768) ![0, 0, 0] S1x196x768.size inb_S4x196x768_S1x196x768_0_0_0
abbrev rX1 : Rect S4x196x768 := Rect.unit (s := S4x196x768) ![1, 0, 0] S1x196x768.size inb_S4x196x768_S1x196x768_1_0_0
abbrev rX2 : Rect S4x196x768 := Rect.unit (s := S4x196x768) ![2, 0, 0] S1x196x768.size inb_S4x196x768_S1x196x768_2_0_0
abbrev rX3 : Rect S4x196x768 := Rect.unit (s := S4x196x768) ![3, 0, 0] S1x196x768.size inb_S4x196x768_S1x196x768_3_0_0
abbrev rI0 : Rect S4x196x4 := Rect.unit (s := S4x196x4) ![0, 0, 0] S1x196x4.size inb_S4x196x4_S1x196x4_0_0_0
abbrev rI1 : Rect S4x196x4 := Rect.unit (s := S4x196x4) ![1, 0, 0] S1x196x4.size inb_S4x196x4_S1x196x4_1_0_0
abbrev rI2 : Rect S4x196x4 := Rect.unit (s := S4x196x4) ![2, 0, 0] S1x196x4.size inb_S4x196x4_S1x196x4_2_0_0
abbrev rI3 : Rect S4x196x4 := Rect.unit (s := S4x196x4) ![3, 0, 0] S1x196x4.size inb_S4x196x4_S1x196x4_3_0_0
abbrev rW : Rect S768x768 := Rect.unit (s := S768x768) ![0, 0] S768x768.size inb_S768x768_S768x768_0_0
abbrev rB : Rect S1x768 := Rect.unit (s := S1x768) ![0, 0] S1x768.size inb_S1x768_S1x768_0_0

/-! ## What the body stores, image by image

Each stored image as the body's own arithmetic (the named payloads) of what it loaded: the image of the input, its
index rows, the weights and the bias rows. The lane numbers every image compares the indices with are shared. -/

/-- The key positions 0 … 195 along the lanes. -/
def lanes : IVec S196x196 32 := iota .tc S196x196 32 [1] iota_S196x196_d1_w32

/-- The first image the body stores. -/
def img0 (x0 : Vec F S4x196x768 .f32) (x1 : Vec F S4x196x4 .i32) (x2 : Vec F S768x768 .bf16) (x3 : Vec F S1x768 .f32) (x4 : Vec F S768x768 .bf16) (x5 : Vec F S1x768 .f32) (x6 : Vec F S768x768 .bf16) (x7 : Vec F S1x768 .f32) : Vec F S1x196x768 .f32 :=
  let v0 : IVec S196x196 32 := lanes
  let v1 := View.ld x0 rX0; let v28 := View.ld x1 rI0
  let v10 := k0_pay3 v1 (View.ld x2 rW) (View.ld x3 rB)
  let v27 := k0_pay4 v1 (View.ld x4 rW) (View.ld x5 rB) (View.ld x6 rW) (View.ld x7 rB)
  let v29 := k0_pay5 (F := F) v28; let v30 := k0_pay6 (F := F); let v31 := k0_pay7 (F := F); let v32 := k0_pay8 (F := F); let v34 := k0_pay9 (F := F) v28
  k0_pay28 v0 v10 v27 v29 (k0_pay22 v0 v10 v27 v29 v30 v34) (k0_pay25 v0 v10 v27 v29 v30 v31 v34) (k0_pay26 v0 v10 v27 v29 v30 v32 v34) (k0_pay27 v0 v10 v27 v29 v30 v34)

/-- The second. -/
def img1 (x0 : Vec F S4x196x768 .f32) (x1 : Vec F S4x196x4 .i32) (x2 : Vec F S768x768 .bf16) (x3 : Vec F S1x768 .f32) (x4 : Vec F S768x768 .bf16) (x5 : Vec F S1x768 .f32) (x6 : Vec F S768x768 .bf16) (x7 : Vec F S1x768 .f32) : Vec F S1x196x768 .f32 :=
  let v0 : IVec S196x196 32 := lanes
  let v117 := View.ld x0 rX1
  let v119 := k0_pay29 v117; let v126 := k0_pay30 v117 (View.ld x2 rW) (View.ld x3 rB); let v133 := k0_pay31 v117 (View.ld x4 rW) (View.ld x5 rB)
  let v134 := View.ld x6 rW; let v137 := View.ld x7 rB; let v144 := View.ld x1 rI1
  k0_pay47 v0 v126 (k0_pay32 v119 v133 v134 v137) (k0_pay33 (F := F) v144) (k0_pay40 v0 v119 v126 v133 v134 v137 v144) (k0_pay41 v0 v119 v126 v133 v134 v137 v144)
    (k0_pay43 v0 v119 v133 v134 v137 v144) (k0_pay44 v0 v119 v126 v133 v134 v137 v144) (k0_pay45 v0 v119 v126 v133 v134 v137 v144) (k0_pay46 v0 v119 v126 v133 v134 v137 v144)

/-- The third. -/
def img2 (x0 : Vec F S4x196x768 .f32) (x1 : Vec F S4x196x4 .i32) (x2 : Vec F S768x768 .bf16) (x3 : Vec F S1x768 .f32) (x4 : Vec F S768x768 .bf16) (x5 : Vec F S1x768 .f32) (x6 : Vec F S768x768 .bf16) (x7 : Vec F S1x768 .f32) : Vec F S1x196x768 .f32 :=
  let v0 : IVec S196x196 32 := lanes
  let v233 := View.ld x0 rX2; let v260 := View.ld x1 rI2
  let v242 := k0_pay49 v233 (View.ld x2 rW) (View.ld x3 rB)
  let v259 := k0_pay50 v233 (View.ld x4 rW) (View.ld x5 rB) (View.ld x6 rW) (View.ld x7 rB)
  let v261 := k0_pay51 (F := F) v260; let v262 := k0_pay52 (F := F); let v263 := k0_pay53 (F := F); let v264 := k0_pay54 (F := F); let v270 := k0_pay55 (F := F) v0 v260
  k0_pay74 v242 v259 (k0_pay68 v0 v242 v259 v261 v262 v270) (k0_pay71 v0 v242 v259 v261 v262 v263 v270) (k0_pay72 v0 v242 v259 v261 v262 v264 v270) (k0_pay73 v0 v261)

/-- The fourth. -/
def img3 (x0 : Vec F S4x196x768 .f32) (x1 : Vec F S4x196x4 .i32) (x2 : Vec F S768x768 .bf16) (x3 : Vec F S1x768 .f32) (x4 : Vec F S768x768 .bf16) (x5 : Vec F S1x768 .f32) (x6 : Vec F S768x768 .bf16) (x7 : Vec F S1x768 .f32) : Vec F S1x196x768 .f32 :=
  let v0 : IVec S196x196 32 := lanes
  let v349 := View.ld x0 rX3
  let v351 := k0_pay75 v349; let v358 := k0_pay76 v349 (View.ld x2 rW) (View.ld x3 rB); let v365 := k0_pay77 v349 (View.ld x4 rW) (View.ld x5 rB)
  let v367 := k0_pay78 (View.ld x6 rW); let v369 := View.ld x7 rB; let v376 := View.ld x1 rI3
  k0_pay1 (k0_pay95 v0 v358 (k0_pay79 v351 v365 v367 v369) (k0_pay80 (F := F) v376) (k0_pay87 v0 v351 v358 v365 v367 v369 v376) (k0_pay89 v0 v351 v365 v367 v369 v376)
    (k0_pay91 v0 v351 v358 v365 v367 v369 v376) (k0_pay92 v0 v351 v358 v365 v367 v369 v376) (k0_pay93 v0 v351 v358 v365 v367 v369 v376) (k0_pay94 v0 v351 v358 v365 v367 v369 v376))

/-- The output buffer after the body: its four stores as pieces, last first. -/
def out0_8 (x0 : Vec F S4x196x768 .f32) (x1 : Vec F S4x196x4 .i32) (x2 : Vec F S768x768 .bf16) (x3 : Vec F S1x768 .f32) (x4 : Vec F S768x768 .bf16) (x5 : Vec F S1x768 .f32) (x6 : Vec F S768x768 .bf16) (x7 : Vec F S1x768 .f32) : Vec F S4x196x768 .f32 :=
  View.canon [⟨rX3, img3 x0 x1 x2 x3 x4 x5 x6 x7⟩, ⟨rX2, img2 x0 x1 x2 x3 x4 x5 x6 x7⟩, ⟨rX1, img1 x0 x1 x2 x3 x4 x5 x6 x7⟩, ⟨rX0, img0 x0 x1 x2 x3 x4 x5 x6 x7⟩]

/-- The four stored images tile the buffer, so they cover it. -/
theorem cover0_8 (p3 p2 p1 p0 : Vec F S1x196x768 .f32) (y : S4x196x768.Idx) :
    ∃ pc ∈ ([⟨rX3, p3⟩, ⟨rX2, p2⟩, ⟨rX1, p1⟩, ⟨rX0, p0⟩] : List (View.Piece (Elt F) S4x196x768 .f32)), y ∈ pc.1.set :=
  View.cover_of_tiled [⟨rX3, p3⟩, ⟨rX2, p2⟩, ⟨rX1, p1⟩, ⟨rX0, p0⟩] S1x196x768.size (by rfl) y

end Cert.Kernel.Frame

end
-- ==== Proof.FrameBits.lean ====
/-
  The frame of the fused projection-and-gather kernel, at any float instance.

  @main is three stretches of host operations (the index arithmetic on the sampled coordinates, the clip, the
  conversions and transposes of the weights) and then one region of sixteen grid points.  At each point the body reads
  four images of the input, their four-corner index rows, the three weight matrices and the three bias rows, and writes
  the four output images, one whole image per store; it keeps nothing between points.  So after the body the output
  buffer is the four stored images side by side along the leading axis, each a pure function of what was loaded.
  From that: the body's triple, the proof data of the one pipeline, the body obligation at every point, the run of
  @main, and the frame (the twelve argument arrays end as they began).
-/
import proofs.«123472_j1975684956773_2_alg».proof.Proof.Gen.Kernel.Launch
import proofs.«123472_j1975684956773_2_alg».proof.Proof.ImagesBits
import proofs.«123472_j1975684956773_2_alg».proof.Proof.Gen.Kernel.Skeleton
import proofs.«123472_j1975684956773_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the three stretches of host operations. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- @main is the three stretches of host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation writes the given argument: every operation's one written buffer is another reference. -/
local macro "not_written" : tactic => `(tactic| (
  simp only [hostOps0, hostOps0_1, hostOps0_2, List.flatten_cons, List.flatten_nil, List.append_nil, List.cons_append,
    List.nil_append, List.Forall, StableHlo.TRef.unary, StableHlo.TRef.binary, StableHlo.nullary_writes, StableHlo.unary_writes, StableHlo.binary_writes, StableHlo.ternary_writes,
    StableHlo.quaternary_writes, StableHlo.reshape_writes, StableHlo.binaryIndexed_writes, StableHlo.nary_writes, Finset.mem_singleton]
  repeat' apply And.intro
  all_goals exact StableHlo.devRef_ne_of_ne (by decide)))

theorem V_main_arg0 (c : Dev nD) : V m c main_arg0 = m ((c : Thread nD τ).loc main_arg0) :=
  StableHlo.after_of_forall_not_mem (b := Proc.devRef .tc main_arg0) _ _ (List.forall_iff_forall_mem.mp (by not_written))
theorem V_main_arg1 (c : Dev nD) : V m c main_arg1 = m ((c : Thread nD τ).loc main_arg1) :=
  StableHlo.after_of_forall_not_mem (b := Proc.devRef .tc main_arg1) _ _ (List.forall_iff_forall_mem.mp (by not_written))
theorem V_main_arg2 (c : Dev nD) : V m c main_arg2 = m ((c : Thread nD τ).loc main_arg2) :=
  StableHlo.after_of_forall_not_mem (b := Proc.devRef .tc main_arg2) _ _ (List.forall_iff_forall_mem.mp (by not_written))
theorem V_main_arg3 (c : Dev nD) : V m c main_arg3 = m ((c : Thread nD τ).loc main_arg3) :=
  StableHlo.after_of_forall_not_mem (b := Proc.devRef .tc main_arg3) _ _ (List.forall_iff_forall_mem.mp (by not_written))
theorem V_main_arg4 (c : Dev nD) : V m c main_arg4 = m ((c : Thread nD τ).loc main_arg4) :=
  StableHlo.after_of_forall_not_mem (b := Proc.devRef .tc main_arg4) _ _ (List.forall_iff_forall_mem.mp (by not_written))
theorem V_main_arg5 (c : Dev nD) : V m c main_arg5 = m ((c : Thread nD τ).loc main_arg5) :=
  StableHlo.after_of_forall_not_mem (b := Proc.devRef .tc main_arg5) _ _ (List.forall_iff_forall_mem.mp (by not_written))
theorem V_main_arg6 (c : Dev nD) : V m c main_arg6 = m ((c : Thread nD τ).loc main_arg6) :=
  StableHlo.after_of_forall_not_mem (b := Proc.devRef .tc main_arg6) _ _ (List.forall_iff_forall_mem.mp (by not_written))
theorem V_main_arg7 (c : Dev nD) : V m c main_arg7 = m ((c : Thread nD τ).loc main_arg7) :=
  StableHlo.after_of_forall_not_mem (b := Proc.devRef .tc main_arg7) _ _ (List.forall_iff_forall_mem.mp (by not_written))
theorem V_main_arg8 (c : Dev nD) : V m c main_arg8 = m ((c : Thread nD τ).loc main_arg8) :=
  StableHlo.after_of_forall_not_mem (b := Proc.devRef .tc main_arg8) _ _ (List.forall_iff_forall_mem.mp (by not_written))
theorem V_main_arg9 (c : Dev nD) : V m c main_arg9 = m ((c : Thread nD τ).loc main_arg9) :=
  StableHlo.after_of_forall_not_mem (b := Proc.devRef .tc main_arg9) _ _ (List.forall_iff_forall_mem.mp (by not_written))
theorem V_main_arg10 (c : Dev nD) : V m c main_arg10 = m ((c : Thread nD τ).loc main_arg10) :=
  StableHlo.after_of_forall_not_mem (b := Proc.devRef .tc main_arg10) _ _ (List.forall_iff_forall_mem.mp (by not_written))
theorem V_main_arg11 (c : Dev nD) : V m c main_arg11 = m ((c : Thread nD τ).loc main_arg11) :=
  StableHlo.after_of_forall_not_mem (b := Proc.devRef .tc main_arg11) _ _ (List.forall_iff_forall_mem.mp (by not_written))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c)⟩) h

/-! ## The body's triple -/

set_option maxHeartbeats 4000000 in
/-- The body on whole staging memrefs, the inputs' at contents `xW` and the output's at anything, runs to the
    continuation holding the inputs' as they were and the output's at `out0_8` of the inputs'. -/
theorem sound_kernel (c : Dev nD) (E : Set ℕ) (i : grid0.Coords) (arg1 : Memref sig .tc .vmem S4x196x768 .f32) (harg1 : arg1.IsWhole) (arg2 : Memref sig .tc .vmem S4x196x4 .i32) (harg2 : arg2.IsWhole) (arg3 : Memref sig .tc .vmem S768x768 .bf16) (harg3 : arg3.IsWhole) (arg4 : Memref sig .tc .vmem S1x768 .f32) (harg4 : arg4.IsWhole) (arg5 : Memref sig .tc .vmem S768x768 .bf16) (harg5 : arg5.IsWhole) (arg6 : Memref sig .tc .vmem S1x768 .f32) (harg6 : arg6.IsWhole) (arg7 : Memref sig .tc .vmem S768x768 .bf16) (harg7 : arg7.IsWhole) (arg8 : Memref sig .tc .vmem S1x768 .f32) (harg8 : arg8.IsWhole) (arg9 : Memref sig .tc .vmem S4x196x768 .f32) (harg9 : arg9.IsWhole)
    (x0 : Vec F S4x196x768 .f32) (x1 : Vec F S4x196x4 .i32) (x2 : Vec F S768x768 .bf16) (x3 : Vec F S1x768 .f32) (x4 : Vec F S768x768 .bf16) (x5 : Vec F S1x768 .f32) (x6 : Vec F S768x768 .bf16) (x7 : Vec F S1x768 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out0_8 x0 x1 x2 x3 x4 x5 x6 x7)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover0_8 _ _ _ _)

/-! ## The pipeline's proof data -/

/-- The arrays as the region finds them; after the body at point `t` each input's buffer at its block and the output's
    at `out0_8` of the input blocks; the invariant the untouched rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out0_8 (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = out0_8 (iblk m c 0 t) (iblk m c 1 t) (iblk m c 2 t) (iblk m c 3 t) (iblk m c 4 t) (iblk m c 5 t) (iblk m c 6 t) (iblk m c 7 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what the
    library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the twelve argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

end Cert.Kernel.Frame

end
-- ==== Proof.ImagesIdeal.lean ====
/-
  What the fused kernel's body stores at one grid point, at any float instance: four whole images of the output
  block, each a pure function (the body's own named arithmetic) of the four input images, their index rows, the three
  weight matrices and the three bias rows it loaded; and the output buffer after the body as those four pieces.
-/
import proofs.«123472_j1975684956773_2_alg».proof.Proof.Gen.KernelIdeal.Skeleton
import Idealize.ShloMosaic.Lib.Pipeline.FrameBody

set_option maxRecDepth 16384

noncomputable section

namespace Cert.KernelIdeal.Frame

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

/-! ## The body's accesses -/

abbrev rX0 : Rect S4x196x768 := Rect.unit (s := S4x196x768) ![0, 0, 0] S1x196x768.size inb_S4x196x768_S1x196x768_0_0_0
abbrev rX1 : Rect S4x196x768 := Rect.unit (s := S4x196x768) ![1, 0, 0] S1x196x768.size inb_S4x196x768_S1x196x768_1_0_0
abbrev rX2 : Rect S4x196x768 := Rect.unit (s := S4x196x768) ![2, 0, 0] S1x196x768.size inb_S4x196x768_S1x196x768_2_0_0
abbrev rX3 : Rect S4x196x768 := Rect.unit (s := S4x196x768) ![3, 0, 0] S1x196x768.size inb_S4x196x768_S1x196x768_3_0_0
abbrev rI0 : Rect S4x196x4 := Rect.unit (s := S4x196x4) ![0, 0, 0] S1x196x4.size inb_S4x196x4_S1x196x4_0_0_0
abbrev rI1 : Rect S4x196x4 := Rect.unit (s := S4x196x4) ![1, 0, 0] S1x196x4.size inb_S4x196x4_S1x196x4_1_0_0
abbrev rI2 : Rect S4x196x4 := Rect.unit (s := S4x196x4) ![2, 0, 0] S1x196x4.size inb_S4x196x4_S1x196x4_2_0_0
abbrev rI3 : Rect S4x196x4 := Rect.unit (s := S4x196x4) ![3, 0, 0] S1x196x4.size inb_S4x196x4_S1x196x4_3_0_0
abbrev rW : Rect S768x768 := Rect.unit (s := S768x768) ![0, 0] S768x768.size inb_S768x768_S768x768_0_0
abbrev rB : Rect S1x768 := Rect.unit (s := S1x768) ![0, 0] S1x768.size inb_S1x768_S1x768_0_0

/-! ## What the body stores, image by image

Each stored image as the body's own arithmetic (the named payloads) of what it loaded: the image of the input, its
index rows, the weights and the bias rows. The lane numbers every image compares the indices with are shared. -/

/-- The key positions 0 … 195 along the lanes. -/
def lanes : IVec S196x196 32 := iota .tc S196x196 32 [1] iota_S196x196_d1_w32

/-- The first image the body stores. -/
def img0 (x0 : Vec F S4x196x768 .f32) (x1 : Vec F S4x196x4 .i32) (x2 : Vec F S768x768 .bf16) (x3 : Vec F S1x768 .f32) (x4 : Vec F S768x768 .bf16) (x5 : Vec F S1x768 .f32) (x6 : Vec F S768x768 .bf16) (x7 : Vec F S1x768 .f32) : Vec F S1x196x768 .f32 :=
  let v0 : IVec S196x196 32 := lanes
  let v1 := View.ld x0 rX0; let v28 := View.ld x1 rI0
  let v10 := k0_pay3 v1 (View.ld x2 rW) (View.ld x3 rB)
  let v27 := k0_pay4 v1 (View.ld x4 rW) (View.ld x5 rB) (View.ld x6 rW) (View.ld x7 rB)
  let v29 := k0_pay5 (F := F) v28; let v30 := k0_pay6 (F := F); let v31 := k0_pay7 (F := F); let v32 := k0_pay8 (F := F); let v34 := k0_pay9 (F := F) v28
  k0_pay28 v0 v10 v27 v29 (k0_pay22 v0 v10 v27 v29 v30 v34) (k0_pay25 v0 v10 v27 v29 v30 v31 v34) (k0_pay26 v0 v10 v27 v29 v30 v32 v34) (k0_pay27 v0 v10 v27 v29 v30 v34)

/-- The second. -/
def img1 (x0 : Vec F S4x196x768 .f32) (x1 : Vec F S4x196x4 .i32) (x2 : Vec F S768x768 .bf16) (x3 : Vec F S1x768 .f32) (x4 : Vec F S768x768 .bf16) (x5 : Vec F S1x768 .f32) (x6 : Vec F S768x768 .bf16) (x7 : Vec F S1x768 .f32) : Vec F S1x196x768 .f32 :=
  let v0 : IVec S196x196 32 := lanes
  let v117 := View.ld x0 rX1
  let v119 := k0_pay29 v117; let v126 := k0_pay30 v117 (View.ld x2 rW) (View.ld x3 rB); let v133 := k0_pay31 v117 (View.ld x4 rW) (View.ld x5 rB)
  let v134 := View.ld x6 rW; let v137 := View.ld x7 rB; let v144 := View.ld x1 rI1
  k0_pay47 v0 v126 (k0_pay32 v119 v133 v134 v137) (k0_pay33 (F := F) v144) (k0_pay40 v0 v119 v126 v133 v134 v137 v144) (k0_pay41 v0 v119 v126 v133 v134 v137 v144)
    (k0_pay43 v0 v119 v133 v134 v137 v144) (k0_pay44 v0 v119 v126 v133 v134 v137 v144) (k0_pay45 v0 v119 v126 v133 v134 v137 v144) (k0_pay46 v0 v119 v126 v133 v134 v137 v144)

/-- The third. -/
def img2 (x0 : Vec F S4x196x768 .f32) (x1 : Vec F S4x196x4 .i32) (x2 : Vec F S768x768 .bf16) (x3 : Vec F S1x768 .f32) (x4 : Vec F S768x768 .bf16) (x5 : Vec F S1x768 .f32) (x6 : Vec F S768x768 .bf16) (x7 : Vec F S1x768 .f32) : Vec F S1x196x768 .f32 :=
  let v0 : IVec S196x196 32 := lanes
  let v233 := View.ld x0 rX2; let v260 := View.ld x1 rI2
  let v242 := k0_pay49 v233 (View.ld x2 rW) (View.ld x3 rB)
  let v259 := k0_pay50 v233 (View.ld x4 rW) (View.ld x5 rB) (View.ld x6 rW) (View.ld x7 rB)
  let v261 := k0_pay51 (F := F) v260; let v262 := k0_pay52 (F := F); let v263 := k0_pay53 (F := F); let v264 := k0_pay54 (F := F); let v270 := k0_pay55 (F := F) v0 v260
  k0_pay74 v242 v259 (k0_pay68 v0 v242 v259 v261 v262 v270) (k0_pay71 v0 v242 v259 v261 v262 v263 v270) (k0_pay72 v0 v242 v259 v261 v262 v264 v270) (k0_pay73 v0 v261)

/-- The fourth. -/
def img3 (x0 : Vec F S4x196x768 .f32) (x1 : Vec F S4x196x4 .i32) (x2 : Vec F S768x768 .bf16) (x3 : Vec F S1x768 .f32) (x4 : Vec F S768x768 .bf16) (x5 : Vec F S1x768 .f32) (x6 : Vec F S768x768 .bf16) (x7 : Vec F S1x768 .f32) : Vec F S1x196x768 .f32 :=
  let v0 : IVec S196x196 32 := lanes
  let v349 := View.ld x0 rX3
  let v351 := k0_pay75 v349; let v358 := k0_pay76 v349 (View.ld x2 rW) (View.ld x3 rB); let v365 := k0_pay77 v349 (View.ld x4 rW) (View.ld x5 rB)
  let v367 := k0_pay78 (View.ld x6 rW); let v369 := View.ld x7 rB; let v376 := View.ld x1 rI3
  k0_pay1 (k0_pay95 v0 v358 (k0_pay79 v351 v365 v367 v369) (k0_pay80 (F := F) v376) (k0_pay87 v0 v351 v358 v365 v367 v369 v376) (k0_pay89 v0 v351 v365 v367 v369 v376)
    (k0_pay91 v0 v351 v358 v365 v367 v369 v376) (k0_pay92 v0 v351 v358 v365 v367 v369 v376) (k0_pay93 v0 v351 v358 v365 v367 v369 v376) (k0_pay94 v0 v351 v358 v365 v367 v369 v376))

/-- The output buffer after the body: its four stores as pieces, last first. -/
def out0_8 (x0 : Vec F S4x196x768 .f32) (x1 : Vec F S4x196x4 .i32) (x2 : Vec F S768x768 .bf16) (x3 : Vec F S1x768 .f32) (x4 : Vec F S768x768 .bf16) (x5 : Vec F S1x768 .f32) (x6 : Vec F S768x768 .bf16) (x7 : Vec F S1x768 .f32) : Vec F S4x196x768 .f32 :=
  View.canon [⟨rX3, img3 x0 x1 x2 x3 x4 x5 x6 x7⟩, ⟨rX2, img2 x0 x1 x2 x3 x4 x5 x6 x7⟩, ⟨rX1, img1 x0 x1 x2 x3 x4 x5 x6 x7⟩, ⟨rX0, img0 x0 x1 x2 x3 x4 x5 x6 x7⟩]

/-- The four stored images tile the buffer, so they cover it. -/
theorem cover0_8 (p3 p2 p1 p0 : Vec F S1x196x768 .f32) (y : S4x196x768.Idx) :
    ∃ pc ∈ ([⟨rX3, p3⟩, ⟨rX2, p2⟩, ⟨rX1, p1⟩, ⟨rX0, p0⟩] : List (View.Piece (Elt F) S4x196x768 .f32)), y ∈ pc.1.set :=
  View.cover_of_tiled [⟨rX3, p3⟩, ⟨rX2, p2⟩, ⟨rX1, p1⟩, ⟨rX0, p0⟩] S1x196x768.size (by rfl) y

end Cert.KernelIdeal.Frame

end
-- ==== Proof.FrameIdeal.lean ====
/-
  The frame of the fused projection-and-gather kernel, at any float instance.

  @main is three stretches of host operations (the index arithmetic on the sampled coordinates, the clip, the
  conversions and transposes of the weights) and then one region of sixteen grid points.  At each point the body reads
  four images of the input, their four-corner index rows, the three weight matrices and the three bias rows, and writes
  the four output images, one whole image per store; it keeps nothing between points.  So after the body the output
  buffer is the four stored images side by side along the leading axis, each a pure function of what was loaded.
  From that: the body's triple, the proof data of the one pipeline, the body obligation at every point, the run of
  @main, and the frame (the twelve argument arrays end as they began).
-/
import proofs.«123472_j1975684956773_2_alg».proof.Proof.Gen.KernelIdeal.Launch
import proofs.«123472_j1975684956773_2_alg».proof.Proof.ImagesIdeal
import proofs.«123472_j1975684956773_2_alg».proof.Proof.Gen.KernelIdeal.Skeleton
import proofs.«123472_j1975684956773_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the three stretches of host operations. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- @main is the three stretches of host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation writes the given argument: every operation's one written buffer is another reference. -/
local macro "not_written" : tactic => `(tactic| (
  simp only [hostOps0, hostOps0_1, hostOps0_2, List.flatten_cons, List.flatten_nil, List.append_nil, List.cons_append,
    List.nil_append, List.Forall, StableHlo.TRef.unary, StableHlo.TRef.binary, StableHlo.nullary_writes, StableHlo.unary_writes, StableHlo.binary_writes, StableHlo.ternary_writes,
    StableHlo.quaternary_writes, StableHlo.reshape_writes, StableHlo.binaryIndexed_writes, StableHlo.nary_writes, Finset.mem_singleton]
  repeat' apply And.intro
  all_goals exact StableHlo.devRef_ne_of_ne (by decide)))

theorem V_main_arg0 (c : Dev nD) : V m c main_arg0 = m ((c : Thread nD τ).loc main_arg0) :=
  StableHlo.after_of_forall_not_mem (b := Proc.devRef .tc main_arg0) _ _ (List.forall_iff_forall_mem.mp (by not_written))
theorem V_main_arg1 (c : Dev nD) : V m c main_arg1 = m ((c : Thread nD τ).loc main_arg1) :=
  StableHlo.after_of_forall_not_mem (b := Proc.devRef .tc main_arg1) _ _ (List.forall_iff_forall_mem.mp (by not_written))
theorem V_main_arg2 (c : Dev nD) : V m c main_arg2 = m ((c : Thread nD τ).loc main_arg2) :=
  StableHlo.after_of_forall_not_mem (b := Proc.devRef .tc main_arg2) _ _ (List.forall_iff_forall_mem.mp (by not_written))
theorem V_main_arg3 (c : Dev nD) : V m c main_arg3 = m ((c : Thread nD τ).loc main_arg3) :=
  StableHlo.after_of_forall_not_mem (b := Proc.devRef .tc main_arg3) _ _ (List.forall_iff_forall_mem.mp (by not_written))
theorem V_main_arg4 (c : Dev nD) : V m c main_arg4 = m ((c : Thread nD τ).loc main_arg4) :=
  StableHlo.after_of_forall_not_mem (b := Proc.devRef .tc main_arg4) _ _ (List.forall_iff_forall_mem.mp (by not_written))
theorem V_main_arg5 (c : Dev nD) : V m c main_arg5 = m ((c : Thread nD τ).loc main_arg5) :=
  StableHlo.after_of_forall_not_mem (b := Proc.devRef .tc main_arg5) _ _ (List.forall_iff_forall_mem.mp (by not_written))
theorem V_main_arg6 (c : Dev nD) : V m c main_arg6 = m ((c : Thread nD τ).loc main_arg6) :=
  StableHlo.after_of_forall_not_mem (b := Proc.devRef .tc main_arg6) _ _ (List.forall_iff_forall_mem.mp (by not_written))
theorem V_main_arg7 (c : Dev nD) : V m c main_arg7 = m ((c : Thread nD τ).loc main_arg7) :=
  StableHlo.after_of_forall_not_mem (b := Proc.devRef .tc main_arg7) _ _ (List.forall_iff_forall_mem.mp (by not_written))
theorem V_main_arg8 (c : Dev nD) : V m c main_arg8 = m ((c : Thread nD τ).loc main_arg8) :=
  StableHlo.after_of_forall_not_mem (b := Proc.devRef .tc main_arg8) _ _ (List.forall_iff_forall_mem.mp (by not_written))
theorem V_main_arg9 (c : Dev nD) : V m c main_arg9 = m ((c : Thread nD τ).loc main_arg9) :=
  StableHlo.after_of_forall_not_mem (b := Proc.devRef .tc main_arg9) _ _ (List.forall_iff_forall_mem.mp (by not_written))
theorem V_main_arg10 (c : Dev nD) : V m c main_arg10 = m ((c : Thread nD τ).loc main_arg10) :=
  StableHlo.after_of_forall_not_mem (b := Proc.devRef .tc main_arg10) _ _ (List.forall_iff_forall_mem.mp (by not_written))
theorem V_main_arg11 (c : Dev nD) : V m c main_arg11 = m ((c : Thread nD τ).loc main_arg11) :=
  StableHlo.after_of_forall_not_mem (b := Proc.devRef .tc main_arg11) _ _ (List.forall_iff_forall_mem.mp (by not_written))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c)⟩) h

/-! ## The body's triple -/

set_option maxHeartbeats 4000000 in
/-- The body on whole staging memrefs, the inputs' at contents `xW` and the output's at anything, runs to the
    continuation holding the inputs' as they were and the output's at `out0_8` of the inputs'. -/
theorem sound_kernel (c : Dev nD) (E : Set ℕ) (i : grid0.Coords) (arg1 : Memref sig .tc .vmem S4x196x768 .f32) (harg1 : arg1.IsWhole) (arg2 : Memref sig .tc .vmem S4x196x4 .i32) (harg2 : arg2.IsWhole) (arg3 : Memref sig .tc .vmem S768x768 .bf16) (harg3 : arg3.IsWhole) (arg4 : Memref sig .tc .vmem S1x768 .f32) (harg4 : arg4.IsWhole) (arg5 : Memref sig .tc .vmem S768x768 .bf16) (harg5 : arg5.IsWhole) (arg6 : Memref sig .tc .vmem S1x768 .f32) (harg6 : arg6.IsWhole) (arg7 : Memref sig .tc .vmem S768x768 .bf16) (harg7 : arg7.IsWhole) (arg8 : Memref sig .tc .vmem S1x768 .f32) (harg8 : arg8.IsWhole) (arg9 : Memref sig .tc .vmem S4x196x768 .f32) (harg9 : arg9.IsWhole)
    (x0 : Vec F S4x196x768 .f32) (x1 : Vec F S4x196x4 .i32) (x2 : Vec F S768x768 .bf16) (x3 : Vec F S1x768 .f32) (x4 : Vec F S768x768 .bf16) (x5 : Vec F S1x768 .f32) (x6 : Vec F S768x768 .bf16) (x7 : Vec F S1x768 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out0_8 x0 x1 x2 x3 x4 x5 x6 x7)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover0_8 _ _ _ _)

/-! ## The pipeline's proof data -/

/-- The arrays as the region finds them; after the body at point `t` each input's buffer at its block and the output's
    at `out0_8` of the input blocks; the invariant the untouched rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out0_8 (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = out0_8 (iblk m c 0 t) (iblk m c 1 t) (iblk m c 2 t) (iblk m c 3 t) (iblk m c 4 t) (iblk m c 5 t) (iblk m c 6 t) (iblk m c 7 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what the
    library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the twelve argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

end Cert.KernelIdeal.Frame

end
-- ==== Proof.Spec.lean ====
/-
  The mathematics both programs compute, on the extended reals, coordinate by coordinate.

  For a query position s of image b and a feature e: the query, key and value rows are the affine maps
  q = x·Wqᵀ + bq, k = x·Wkᵀ + bk, v = x·Wvᵀ + bv of the input; four key positions J 0 … J 3 are sampled for the query; the
  four logits are l c = q(b,s,e) · k(b, J c, e), feature by feature, and the result is the softmax-weighted sum
  Σ_c softmax(l) c · v(b, J c, e).  The reference takes the softmax against the largest logit in one pass (`refMix`);
  the kernel folds the four samples one at a time, keeping a running maximum, a running denominator and a running
  numerator, each rescaled when the maximum moves (`onlineMix`).
-/
import Idealize.ShloMosaic.PureOps.Ideal
import Idealize.ShloMosaic.Lib.ValueIdx

noncomputable section

namespace Cert.Spec

open Idealize.ShloMosaic

/-- One affine projection at a coordinate: (x·Wᵀ + bias)(b, s, e) = Σ_d x(b,s,d) · W(e,d) + bias(e). -/
def proj (x : Fin 64 → Fin 196 → Fin 768 → EReal) (W : Fin 768 → Fin 768 → EReal) (bias : Fin 768 → EReal)
    (b : Fin 64) (s : Fin 196) (e : Fin 768) : EReal :=
  (∑ d : Fin 768, x b s d * W e d) + bias e

/-- The largest of four logits. -/
def top4 (l : Fin 4 → EReal) : EReal := max (max (l 0) (l 1)) (max (l 2) (l 3))

/-- The softmax-weighted sum of four values, the softmax taken against the largest logit. -/
def refMix (l v : Fin 4 → EReal) : EReal :=
  ∑ c : Fin 4, Ideal.div (Ideal.exp (l c - top4 l)) (∑ c' : Fin 4, Ideal.exp (l c' - top4 l)) * v c

/-- One step of the running form: the state is (maximum so far, denominator, numerator). -/
def step (st : EReal × EReal × EReal) (l v : EReal) : EReal × EReal × EReal :=
  (max st.1 l,
   Ideal.exp (st.1 - max st.1 l) * st.2.1 + Ideal.exp (l - max st.1 l),
   Ideal.exp (st.1 - max st.1 l) * st.2.2 + Ideal.exp (l - max st.1 l) * v)

/-- The state after the four samples, from (−∞, 0, 0). -/
def run4 (l v : Fin 4 → EReal) : EReal × EReal × EReal :=
  step (step (step (step (⊥, 0, 0) (l 0) (v 0)) (l 1) (v 1)) (l 2) (v 2)) (l 3) (v 3)

/-- The running form's result: numerator over denominator. -/
def onlineMix (l v : Fin 4 → EReal) : EReal := Ideal.div (run4 l v).2.2 (run4 l v).2.1

/-- The sampled key position of a 32-bit index word: a negative word wraps by 196 (as array indexing does), and the
    result is clamped into 0 … 195 (as a gather does). For a word already in 0 … 195 it is the word. -/
def row (w : BitVec 32) : Fin 196 :=
  let z : Int := if w.toInt < 0 then (w + 196#32).toInt else w.toInt
  ⟨(max 0 (min 195 z)).toNat, by omega⟩

/-- The whole result at a coordinate, from the argument arrays in coordinates and the sampled positions `J`. -/
def out (mix : (Fin 4 → EReal) → (Fin 4 → EReal) → EReal)
    (x : Fin 64 → Fin 196 → Fin 768 → EReal) (Wq : Fin 768 → Fin 768 → EReal) (bq : Fin 768 → EReal)
    (Wk : Fin 768 → Fin 768 → EReal) (bk : Fin 768 → EReal) (Wv : Fin 768 → Fin 768 → EReal) (bv : Fin 768 → EReal)
    (J : Fin 64 → Fin 196 → Fin 4 → Fin 196) (b : Fin 64) (s : Fin 196) (e : Fin 768) : EReal :=
  mix (fun c => proj x Wq bq b s e * proj x Wk bk b (J b s c) e) (fun c => proj x Wv bv b (J b s c) e)

end Cert.Spec

end
-- ==== Proof.KernelSide.lean ====
/-
  The kernel's side of the value proof: what each of the four images the body stores holds, coordinate by coordinate,
  on the extended reals.

  For an image of the block, a query position s and a feature e, the body forms the three affine projections of the
  image (the rounded image times the transposed weights, summed over the 768 input features, plus the bias), lays keys
  and values side by side, and for each of the four corners multiplies a one-hot matrix — row s has its single 1 at the
  key position the corner's index word names — into keys|values. A one-hot row times a column picks one entry
  (0 · a = 0 for every extended real a, the infinities included), so the gathered key and value are the projections at
  the sampled position. The four logits query · key then pass through the running softmax: the body's update of the
  running maximum, denominator and numerator is the specification's step literally, and its start constants are
  (−∞, 0, 0). Hence every stored element is the specification's running form at the sampled positions.

  The index words are assumed to be valid rows (0 … 195); then the sampled position of a word is the word itself.
-/
import proofs.«123472_j1975684956773_2_alg».proof.Proof.ImagesIdeal
import proofs.«123472_j1975684956773_2_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384
noncomputable section

namespace Cert.KernelSide
open Cert.KernelIdeal Cert.KernelIdeal.Gen Cert.KernelIdeal.Frame
open Idealize.ShloMosaic Idealize.ShloMosaic.ValueIdx

/-! ## The two matrix products at a coordinate

The operand indices of a product at an output index and a contraction index, coordinate by coordinate, then the product
itself as the sum over the contracted axis. -/

theorem matmul_proj_lhs0 (i : S196x768.Idx) (q : dot_S196x768_S768x768_S196x768_1_0_0_1_n_n.contr.Idx) : (dot_S196x768_S768x768_S196x768_1_0_0_1_n_n.lhsIdx i q 0).val = (i 0).val := by
  unfold DotDims.lhsIdx
  rw [dif_neg (show ¬(0 : Fin S196x768.rank) ∈ dot_S196x768_S768x768_S196x768_1_0_0_1_n_n.lhsBatch by decide),
    dif_pos (show (0 : Fin S196x768.rank) ∈ dot_S196x768_S768x768_S196x768_1_0_0_1_n_n.lhsNonContracting by decide)]
  rfl
theorem matmul_proj_lhs1 (i : S196x768.Idx) (q : dot_S196x768_S768x768_S196x768_1_0_0_1_n_n.contr.Idx) : (dot_S196x768_S768x768_S196x768_1_0_0_1_n_n.lhsIdx i q 1).val = (q ⟨0, by decide⟩).val :=
  dot_S196x768_S768x768_S196x768_1_0_0_1_n_n.lhsIdx_val_of_single rfl i q
theorem matmul_proj_rhs0 (i : S196x768.Idx) (q : dot_S196x768_S768x768_S196x768_1_0_0_1_n_n.contr.Idx) : (dot_S196x768_S768x768_S196x768_1_0_0_1_n_n.rhsIdx i q 0).val = (q ⟨0, by decide⟩).val :=
  dot_S196x768_S768x768_S196x768_1_0_0_1_n_n.rhsIdx_val_of_single rfl i q
theorem matmul_proj_rhs1 (i : S196x768.Idx) (q : dot_S196x768_S768x768_S196x768_1_0_0_1_n_n.contr.Idx) : (dot_S196x768_S768x768_S196x768_1_0_0_1_n_n.rhsIdx i q 1).val = (i 1).val := by
  unfold DotDims.rhsIdx
  rw [dif_neg (show ¬(1 : Fin S768x768.rank) ∈ dot_S196x768_S768x768_S196x768_1_0_0_1_n_n.rhsBatch by decide),
    dif_pos (show (1 : Fin S768x768.rank) ∈ dot_S196x768_S768x768_S196x768_1_0_0_1_n_n.rhsNonContracting by decide)]
  rfl

/-- A [196,768] × [768,768] product into the zero accumulator, at (s, e): the sum over the shared feature axis. -/
theorem matmul_proj_apply (x : FVec Ideal S196x768 .bf16) (W : FVec Ideal S768x768 .bf16) (s : Fin 196) (e : Fin 768) :
    matmul dot_S196x768_S768x768_S196x768_1_0_0_1_n_n none x W (constant S196x768 .f32 0x00000000#32) (ix2 s e)
      = ∑ d : Fin 768, x (ix2 s d) * W (ix2 d e) := by
  refine (Ideal.matmul_constant_zero_apply dot_S196x768_S768x768_S196x768_1_0_0_1_n_n none x W (ix2 s e)).trans ?_
  rw [← Equiv.sum_comp (contrEquiv1 dot_S196x768_S768x768_S196x768_1_0_0_1_n_n 768 rfl rfl).symm]
  refine Finset.sum_congr rfl fun k _ => ?_
  have hk := contrEquiv1_symm_val dot_S196x768_S768x768_S196x768_1_0_0_1_n_n 768 rfl rfl k
  have el : dot_S196x768_S768x768_S196x768_1_0_0_1_n_n.lhsIdx (ix2 s e) ((contrEquiv1 dot_S196x768_S768x768_S196x768_1_0_0_1_n_n 768 rfl rfl).symm k) = ix2 s k := funext fun a => Fin.ext (by
    match a with
    | ⟨0, _⟩ => exact matmul_proj_lhs0 _ _
    | ⟨1, _⟩ => exact (matmul_proj_lhs1 _ _).trans hk)
  have er : dot_S196x768_S768x768_S196x768_1_0_0_1_n_n.rhsIdx (ix2 s e) ((contrEquiv1 dot_S196x768_S768x768_S196x768_1_0_0_1_n_n 768 rfl rfl).symm k) = ix2 k e := funext fun a => Fin.ext (by
    match a with
    | ⟨0, _⟩ => exact (matmul_proj_rhs0 _ _).trans hk
    | ⟨1, _⟩ => exact matmul_proj_rhs1 _ _)
  rw [el, er]

theorem matmul_gather_lhs0 (i : S196x1536.Idx) (q : dot_S196x196_S196x1536_S196x1536_1_0_0_1_n_n.contr.Idx) : (dot_S196x196_S196x1536_S196x1536_1_0_0_1_n_n.lhsIdx i q 0).val = (i 0).val := by
  unfold DotDims.lhsIdx
  rw [dif_neg (show ¬(0 : Fin S196x196.rank) ∈ dot_S196x196_S196x1536_S196x1536_1_0_0_1_n_n.lhsBatch by decide),
    dif_pos (show (0 : Fin S196x196.rank) ∈ dot_S196x196_S196x1536_S196x1536_1_0_0_1_n_n.lhsNonContracting by decide)]
  rfl
theorem matmul_gather_lhs1 (i : S196x1536.Idx) (q : dot_S196x196_S196x1536_S196x1536_1_0_0_1_n_n.contr.Idx) : (dot_S196x196_S196x1536_S196x1536_1_0_0_1_n_n.lhsIdx i q 1).val = (q ⟨0, by decide⟩).val :=
  dot_S196x196_S196x1536_S196x1536_1_0_0_1_n_n.lhsIdx_val_of_single rfl i q
theorem matmul_gather_rhs0 (i : S196x1536.Idx) (q : dot_S196x196_S196x1536_S196x1536_1_0_0_1_n_n.contr.Idx) : (dot_S196x196_S196x1536_S196x1536_1_0_0_1_n_n.rhsIdx i q 0).val = (q ⟨0, by decide⟩).val :=
  dot_S196x196_S196x1536_S196x1536_1_0_0_1_n_n.rhsIdx_val_of_single rfl i q
theorem matmul_gather_rhs1 (i : S196x1536.Idx) (q : dot_S196x196_S196x1536_S196x1536_1_0_0_1_n_n.contr.Idx) : (dot_S196x196_S196x1536_S196x1536_1_0_0_1_n_n.rhsIdx i q 1).val = (i 1).val := by
  unfold DotDims.rhsIdx
  rw [dif_neg (show ¬(1 : Fin S196x1536.rank) ∈ dot_S196x196_S196x1536_S196x1536_1_0_0_1_n_n.rhsBatch by decide),
    dif_pos (show (1 : Fin S196x1536.rank) ∈ dot_S196x196_S196x1536_S196x1536_1_0_0_1_n_n.rhsNonContracting by decide)]
  rfl

/-- A [196,196] × [196,1536] product into the zero accumulator, at (s, e): the sum over the key positions. -/
theorem matmul_gather_apply (x : FVec Ideal S196x196 .bf16) (W : FVec Ideal S196x1536 .bf16) (s : Fin 196) (e : Fin 1536) :
    matmul dot_S196x196_S196x1536_S196x1536_1_0_0_1_n_n none x W (constant S196x1536 .f32 0x00000000#32) (ix2 s e)
      = ∑ d : Fin 196, x (ix2 s d) * W (ix2 d e) := by
  refine (Ideal.matmul_constant_zero_apply dot_S196x196_S196x1536_S196x1536_1_0_0_1_n_n none x W (ix2 s e)).trans ?_
  rw [← Equiv.sum_comp (contrEquiv1 dot_S196x196_S196x1536_S196x1536_1_0_0_1_n_n 196 rfl rfl).symm]
  refine Finset.sum_congr rfl fun k _ => ?_
  have hk := contrEquiv1_symm_val dot_S196x196_S196x1536_S196x1536_1_0_0_1_n_n 196 rfl rfl k
  have el : dot_S196x196_S196x1536_S196x1536_1_0_0_1_n_n.lhsIdx (ix2 s e) ((contrEquiv1 dot_S196x196_S196x1536_S196x1536_1_0_0_1_n_n 196 rfl rfl).symm k) = ix2 s k := funext fun a => Fin.ext (by
    match a with
    | ⟨0, _⟩ => exact matmul_gather_lhs0 _ _
    | ⟨1, _⟩ => exact (matmul_gather_lhs1 _ _).trans hk)
  have er : dot_S196x196_S196x1536_S196x1536_1_0_0_1_n_n.rhsIdx (ix2 s e) ((contrEquiv1 dot_S196x196_S196x1536_S196x1536_1_0_0_1_n_n 196 rfl rfl).symm k) = ix2 k e := funext fun a => Fin.ext (by
    match a with
    | ⟨0, _⟩ => exact (matmul_gather_rhs0 _ _).trans hk
    | ⟨1, _⟩ => exact matmul_gather_rhs1 _ _)
  rw [el, er]

/-! ## The one-hot rows -/

/-- The lane numbers: the key position j along the second axis, as a 32-bit word. -/
theorem lanes_apply (s j : Fin 196) :
    iota .tc S196x196 32 [1] iota_S196x196_d1_w32 (ix2 s j) = BitVec.ofNat 32 j.val :=
  iota_single_apply .tc S196x196 32 1 iota_S196x196_d1_w32 (ix2 s j)

/-- Column c of the index rows spread along the lanes reads, at (s, j), the index word of query s and corner c. -/
theorem corner_apply (c : Nat) (idx : IVec S196x4 32) (h : S196x4.Slices ![0, c] S196x1) (cc : Fin 4) (hc : cc.val = c)
    (s j : Fin 196) :
    broadcastTo S196x196 (extractStridedSlice S196x1 ![0, c] idx h) broadcasts_S196x1_S196x196 (ix2 s j) = idx (ix2 s cc) := by
  refine (broadcastTo_apply _ broadcasts_S196x1_S196x196 (ix2 s j) (ix2 s (0 : Fin 1)) fun ax => ?_).trans ?_
  · match ax with
    | ⟨0, _⟩ =>
      show s.val = if (196 : Nat) = 1 then 0 else s.val
      rw [if_neg (by decide)]
    | ⟨1, _⟩ =>
      show (0 : Nat) = if (1 : Nat) = 1 then 0 else _
      rw [if_pos rfl]
  · exact slice2_axis1_apply c idx h s (0 : Fin 1) cc (by rw [hc]; rfl)

/-- A compare of two words, widened, converted and narrowed: 1 where they agree, 0 where they do not. -/
theorem onehot_apply (col v0 : IVec S196x196 32) (s j : Fin 196) :
    truncf (F := Ideal) .bf16 (sitofp .f32 (extui 32 (cmpi .eq col v0) natLt_1_32)) bitsLt_bf16_f32 (ix2 s j)
      = if col (ix2 s j) = v0 (ix2 s j) then (1 : EReal) else 0 := by
  show (((BitVec.setWidth 32 (IntOp.cmpi .eq (col (ix2 s j)) (v0 (ix2 s j)))).toInt : ℝ) : EReal) = _
  by_cases h : col (ix2 s j) = v0 (ix2 s j)
  · have hb : (col (ix2 s j) == v0 (ix2 s j)) = true := by simpa using h
    rw [if_pos h]
    simp [IntOp.cmpi, hb]
  · have hb : (col (ix2 s j) == v0 (ix2 s j)) = false := by simpa using h
    rw [if_neg h]
    simp [IntOp.cmpi, hb]

/-- Summing a one-hot row against any column picks the entry at the hot position: 0 · a = 0 for every extended real a. -/
theorem hot_sum (w : BitVec 32) (r : Fin 196) (hr : w = BitVec.ofNat 32 r.val) (f : Fin 196 → EReal) :
    ∑ j : Fin 196, (if w = BitVec.ofNat 32 j.val then (1 : EReal) else 0) * f j = f r := by
  rw [Finset.sum_eq_single r]
  · rw [if_pos hr, one_mul]
  · intro j _ hj
    have hne : ¬ w = BitVec.ofNat 32 j.val := by
      intro hw
      apply hj
      have e := congrArg BitVec.toNat (hr.symm.trans hw)
      rw [BitVec.toNat_ofNat, BitVec.toNat_ofNat] at e
      have hr' := r.isLt
      have hj' := j.isLt
      exact Fin.ext (by omega)
    rw [if_neg hne, zero_mul]
  · intro h
    exact absurd (Finset.mem_univ r) h

/-! ## Layout operations at a coordinate -/

/-- Keys and values side by side along the features: columns 0 … 767 are the keys … -/
theorem kv_left (k v : FVec Ideal S196x768 .bf16) (j : Fin 196) (e : Fin 768) (e' : Fin 1536) (he : e'.val = e.val) :
    concatenate S196x1536 1 [⟨S196x768, k⟩, ⟨S196x768, v⟩] concatenates_S196x768_S196x768_S196x1536_d1 (ix2 j e') = k (ix2 j e) := by
  refine concatenate_pair_apply_left (1 : Fin S196x1536.rank) k v concatenates_S196x768_S196x768_S196x1536_d1 (ix2 j e') rfl (ix2 j e) fun b => ?_
  match b with
  | ⟨0, _⟩ => rfl
  | ⟨1, _⟩ => exact he.symm

/-- … and columns 768 … 1535 the values. -/
theorem kv_right (k v : FVec Ideal S196x768 .bf16) (j : Fin 196) (e : Fin 768) (e' : Fin 1536) (he : e'.val = 768 + e.val) :
    concatenate S196x1536 1 [⟨S196x768, k⟩, ⟨S196x768, v⟩] concatenates_S196x768_S196x768_S196x1536_d1 (ix2 j e') = v (ix2 j e) := by
  refine concatenate_pair_apply_right (1 : Fin S196x1536.rank) k v concatenates_S196x768_S196x768_S196x1536_d1 (ix2 j e') rfl rfl (ix2 j e)
    (fun b hb => ?_) ?_
  · match b with
    | ⟨0, _⟩ => rfl
    | ⟨1, _⟩ => exact absurd rfl hb
  · show e.val + 768 = e'.val
    omega

/-- The left half of a gathered row. -/
theorem half_left (X : FVec Ideal S196x1536 .f32) (s : Fin 196) (e : Fin 768) :
    extractStridedSlice S196x768 ![0, 0] X slices_S196x1536_o0_0_S196x768 (ix2 s e)
      = X (ix2 s ⟨e.val, by have := e.isLt; omega⟩) :=
  slice2_axis1_apply 0 X slices_S196x1536_o0_0_S196x768 s e _ (by show e.val = 0 + e.val; omega)

/-- The right half of a gathered row. -/
theorem half_right (X : FVec Ideal S196x1536 .f32) (s : Fin 196) (e : Fin 768) :
    extractStridedSlice S196x768 ![0, 768] X slices_S196x1536_o0_768_S196x768 (ix2 s e)
      = X (ix2 s ⟨768 + e.val, by have := e.isLt; omega⟩) :=
  slice2_axis1_apply 768 X slices_S196x1536_o0_768_S196x768 s e _ rfl

/-- A bias row spread over the 196 positions. -/
theorem bias_apply (b : FVec Ideal S1x768 .f32) (s : Fin 196) (e : Fin 768) :
    broadcastTo S196x768 (shapeCast S1x768 b shapeCasts_S1x768_S1x768) broadcasts_S1x768_S196x768 (ix2 s e) = b (ix2 (0 : Fin 1) e) := by
  rw [shapeCast_self]
  exact broadcastTo_1b_ab_apply b broadcasts_S1x768_S196x768 s e

/-- An image block [1,196,768] viewed [196,768]. -/
theorem image_apply (x : FVec Ideal S1x196x768 .f32) (s : Fin 196) (d : Fin 768) :
    shapeCast S196x768 x shapeCasts_S1x196x768_S196x768 (ix2 s d) = x (ix3 (0 : Fin 1) s d) :=
  shapeCast_1ab_ab_apply x shapeCasts_S1x196x768_S196x768 s d

/-- The index rows [1,196,4] viewed [196,4]. -/
theorem indexRows_apply (x : IVec S1x196x4 32) (s : Fin 196) (c : Fin 4) :
    shapeCast S196x4 x shapeCasts_S1x196x4_S196x4 (ix2 s c) = x (ix3 (0 : Fin 1) s c) :=
  shapeCast_1ab_ab_apply x shapeCasts_S1x196x4_S196x4 s c

/-- A result [196,768] stored as a block [1,196,768]. -/
theorem store_apply (y : FVec Ideal S196x768 .f32) (s : Fin 196) (e : Fin 768) :
    shapeCast S1x196x768 y shapeCasts_S196x768_S1x196x768 (ix3 (0 : Fin 1) s e) = y (ix2 s e) :=
  shapeCast_ab_1ab_apply y shapeCasts_S196x768_S1x196x768 0 s e

/-! ## Pieces of one image's arithmetic at a coordinate -/

/-- A projection's arithmetic at (s, e): the rounded image times the weights into the zero accumulator, plus the bias row. -/
theorem projection_apply (xr : FVec Ideal S196x768 .bf16) (W : FVec Ideal S768x768 .bf16) (b : FVec Ideal S1x768 .f32)
    (s : Fin 196) (e : Fin 768) :
    addf (matmul dot_S196x768_S768x768_S196x768_1_0_0_1_n_n none xr
        (shapeCast S768x768 W shapeCasts_S768x768_S768x768) (constant S196x768 .f32 0x00000000#32))
      (broadcastTo S196x768 (shapeCast S1x768 b shapeCasts_S1x768_S1x768) broadcasts_S1x768_S196x768) (ix2 s e)
      = (∑ d : Fin 768, xr (ix2 s d) * W (ix2 d e)) + b (ix2 (0 : Fin 1) e) := by
  refine (addf_apply _ _ _).trans ?_
  refine congr (congrArg _ ?_) (bias_apply b s e)
  rw [shapeCast_self]
  exact matmul_proj_apply xr W s e

/-- The rounded image at (s, d). -/
theorem rounded_apply (img : FVec Ideal S1x196x768 .f32) (s : Fin 196) (d : Fin 768) :
    truncf (F := Ideal) .bf16 (shapeCast S196x768 img shapeCasts_S1x196x768_S196x768) bitsLt_bf16_f32 (ix2 s d)
      = img (ix3 (0 : Fin 1) s d) :=
  image_apply img s d

/-- The gathered rows of corner c: the one-hot rows (index word of corner c against the lane numbers) times keys|values
    pick, for query s, the row the index word names. -/
theorem gather_row (c : Nat) (h : S196x4.Slices ![0, c] S196x1) (cc : Fin 4) (hc : cc.val = c) (idx : IVec S196x4 32)
    (v0 : IVec S196x196 32) (hv0 : ∀ s j : Fin 196, v0 (ix2 s j) = BitVec.ofNat 32 j.val)
    (kv : FVec Ideal S196x1536 .bf16) (s : Fin 196) (e' : Fin 1536) (r : Fin 196)
    (hr : idx (ix2 s cc) = BitVec.ofNat 32 r.val) :
    matmul dot_S196x196_S196x1536_S196x1536_1_0_0_1_n_n none
        (truncf (F := Ideal) .bf16 (sitofp .f32 (extui 32 (cmpi .eq
          (broadcastTo S196x196 (extractStridedSlice S196x1 ![0, c] idx h) broadcasts_S196x1_S196x196) v0) natLt_1_32)) bitsLt_bf16_f32)
        kv (constant S196x1536 .f32 0x00000000#32) (ix2 s e')
      = kv (ix2 r e') := by
  refine (matmul_gather_apply _ kv s e').trans ?_
  refine Eq.trans (Finset.sum_congr rfl fun j _ => ?_) (hot_sum (idx (ix2 s cc)) r hr fun j => kv (ix2 j e'))
  refine congrArg (· * kv (ix2 j e')) ?_
  refine (onehot_apply _ v0 s j).trans ?_
  rw [corner_apply c idx h cc hc s j, hv0 s j]

/-- A valid index word is its row's number. -/
theorem row_word (w : BitVec 32) (h0 : 0 ≤ w.toInt) (h1 : w.toInt ≤ 195) : w = BitVec.ofNat 32 (Cert.Spec.row w).val := by
  have hneg : ¬ w.toInt < 0 := by omega
  have hrow : (Cert.Spec.row w).val = w.toInt.toNat := by
    unfold Cert.Spec.row
    simp only [if_neg hneg]
    congr 1
    omega
  rw [hrow]
  apply BitVec.eq_of_toNat_eq
  rw [BitVec.toNat_ofNat]
  have hlt := w.isLt
  have hc := BitVec.toInt_eq_toNat_cond w
  split at hc <;> omega

/-! ## The loads -/

/-- The zero offsets of a whole load. -/
theorem zero2 : (![0, 0] : Fin 2 → Nat) = fun _ => 0 := funext fun a => by
  match a with
  | ⟨0, _⟩ => rfl
  | ⟨1, _⟩ => rfl

/-- The weights are loaded whole. -/
theorem ldW (W : Vec Ideal S768x768 .bf16) : View.ld W rW = W :=
  View.ld_unit_zero (S := S768x768) zero2 inb_S768x768_S768x768_0_0 W

/-- A bias row is loaded whole. -/
theorem ldB (b : Vec Ideal S1x768 .f32) : View.ld b rB = b :=
  View.ld_unit_zero (S := S1x768) zero2 inb_S1x768_S1x768_0_0 b

/-- Image 0 of the input block. -/
theorem ldX0 (x0 : Vec Ideal S4x196x768 .f32) (s : Fin 196) (d : Fin 768) :
    View.ld x0 rX0 (ix3 (0 : Fin 1) s d) = x0 (ix3 (0 : Fin 4) s d) :=
  congrArg x0 (funext fun a => Fin.ext (by
    match a with
    | ⟨0, _⟩ => rfl
    | ⟨1, _⟩ => show 0 + 1 * s.val = s.val; omega
    | ⟨2, _⟩ => show 0 + 1 * d.val = d.val; omega))

/-- Image 0's index rows. -/
theorem ldI0 (x1 : Vec Ideal S4x196x4 .i32) (s : Fin 196) (c : Fin 4) :
    View.ld x1 rI0 (ix3 (0 : Fin 1) s c) = x1 (ix3 (0 : Fin 4) s c) :=
  congrArg x1 (funext fun a => Fin.ext (by
    match a with
    | ⟨0, _⟩ => rfl
    | ⟨1, _⟩ => show 0 + 1 * s.val = s.val; omega
    | ⟨2, _⟩ => show 0 + 1 * c.val = c.val; omega))

/-- Image 1 of the input block. -/
theorem ldX1 (x0 : Vec Ideal S4x196x768 .f32) (s : Fin 196) (d : Fin 768) :
    View.ld x0 rX1 (ix3 (0 : Fin 1) s d) = x0 (ix3 (1 : Fin 4) s d) :=
  congrArg x0 (funext fun a => Fin.ext (by
    match a with
    | ⟨0, _⟩ => rfl
    | ⟨1, _⟩ => show 0 + 1 * s.val = s.val; omega
    | ⟨2, _⟩ => show 0 + 1 * d.val = d.val; omega))

/-- Image 1's index rows. -/
theorem ldI1 (x1 : Vec Ideal S4x196x4 .i32) (s : Fin 196) (c : Fin 4) :
    View.ld x1 rI1 (ix3 (0 : Fin 1) s c) = x1 (ix3 (1 : Fin 4) s c) :=
  congrArg x1 (funext fun a => Fin.ext (by
    match a with
    | ⟨0, _⟩ => rfl
    | ⟨1, _⟩ => show 0 + 1 * s.val = s.val; omega
    | ⟨2, _⟩ => show 0 + 1 * c.val = c.val; omega))

/-- Image 2 of the input block. -/
theorem ldX2 (x0 : Vec Ideal S4x196x768 .f32) (s : Fin 196) (d : Fin 768) :
    View.ld x0 rX2 (ix3 (0 : Fin 1) s d) = x0 (ix3 (2 : Fin 4) s d) :=
  congrArg x0 (funext fun a => Fin.ext (by
    match a with
    | ⟨0, _⟩ => rfl
    | ⟨1, _⟩ => show 0 + 1 * s.val = s.val; omega
    | ⟨2, _⟩ => show 0 + 1 * d.val = d.val; omega))

/-- Image 2's index rows. -/
theorem ldI2 (x1 : Vec Ideal S4x196x4 .i32) (s : Fin 196) (c : Fin 4) :
    View.ld x1 rI2 (ix3 (0 : Fin 1) s c) = x1 (ix3 (2 : Fin 4) s c) :=
  congrArg x1 (funext fun a => Fin.ext (by
    match a with
    | ⟨0, _⟩ => rfl
    | ⟨1, _⟩ => show 0 + 1 * s.val = s.val; omega
    | ⟨2, _⟩ => show 0 + 1 * c.val = c.val; omega))

/-- Image 3 of the input block. -/
theorem ldX3 (x0 : Vec Ideal S4x196x768 .f32) (s : Fin 196) (d : Fin 768) :
    View.ld x0 rX3 (ix3 (0 : Fin 1) s d) = x0 (ix3 (3 : Fin 4) s d) :=
  congrArg x0 (funext fun a => Fin.ext (by
    match a with
    | ⟨0, _⟩ => rfl
    | ⟨1, _⟩ => show 0 + 1 * s.val = s.val; omega
    | ⟨2, _⟩ => show 0 + 1 * d.val = d.val; omega))

/-- Image 3's index rows. -/
theorem ldI3 (x1 : Vec Ideal S4x196x4 .i32) (s : Fin 196) (c : Fin 4) :
    View.ld x1 rI3 (ix3 (0 : Fin 1) s c) = x1 (ix3 (3 : Fin 4) s c) :=
  congrArg x1 (funext fun a => Fin.ext (by
    match a with
    | ⟨0, _⟩ => rfl
    | ⟨1, _⟩ => show 0 + 1 * s.val = s.val; omega
    | ⟨2, _⟩ => show 0 + 1 * c.val = c.val; omega))

/-- The lane numbers every image compares its index words with. -/
theorem lanes_eq (s j : Fin 196) : lanes (ix2 s j) = BitVec.ofNat 32 j.val := lanes_apply s j

/-! ## The running softmax from any start -/

/-- The state after the four samples from a given start. -/
def runFrom (st : EReal × EReal × EReal) (l v : Fin 4 → EReal) : EReal × EReal × EReal :=
  Cert.Spec.step (Cert.Spec.step (Cert.Spec.step (Cert.Spec.step st (l 0) (v 0)) (l 1) (v 1)) (l 2) (v 2)) (l 3) (v 3)

/-- Numerator over denominator after the four samples from a given start. -/
def mixFrom (st : EReal × EReal × EReal) (l v : Fin 4 → EReal) : EReal :=
  Ideal.div (runFrom st l v).2.2 (runFrom st l v).2.1

/-- The body's start constants: the word 0xFF800000 is −∞ and the zero word is 0. -/
theorem negInf_f32 : Ideal.ofBits .f32 0xFF800000#32 = ⊥ := by simp [Ideal.ofBits, Ideal.ieee]

theorem mixFrom_start (l v : Fin 4 → EReal) :
    mixFrom (Ideal.ofBits .f32 0xFF800000#32, Ideal.ofBits .f32 0x00000000#32, Ideal.ofBits .f32 0x00000000#32) l v
      = Cert.Spec.onlineMix l v := by
  rw [negInf_f32, Ideal.ofBits_zero_f32]
  rfl

/-! ## One image, as the body computes it -/

/-- One projection at position s and feature e of an image given by coordinates: Σ_d X(s,d) · W(d,e) + bias(e)
    (the weights are stored transposed, contraction axis first). -/
def pr (X : Fin 196 → Fin 768 → EReal) (W : FVec Ideal S768x768 .bf16) (b : FVec Ideal S1x768 .f32)
    (s : Fin 196) (e : Fin 768) : EReal :=
  (∑ d : Fin 768, X s d * W (ix2 d e)) + b (ix2 (0 : Fin 1) e)

/-- The same for image k of the input block. -/
def proj (x0 : FVec Ideal S4x196x768 .f32) (W : FVec Ideal S768x768 .bf16) (b : FVec Ideal S1x768 .f32)
    (k : Fin 4) (s : Fin 196) (e : Fin 768) : EReal :=
  (∑ d : Fin 768, x0 (ix3 k s d) * W (ix2 d e)) + b (ix2 (0 : Fin 1) e)

theorem proj_eq_pr (x0 : FVec Ideal S4x196x768 .f32) (W : FVec Ideal S768x768 .bf16) (b : FVec Ideal S1x768 .f32)
    (k : Fin 4) (s : Fin 196) (e : Fin 768) : proj x0 W b k s e = pr (fun s d => x0 (ix3 k s d)) W b s e := rfl

/-- A projection as the body computes it: the image viewed [196,768] and rounded, times the weights into the zero
    accumulator, plus the bias row spread over the positions. -/
def projOf (img : FVec Ideal S1x196x768 .f32) (W : FVec Ideal S768x768 .bf16) (b : FVec Ideal S1x768 .f32) :
    FVec Ideal S196x768 .f32 :=
  addf (matmul dot_S196x768_S768x768_S196x768_1_0_0_1_n_n none
      (truncf .bf16 (shapeCast S196x768 img shapeCasts_S1x196x768_S196x768) bitsLt_bf16_f32)
      (shapeCast S768x768 W shapeCasts_S768x768_S768x768) (constant S196x768 .f32 0x00000000#32))
    (broadcastTo S196x768 (shapeCast S1x768 b shapeCasts_S1x768_S1x768) broadcasts_S1x768_S196x768)

/-- Keys and values, rounded, side by side along the features. -/
def kvOf (img : FVec Ideal S1x196x768 .f32) (Wk : FVec Ideal S768x768 .bf16) (bk : FVec Ideal S1x768 .f32)
    (Wv : FVec Ideal S768x768 .bf16) (bv : FVec Ideal S1x768 .f32) : FVec Ideal S196x1536 .bf16 :=
  concatenate S196x1536 1 [⟨S196x768, truncf .bf16 (projOf img Wk bk) bitsLt_bf16_f32⟩,
    ⟨S196x768, truncf .bf16 (projOf img Wv bv) bitsLt_bf16_f32⟩] concatenates_S196x768_S196x768_S196x1536_d1

/-- The one-hot rows of corner c (its index words against the lane numbers) times keys|values. -/
def hotGather (c : Nat) (h : S196x4.Slices ![0, c] S196x1) (v0 : IVec S196x196 32) (idx : IVec S196x4 32)
    (kv : FVec Ideal S196x1536 .bf16) : FVec Ideal S196x1536 .f32 :=
  matmul dot_S196x196_S196x1536_S196x1536_1_0_0_1_n_n none
    (truncf (F := Ideal) .bf16 (sitofp .f32 (extui 32 (cmpi .eq
      (broadcastTo S196x196 (extractStridedSlice S196x1 ![0, c] idx h) broadcasts_S196x1_S196x196) v0) natLt_1_32)) bitsLt_bf16_f32)
    kv (constant S196x1536 .f32 0x00000000#32)

/-- The four gathered arrays, one per corner. -/
def gathOf (v0 : IVec S196x196 32) (idx : IVec S196x4 32) (kv : FVec Ideal S196x1536 .bf16) (c : Fin 4) :
    FVec Ideal S196x1536 .f32 :=
  match c with
  | ⟨0, _⟩ => hotGather 0 slices_S196x4_o0_0_S196x1 v0 idx kv
  | ⟨1, _⟩ => hotGather 1 slices_S196x4_o0_1_S196x1 v0 idx kv
  | ⟨2, _⟩ => hotGather 2 slices_S196x4_o0_2_S196x1 v0 idx kv
  | ⟨3, _⟩ => hotGather 3 slices_S196x4_o0_3_S196x1 v0 idx kv

/-- What the body stores for one image at (s, e): the running softmax, from the start constants, over the four logits
    (query times gathered key) and gathered values. -/
def bodyMix (v0 : IVec S196x196 32) (img : FVec Ideal S1x196x768 .f32) (idr : IVec S1x196x4 32)
    (Wq : FVec Ideal S768x768 .bf16) (bq : FVec Ideal S1x768 .f32) (Wk : FVec Ideal S768x768 .bf16) (bk : FVec Ideal S1x768 .f32)
    (Wv : FVec Ideal S768x768 .bf16) (bv : FVec Ideal S1x768 .f32) (s : Fin 196) (e : Fin 768) : EReal :=
  mixFrom (Ideal.ofBits .f32 0xFF800000#32, Ideal.ofBits .f32 0x00000000#32, Ideal.ofBits .f32 0x00000000#32)
    (fun c => projOf img Wq bq (ix2 s e)
      * extractStridedSlice S196x768 ![0, 0]
          (gathOf v0 (shapeCast S196x4 idr shapeCasts_S1x196x4_S196x4) (kvOf img Wk bk Wv bv) c) slices_S196x1536_o0_0_S196x768 (ix2 s e))
    (fun c => extractStridedSlice S196x768 ![0, 768]
          (gathOf v0 (shapeCast S196x4 idr shapeCasts_S1x196x4_S196x4) (kvOf img Wk bk Wv bv) c) slices_S196x1536_o0_768_S196x768 (ix2 s e))

section OneImage
variable (v0 : IVec S196x196 32) (img : FVec Ideal S1x196x768 .f32) (idr : IVec S1x196x4 32)
  (Wq : FVec Ideal S768x768 .bf16) (bq : FVec Ideal S1x768 .f32) (Wk : FVec Ideal S768x768 .bf16) (bk : FVec Ideal S1x768 .f32)
  (Wv : FVec Ideal S768x768 .bf16) (bv : FVec Ideal S1x768 .f32)
  (X : Fin 196 → Fin 768 → EReal) (hX : ∀ (s : Fin 196) (d : Fin 768), img (ix3 (0 : Fin 1) s d) = X s d)
include hX

/-- A projection at (s, e). -/
theorem projOf_apply (W : FVec Ideal S768x768 .bf16) (b : FVec Ideal S1x768 .f32) (s : Fin 196) (e : Fin 768) :
    projOf img W b (ix2 s e) = pr X W b s e := by
  unfold projOf
  refine (projection_apply _ W b s e).trans ?_
  unfold pr
  refine congrArg (· + b (ix2 (0 : Fin 1) e)) (Finset.sum_congr rfl fun d _ => ?_)
  refine congrArg (· * W (ix2 d e)) ?_
  exact (rounded_apply img s d).trans (hX s d)

/-- The keys sit in the left half of keys|values … -/
theorem kvOf_left (j : Fin 196) (e : Fin 768) (e' : Fin 1536) (he : e'.val = e.val) :
    kvOf img Wk bk Wv bv (ix2 j e') = pr X Wk bk j e := by
  unfold kvOf
  refine (kv_left _ _ j e e' he).trans ?_
  exact projOf_apply img X hX Wk bk j e

/-- … and the values in the right half. -/
theorem kvOf_right (j : Fin 196) (e : Fin 768) (e' : Fin 1536) (he : e'.val = 768 + e.val) :
    kvOf img Wk bk Wv bv (ix2 j e') = pr X Wv bv j e := by
  unfold kvOf
  refine (kv_right _ _ j e e' he).trans ?_
  exact projOf_apply img X hX Wv bv j e

omit hX in
/-- Each gathered array holds, for query s, the keys|values row its index word names. -/
theorem gathOf_apply (hv0 : ∀ s j : Fin 196, v0 (ix2 s j) = BitVec.ofNat 32 j.val) (idx : IVec S196x4 32)
    (kv : FVec Ideal S196x1536 .bf16) (s : Fin 196) (r : Fin 4 → Fin 196)
    (hr : ∀ c : Fin 4, idx (ix2 s c) = BitVec.ofNat 32 (r c).val) (c : Fin 4) (e' : Fin 1536) :
    gathOf v0 idx kv c (ix2 s e') = kv (ix2 (r c) e') := by
  match c with
  | ⟨0, _⟩ => exact gather_row 0 slices_S196x4_o0_0_S196x1 0 rfl idx v0 hv0 kv s e' _ (hr 0)
  | ⟨1, _⟩ => exact gather_row 1 slices_S196x4_o0_1_S196x1 1 rfl idx v0 hv0 kv s e' _ (hr 1)
  | ⟨2, _⟩ => exact gather_row 2 slices_S196x4_o0_2_S196x1 2 rfl idx v0 hv0 kv s e' _ (hr 2)
  | ⟨3, _⟩ => exact gather_row 3 slices_S196x4_o0_3_S196x1 3 rfl idx v0 hv0 kv s e' _ (hr 3)

/-- One image at (s, e): the running softmax over the four sampled key positions of the products query · key, weighting
    the sampled values. -/
theorem bodyMix_eq (hv0 : ∀ s j : Fin 196, v0 (ix2 s j) = BitVec.ofNat 32 j.val)
    (w : Fin 196 → Fin 4 → BitVec 32) (hw : ∀ (s : Fin 196) (c : Fin 4), idr (ix3 (0 : Fin 1) s c) = w s c)
    (hidx : ∀ (s : Fin 196) (c : Fin 4), 0 ≤ (w s c).toInt ∧ (w s c).toInt ≤ 195) (s : Fin 196) (e : Fin 768) :
    bodyMix v0 img idr Wq bq Wk bk Wv bv s e
      = Cert.Spec.onlineMix (fun c => pr X Wq bq s e * pr X Wk bk (Cert.Spec.row (w s c)) e)
          (fun c => pr X Wv bv (Cert.Spec.row (w s c)) e) := by
  have hr : ∀ c : Fin 4, shapeCast S196x4 idr shapeCasts_S1x196x4_S196x4 (ix2 s c)
      = BitVec.ofNat 32 (Cert.Spec.row (w s c)).val := fun c =>
    ((indexRows_apply idr s c).trans (hw s c)).trans (row_word _ (hidx s c).1 (hidx s c).2)
  unfold bodyMix
  rw [mixFrom_start]
  refine congr (congrArg Cert.Spec.onlineMix (funext fun c => ?_)) (funext fun c => ?_)
  · rw [half_left, gathOf_apply v0 hv0 _ _ s _ hr, projOf_apply img X hX, kvOf_left img Wk bk Wv bv X hX _ e _ rfl]
  · rw [half_right, gathOf_apply v0 hv0 _ _ s _ hr, kvOf_right img Wk bk Wv bv X hX _ e _ rfl]

end OneImage

/-! ## The four stored images -/

section Images
variable (x0 : Vec Ideal S4x196x768 .f32) (x1 : Vec Ideal S4x196x4 .i32) (x2 : Vec Ideal S768x768 .bf16) (x3 : Vec Ideal S1x768 .f32)
  (x4 : Vec Ideal S768x768 .bf16) (x5 : Vec Ideal S1x768 .f32) (x6 : Vec Ideal S768x768 .bf16) (x7 : Vec Ideal S1x768 .f32)

/-- Image 2 of the stored block at (s, e) is the body's running softmax for that image. -/
theorem img2_body (s : Fin 196) (e : Fin 768) :
    img2 (F := Ideal) x0 x1 x2 x3 x4 x5 x6 x7 (ix3 (0 : Fin 1) s e)
      = bodyMix lanes (View.ld x0 rX2) (View.ld x1 rI2) (View.ld x2 rW) (View.ld x3 rB) (View.ld x4 rW) (View.ld x5 rB)
          (View.ld x6 rW) (View.ld x7 rB) s e := by
  unfold img2 k0_pay74
  refine (store_apply _ s e).trans ?_
  rfl

/-- Image 2 of the stored block at (s, e), in coordinates. -/
theorem img2_apply (hidx : ∀ (s : Fin 196) (c : Fin 4), 0 ≤ (x1 (ix3 (2 : Fin 4) s c)).toInt ∧ (x1 (ix3 (2 : Fin 4) s c)).toInt ≤ 195)
    (s : Fin 196) (e : Fin 768) :
    img2 (F := Ideal) x0 x1 x2 x3 x4 x5 x6 x7 (ix3 (0 : Fin 1) s e)
      = Cert.Spec.onlineMix
          (fun c => proj x0 x2 x3 2 s e * proj x0 x4 x5 2 (Cert.Spec.row (x1 (ix3 (2 : Fin 4) s c))) e)
          (fun c => proj x0 x6 x7 2 (Cert.Spec.row (x1 (ix3 (2 : Fin 4) s c))) e) := by
  rw [img2_body, ldW, ldW, ldW, ldB, ldB, ldB]
  exact bodyMix_eq lanes (View.ld x0 rX2) (View.ld x1 rI2) x2 x3 x4 x5 x6 x7 (fun s d => x0 (ix3 (2 : Fin 4) s d))
    (ldX2 x0) lanes_eq (fun s c => x1 (ix3 (2 : Fin 4) s c)) (ldI2 x1) hidx s e

/-- Image 0 of the stored block at (s, e) is the body's running softmax for that image. -/
theorem img0_body (s : Fin 196) (e : Fin 768) :
    img0 (F := Ideal) x0 x1 x2 x3 x4 x5 x6 x7 (ix3 (0 : Fin 1) s e)
      = bodyMix lanes (View.ld x0 rX0) (View.ld x1 rI0) (View.ld x2 rW) (View.ld x3 rB) (View.ld x4 rW) (View.ld x5 rB)
          (View.ld x6 rW) (View.ld x7 rB) s e := by
  unfold img0 k0_pay28
  refine (store_apply _ s e).trans ?_
  rfl

/-- Image 0 of the stored block at (s, e), in coordinates. -/
theorem img0_apply (hidx : ∀ (s : Fin 196) (c : Fin 4), 0 ≤ (x1 (ix3 (0 : Fin 4) s c)).toInt ∧ (x1 (ix3 (0 : Fin 4) s c)).toInt ≤ 195)
    (s : Fin 196) (e : Fin 768) :
    img0 (F := Ideal) x0 x1 x2 x3 x4 x5 x6 x7 (ix3 (0 : Fin 1) s e)
      = Cert.Spec.onlineMix
          (fun c => proj x0 x2 x3 0 s e * proj x0 x4 x5 0 (Cert.Spec.row (x1 (ix3 (0 : Fin 4) s c))) e)
          (fun c => proj x0 x6 x7 0 (Cert.Spec.row (x1 (ix3 (0 : Fin 4) s c))) e) := by
  rw [img0_body, ldW, ldW, ldW, ldB, ldB, ldB]
  exact bodyMix_eq lanes (View.ld x0 rX0) (View.ld x1 rI0) x2 x3 x4 x5 x6 x7 (fun s d => x0 (ix3 (0 : Fin 4) s d))
    (ldX0 x0) lanes_eq (fun s c => x1 (ix3 (0 : Fin 4) s c)) (ldI0 x1) hidx s e

/-- Image 1 of the stored block at (s, e) is the body's running softmax for that image. -/
theorem img1_body (s : Fin 196) (e : Fin 768) :
    img1 (F := Ideal) x0 x1 x2 x3 x4 x5 x6 x7 (ix3 (0 : Fin 1) s e)
      = bodyMix lanes (View.ld x0 rX1) (View.ld x1 rI1) (View.ld x2 rW) (View.ld x3 rB) (View.ld x4 rW) (View.ld x5 rB)
          (View.ld x6 rW) (View.ld x7 rB) s e := by
  unfold img1 k0_pay47
  refine (store_apply _ s e).trans ?_
  rfl

/-- Image 1 of the stored block at (s, e), in coordinates. -/
theorem img1_apply (hidx : ∀ (s : Fin 196) (c : Fin 4), 0 ≤ (x1 (ix3 (1 : Fin 4) s c)).toInt ∧ (x1 (ix3 (1 : Fin 4) s c)).toInt ≤ 195)
    (s : Fin 196) (e : Fin 768) :
    img1 (F := Ideal) x0 x1 x2 x3 x4 x5 x6 x7 (ix3 (0 : Fin 1) s e)
      = Cert.Spec.onlineMix
          (fun c => proj x0 x2 x3 1 s e * proj x0 x4 x5 1 (Cert.Spec.row (x1 (ix3 (1 : Fin 4) s c))) e)
          (fun c => proj x0 x6 x7 1 (Cert.Spec.row (x1 (ix3 (1 : Fin 4) s c))) e) := by
  rw [img1_body, ldW, ldW, ldW, ldB, ldB, ldB]
  exact bodyMix_eq lanes (View.ld x0 rX1) (View.ld x1 rI1) x2 x3 x4 x5 x6 x7 (fun s d => x0 (ix3 (1 : Fin 4) s d))
    (ldX1 x0) lanes_eq (fun s c => x1 (ix3 (1 : Fin 4) s c)) (ldI1 x1) hidx s e

/-- Image 3 of the stored block at (s, e) is the body's running softmax for that image. -/
theorem img3_body (s : Fin 196) (e : Fin 768) :
    img3 (F := Ideal) x0 x1 x2 x3 x4 x5 x6 x7 (ix3 (0 : Fin 1) s e)
      = bodyMix lanes (View.ld x0 rX3) (View.ld x1 rI3) (View.ld x2 rW) (View.ld x3 rB) (View.ld x4 rW) (View.ld x5 rB)
          (View.ld x6 rW) (View.ld x7 rB) s e := by
  unfold img3 k0_pay1 k0_pay95
  refine (store_apply _ s e).trans ?_
  rfl

/-- Image 3 of the stored block at (s, e), in coordinates. -/
theorem img3_apply (hidx : ∀ (s : Fin 196) (c : Fin 4), 0 ≤ (x1 (ix3 (3 : Fin 4) s c)).toInt ∧ (x1 (ix3 (3 : Fin 4) s c)).toInt ≤ 195)
    (s : Fin 196) (e : Fin 768) :
    img3 (F := Ideal) x0 x1 x2 x3 x4 x5 x6 x7 (ix3 (0 : Fin 1) s e)
      = Cert.Spec.onlineMix
          (fun c => proj x0 x2 x3 3 s e * proj x0 x4 x5 3 (Cert.Spec.row (x1 (ix3 (3 : Fin 4) s c))) e)
          (fun c => proj x0 x6 x7 3 (Cert.Spec.row (x1 (ix3 (3 : Fin 4) s c))) e) := by
  rw [img3_body, ldW, ldW, ldW, ldB, ldB, ldB]
  exact bodyMix_eq lanes (View.ld x0 rX3) (View.ld x1 rI3) x2 x3 x4 x5 x6 x7 (fun s d => x0 (ix3 (3 : Fin 4) s d))
    (ldX3 x0) lanes_eq (fun s c => x1 (ix3 (3 : Fin 4) s c)) (ldI3 x1) hidx s e

end Images

end Cert.KernelSide

end
-- ==== Proof.KernelValue.lean ====
/-
  The idealized kernel's result array, as one function of the arrays the region finds.

  Point t of the sixteen writes back block t of the output: images 4t … 4t+3.  Each input window moves with it (the input
  images and their index rows) or stays put (the weights and the bias rows), so what the body stored for image k of the
  block at (s, e) — the running softmax over the four sampled rows of that image — is the same expression of the whole
  arrays at image 4t + k.  The sixteen blocks tile the array, so the array ends holding that function everywhere.
-/
import proofs.«123472_j1975684956773_2_alg».proof.Proof.FrameIdeal
import proofs.«123472_j1975684956773_2_alg».proof.Proof.KernelSide
import proofs.«123472_j1975684956773_2_alg».proof.Proof.Spec
import Idealize.ShloMosaic.Lib.Pipeline.Value
import Idealize.ShloMosaic.Lib.ValueIdx

set_option maxRecDepth 16384

noncomputable section

namespace Cert.KernelValue

open Cert.KernelIdeal Cert.KernelIdeal.Gen Cert.KernelIdeal.Frame
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- One projection of the whole input at a coordinate, the weight in the kernel's (d, e) layout, the bias a row. -/
def pj (a : S64x196x768.Idx → EReal) (W : S768x768.Idx → EReal) (bias : S1x768.Idx → EReal)
    (b : Fin 64) (s : Fin 196) (e : Fin 768) : EReal :=
  (∑ d : Fin 768, a (ix3 b s d) * W (ix2 d e)) + bias (ix2 (0 : Fin 1) e)

/-- The result at a coordinate: the running softmax over the four sampled rows. -/
def Gc (a0 : S64x196x768.Idx → EReal) (a1 : S64x196x4.Idx → BitVec 32) (w2 : S768x768.Idx → EReal) (b3 : S1x768.Idx → EReal)
    (w4 : S768x768.Idx → EReal) (b5 : S1x768.Idx → EReal) (w6 : S768x768.Idx → EReal) (b7 : S1x768.Idx → EReal)
    (b : Fin 64) (s : Fin 196) (e : Fin 768) : EReal :=
  Cert.Spec.onlineMix (fun c => pj a0 w2 b3 b s e * pj a0 w4 b5 b (Cert.Spec.row (a1 (ix3 b s c))) e)
    (fun c => pj a0 w6 b7 b (Cert.Spec.row (a1 (ix3 b s c))) e)

/-- The same, as an array. -/
def G (a0 : S64x196x768.Idx → EReal) (a1 : S64x196x4.Idx → BitVec 32) (w2 : S768x768.Idx → EReal) (b3 : S1x768.Idx → EReal)
    (w4 : S768x768.Idx → EReal) (b5 : S1x768.Idx → EReal) (w6 : S768x768.Idx → EReal) (b7 : S1x768.Idx → EReal) :
    S64x196x768.Idx → EReal := fun i => Gc a0 a1 w2 b3 w4 b5 w6 b7 (i 0) (i 1) (i 2)

/-- The block-level function the four stored images are the tiles of. -/
def Gb (x0 : Vec Ideal S4x196x768 .f32) (x1 : Vec Ideal S4x196x4 .i32) (x2 : Vec Ideal S768x768 .bf16) (x3 : Vec Ideal S1x768 .f32)
    (x4 : Vec Ideal S768x768 .bf16) (x5 : Vec Ideal S1x768 .f32) (x6 : Vec Ideal S768x768 .bf16) (x7 : Vec Ideal S1x768 .f32)
    (k : Fin 4) (s : Fin 196) (e : Fin 768) : EReal :=
  Cert.Spec.onlineMix (fun c => Cert.KernelSide.proj x0 x2 x3 k s e * Cert.KernelSide.proj x0 x4 x5 k (Cert.Spec.row (x1 (ix3 k s c))) e)
    (fun c => Cert.KernelSide.proj x0 x6 x7 k (Cert.Spec.row (x1 (ix3 k s c))) e)

/-! ## The index maps, decided over the grid -/

theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 3) = t.val ∧ win0_8.index t (1 : Fin 3) = 0 ∧ win0_8.index t (2 : Fin 3) = 0 :=
  (by decide +kernel : ∀ t : Fin grid0.N, _)

theorem t_lt (t : Fin cfg0.N) : t.val < 16 := by
  have h : t.val < grid0.N := t.isLt
  rw [N_0] at h; exact h

/-- The image of the whole array that image `k` of block `t` is. -/
def bOf (t : Fin cfg0.N) (k : Fin 4) : Fin 64 := ⟨t.val * 4 + k.val, by have := t_lt t; omega⟩

/-! ## Each window's block, read through the whole array -/

theorem emb0 (t : Fin cfg0.N) (k : Fin 4) (s : Fin 196) (d : Fin 768) :
    ((cfg0.win 0).blk t).view.emb (ix3 k s d) = ix3 (bOf t k) s d := by
  obtain ⟨e0, e1, e2, -⟩ := idx_facts t
  funext a; apply Fin.ext
  match a with
  | ⟨0, _⟩ => show win0_0.index t (0 : Fin 3) * 4 + 1 * k.val = t.val * 4 + k.val; omega
  | ⟨1, _⟩ => show win0_0.index t (1 : Fin 3) * 196 + 1 * s.val = s.val; omega
  | ⟨2, _⟩ => show win0_0.index t (2 : Fin 3) * 768 + 1 * d.val = d.val; omega

theorem emb1 (t : Fin cfg0.N) (k : Fin 4) (s : Fin 196) (c : Fin 4) :
    ((cfg0.win 1).blk t).view.emb (ix3 k s c) = ix3 (bOf t k) s c := by
  obtain ⟨-, -, -, e0, e1, e2, -⟩ := idx_facts t
  funext a; apply Fin.ext
  match a with
  | ⟨0, _⟩ => show win0_1.index t (0 : Fin 3) * 4 + 1 * k.val = t.val * 4 + k.val; omega
  | ⟨1, _⟩ => show win0_1.index t (1 : Fin 3) * 196 + 1 * s.val = s.val; omega
  | ⟨2, _⟩ => show win0_1.index t (2 : Fin 3) * 4 + 1 * c.val = c.val; omega

theorem emb8 (t : Fin cfg0.N) (k : Fin 4) (s : Fin 196) (e : Fin 768) :
    ((cfg0.win 8).blk t).view.emb (ix3 k s e) = ix3 (bOf t k) s e := by
  obtain ⟨-, -, -, -, -, -, -, -, -, -, -, -, -, -, -, -, -, -, e0, e1, e2⟩ := idx_facts t
  funext a; apply Fin.ext
  match a with
  | ⟨0, _⟩ => show win0_8.index t (0 : Fin 3) * 4 + 1 * k.val = t.val * 4 + k.val; omega
  | ⟨1, _⟩ => show win0_8.index t (1 : Fin 3) * 196 + 1 * s.val = s.val; omega
  | ⟨2, _⟩ => show win0_8.index t (2 : Fin 3) * 768 + 1 * e.val = e.val; omega

theorem emb2 (t : Fin cfg0.N) (d e : Fin 768) : ((cfg0.win 2).blk t).view.emb (ix2 d e) = ix2 d e := by
  obtain ⟨-, -, -, -, -, -, e0, e1, -⟩ := idx_facts t
  funext a; apply Fin.ext
  match a with
  | ⟨0, _⟩ => show win0_2.index t (0 : Fin 2) * 768 + 1 * d.val = d.val; omega
  | ⟨1, _⟩ => show win0_2.index t (1 : Fin 2) * 768 + 1 * e.val = e.val; omega
theorem emb4 (t : Fin cfg0.N) (d e : Fin 768) : ((cfg0.win 4).blk t).view.emb (ix2 d e) = ix2 d e := by
  obtain ⟨-, -, -, -, -, -, -, -, -, -, e0, e1, -⟩ := idx_facts t
  funext a; apply Fin.ext
  match a with
  | ⟨0, _⟩ => show win0_4.index t (0 : Fin 2) * 768 + 1 * d.val = d.val; omega
  | ⟨1, _⟩ => show win0_4.index t (1 : Fin 2) * 768 + 1 * e.val = e.val; omega
theorem emb6 (t : Fin cfg0.N) (d e : Fin 768) : ((cfg0.win 6).blk t).view.emb (ix2 d e) = ix2 d e := by
  obtain ⟨-, -, -, -, -, -, -, -, -, -, -, -, -, -, e0, e1, -⟩ := idx_facts t
  funext a; apply Fin.ext
  match a with
  | ⟨0, _⟩ => show win0_6.index t (0 : Fin 2) * 768 + 1 * d.val = d.val; omega
  | ⟨1, _⟩ => show win0_6.index t (1 : Fin 2) * 768 + 1 * e.val = e.val; omega
theorem emb3 (t : Fin cfg0.N) (z : Fin 1) (e : Fin 768) : ((cfg0.win 3).blk t).view.emb (ix2 z e) = ix2 z e := by
  obtain ⟨-, -, -, -, -, -, -, -, e0, e1, -⟩ := idx_facts t
  funext a; apply Fin.ext
  match a with
  | ⟨0, _⟩ => show win0_3.index t (0 : Fin 2) * 1 + 1 * z.val = z.val; omega
  | ⟨1, _⟩ => show win0_3.index t (1 : Fin 2) * 768 + 1 * e.val = e.val; omega
theorem emb5 (t : Fin cfg0.N) (z : Fin 1) (e : Fin 768) : ((cfg0.win 5).blk t).view.emb (ix2 z e) = ix2 z e := by
  obtain ⟨-, -, -, -, -, -, -, -, -, -, -, -, e0, e1, -⟩ := idx_facts t
  funext a; apply Fin.ext
  match a with
  | ⟨0, _⟩ => show win0_5.index t (0 : Fin 2) * 1 + 1 * z.val = z.val; omega
  | ⟨1, _⟩ => show win0_5.index t (1 : Fin 2) * 768 + 1 * e.val = e.val; omega
theorem emb7 (t : Fin cfg0.N) (z : Fin 1) (e : Fin 768) : ((cfg0.win 7).blk t).view.emb (ix2 z e) = ix2 z e := by
  obtain ⟨-, -, -, -, -, -, -, -, -, -, -, -, -, -, -, -, e0, e1, -⟩ := idx_facts t
  funext a; apply Fin.ext
  match a with
  | ⟨0, _⟩ => show win0_7.index t (0 : Fin 2) * 1 + 1 * z.val = z.val; omega
  | ⟨1, _⟩ => show win0_7.index t (1 : Fin 2) * 768 + 1 * e.val = e.val; omega

/-- A block's entry is the array's entry at the block's place. -/
theorem iblk0 (c : Dev nD) (t : Fin cfg0.N) (k : Fin 4) (s : Fin 196) (d : Fin 768) :
    iblk m c 0 t (ix3 k s d) = V m c main_arg0 (ix3 (bOf t k) s d) := by
  show V m c main_arg0 (((cfg0.win 0).blk t).view.emb (ix3 k s d)) = _
  rw [emb0]
theorem iblk1 (c : Dev nD) (t : Fin cfg0.N) (k : Fin 4) (s : Fin 196) (cc : Fin 4) :
    iblk m c 1 t (ix3 k s cc) = V m c main_v42 (ix3 (bOf t k) s cc) := by
  show V m c main_v42 (((cfg0.win 1).blk t).view.emb (ix3 k s cc)) = _
  rw [emb1]
theorem iblk2 (c : Dev nD) (t : Fin cfg0.N) (d e : Fin 768) : iblk m c 2 t (ix2 d e) = V m c main_v44 (ix2 d e) := by
  show V m c main_v44 (((cfg0.win 2).blk t).view.emb (ix2 d e)) = _
  rw [emb2]
theorem iblk4 (c : Dev nD) (t : Fin cfg0.N) (d e : Fin 768) : iblk m c 4 t (ix2 d e) = V m c main_v46 (ix2 d e) := by
  show V m c main_v46 (((cfg0.win 4).blk t).view.emb (ix2 d e)) = _
  rw [emb4]
theorem iblk6 (c : Dev nD) (t : Fin cfg0.N) (d e : Fin 768) : iblk m c 6 t (ix2 d e) = V m c main_v48 (ix2 d e) := by
  show V m c main_v48 (((cfg0.win 6).blk t).view.emb (ix2 d e)) = _
  rw [emb6]
theorem iblk3 (c : Dev nD) (t : Fin cfg0.N) (z : Fin 1) (e : Fin 768) : iblk m c 3 t (ix2 z e) = V m c main_v49 (ix2 z e) := by
  show V m c main_v49 (((cfg0.win 3).blk t).view.emb (ix2 z e)) = _
  rw [emb3]
theorem iblk5 (c : Dev nD) (t : Fin cfg0.N) (z : Fin 1) (e : Fin 768) : iblk m c 5 t (ix2 z e) = V m c main_v50 (ix2 z e) := by
  show V m c main_v50 (((cfg0.win 5).blk t).view.emb (ix2 z e)) = _
  rw [emb5]
theorem iblk7 (c : Dev nD) (t : Fin cfg0.N) (z : Fin 1) (e : Fin 768) : iblk m c 7 t (ix2 z e) = V m c main_v51 (ix2 z e) := by
  show V m c main_v51 (((cfg0.win 7).blk t).view.emb (ix2 z e)) = _
  rw [emb7]

/-- The block-level projection of the blocks is the whole-array projection at the block's image. -/
theorem proj_blk (c : Dev nD) (t : Fin cfg0.N) (k : Fin 4) (s : Fin 196) (e : Fin 768) :
    Cert.KernelSide.proj (iblk m c 0 t) (iblk m c 2 t) (iblk m c 3 t) k s e = pj (V m c main_arg0) (V m c main_v44) (V m c main_v49) (bOf t k) s e
    ∧ Cert.KernelSide.proj (iblk m c 0 t) (iblk m c 4 t) (iblk m c 5 t) k s e = pj (V m c main_arg0) (V m c main_v46) (V m c main_v50) (bOf t k) s e
    ∧ Cert.KernelSide.proj (iblk m c 0 t) (iblk m c 6 t) (iblk m c 7 t) k s e = pj (V m c main_arg0) (V m c main_v48) (V m c main_v51) (bOf t k) s e := by
  unfold Cert.KernelSide.proj pj
  refine ⟨?_, ?_, ?_⟩ <;> simp only [iblk0, iblk2, iblk3, iblk4, iblk5, iblk6, iblk7]

/-- The block-level result of the blocks is the whole-array result at the block's image. -/
theorem Gb_blk (c : Dev nD) (t : Fin cfg0.N) (k : Fin 4) (s : Fin 196) (e : Fin 768) :
    Gb (iblk m c 0 t) (iblk m c 1 t) (iblk m c 2 t) (iblk m c 3 t) (iblk m c 4 t) (iblk m c 5 t) (iblk m c 6 t) (iblk m c 7 t) k s e
      = Gc (V m c main_arg0) (V m c main_v42) (V m c main_v44) (V m c main_v49) (V m c main_v46) (V m c main_v50) (V m c main_v48) (V m c main_v51) (bOf t k) s e := by
  unfold Gb Gc
  simp only [iblk1, fun s' => (proj_blk m c t k s' e).1, fun s' => (proj_blk m c t k s' e).2.1, fun s' => (proj_blk m c t k s' e).2.2]

/-! ## The four stored images are the tiles of one block-level function -/

theorem rX0_emb (z : Fin 1) (s : Fin 196) (e : Fin 768) : rX0.emb (ix3 z s e) = ix3 (0 : Fin 4) s e := by
  funext a; apply Fin.ext
  match a with
  | ⟨0, _⟩ => show 0 + 1 * z.val = 0; omega
  | ⟨1, _⟩ => show 0 + 1 * s.val = s.val; omega
  | ⟨2, _⟩ => show 0 + 1 * e.val = e.val; omega
theorem rX1_emb (z : Fin 1) (s : Fin 196) (e : Fin 768) : rX1.emb (ix3 z s e) = ix3 (1 : Fin 4) s e := by
  funext a; apply Fin.ext
  match a with
  | ⟨0, _⟩ => show 1 + 1 * z.val = 1; omega
  | ⟨1, _⟩ => show 0 + 1 * s.val = s.val; omega
  | ⟨2, _⟩ => show 0 + 1 * e.val = e.val; omega
theorem rX2_emb (z : Fin 1) (s : Fin 196) (e : Fin 768) : rX2.emb (ix3 z s e) = ix3 (2 : Fin 4) s e := by
  funext a; apply Fin.ext
  match a with
  | ⟨0, _⟩ => show 2 + 1 * z.val = 2; omega
  | ⟨1, _⟩ => show 0 + 1 * s.val = s.val; omega
  | ⟨2, _⟩ => show 0 + 1 * e.val = e.val; omega
theorem rX3_emb (z : Fin 1) (s : Fin 196) (e : Fin 768) : rX3.emb (ix3 z s e) = ix3 (3 : Fin 4) s e := by
  funext a; apply Fin.ext
  match a with
  | ⟨0, _⟩ => show 3 + 1 * z.val = 3; omega
  | ⟨1, _⟩ => show 0 + 1 * s.val = s.val; omega
  | ⟨2, _⟩ => show 0 + 1 * e.val = e.val; omega

/-- The block-level function as a function of the block index. -/
def Gbi (x0 : Vec Ideal S4x196x768 .f32) (x1 : Vec Ideal S4x196x4 .i32) (x2 : Vec Ideal S768x768 .bf16) (x3 : Vec Ideal S1x768 .f32)
    (x4 : Vec Ideal S768x768 .bf16) (x5 : Vec Ideal S1x768 .f32) (x6 : Vec Ideal S768x768 .bf16) (x7 : Vec Ideal S1x768 .f32) :
    S4x196x768.Idx → EReal := fun j => Gb x0 x1 x2 x3 x4 x5 x6 x7 (j 0) (j 1) (j 2)

theorem pieces (x0 : Vec Ideal S4x196x768 .f32) (x1 : Vec Ideal S4x196x4 .i32) (x2 : Vec Ideal S768x768 .bf16) (x3 : Vec Ideal S1x768 .f32)
    (x4 : Vec Ideal S768x768 .bf16) (x5 : Vec Ideal S1x768 .f32) (x6 : Vec Ideal S768x768 .bf16) (x7 : Vec Ideal S1x768 .f32)
    (hidx : ∀ (k : Fin 4) (s : Fin 196) (c : Fin 4), 0 ≤ (x1 (ix3 k s c)).toInt ∧ (x1 (ix3 k s c)).toInt ≤ 195) :
    ∀ p ∈ ([⟨rX3, img3 (F := Ideal) x0 x1 x2 x3 x4 x5 x6 x7⟩, ⟨rX2, img2 (F := Ideal) x0 x1 x2 x3 x4 x5 x6 x7⟩, ⟨rX1, img1 (F := Ideal) x0 x1 x2 x3 x4 x5 x6 x7⟩, ⟨rX0, img0 (F := Ideal) x0 x1 x2 x3 x4 x5 x6 x7⟩] : List (View.Piece (Elt Ideal) S4x196x768 .f32)),
      ∀ x : p.1.shape.Idx, p.2 x = Gbi x0 x1 x2 x3 x4 x5 x6 x7 (p.1.emb x) := by
  intro p hp
  simp only [List.mem_cons, List.mem_nil_iff, or_false] at hp
  rcases hp with rfl | rfl | rfl | rfl
  · intro x
    obtain ⟨z, s, e, rfl⟩ : ∃ (z : Fin 1) (s : Fin 196) (e : Fin 768), x = ix3 z s e := ⟨x 0, x 1, x 2, eq_ix3 x⟩
    obtain rfl : z = 0 := Subsingleton.elim _ _
    show img3 (F := Ideal) x0 x1 x2 x3 x4 x5 x6 x7 (ix3 (0 : Fin 1) s e) = Gbi x0 x1 x2 x3 x4 x5 x6 x7 (rX3.emb (ix3 0 s e))
    rw [rX3_emb, Cert.KernelSide.img3_apply x0 x1 x2 x3 x4 x5 x6 x7 (hidx 3) s e]; rfl
  · intro x
    obtain ⟨z, s, e, rfl⟩ : ∃ (z : Fin 1) (s : Fin 196) (e : Fin 768), x = ix3 z s e := ⟨x 0, x 1, x 2, eq_ix3 x⟩
    obtain rfl : z = 0 := Subsingleton.elim _ _
    show img2 (F := Ideal) x0 x1 x2 x3 x4 x5 x6 x7 (ix3 (0 : Fin 1) s e) = Gbi x0 x1 x2 x3 x4 x5 x6 x7 (rX2.emb (ix3 0 s e))
    rw [rX2_emb, Cert.KernelSide.img2_apply x0 x1 x2 x3 x4 x5 x6 x7 (hidx 2) s e]; rfl
  · intro x
    obtain ⟨z, s, e, rfl⟩ : ∃ (z : Fin 1) (s : Fin 196) (e : Fin 768), x = ix3 z s e := ⟨x 0, x 1, x 2, eq_ix3 x⟩
    obtain rfl : z = 0 := Subsingleton.elim _ _
    show img1 (F := Ideal) x0 x1 x2 x3 x4 x5 x6 x7 (ix3 (0 : Fin 1) s e) = Gbi x0 x1 x2 x3 x4 x5 x6 x7 (rX1.emb (ix3 0 s e))
    rw [rX1_emb, Cert.KernelSide.img1_apply x0 x1 x2 x3 x4 x5 x6 x7 (hidx 1) s e]; rfl
  · intro x
    obtain ⟨z, s, e, rfl⟩ : ∃ (z : Fin 1) (s : Fin 196) (e : Fin 768), x = ix3 z s e := ⟨x 0, x 1, x 2, eq_ix3 x⟩
    obtain rfl : z = 0 := Subsingleton.elim _ _
    show img0 (F := Ideal) x0 x1 x2 x3 x4 x5 x6 x7 (ix3 (0 : Fin 1) s e) = Gbi x0 x1 x2 x3 x4 x5 x6 x7 (rX0.emb (ix3 0 s e))
    rw [rX0_emb, Cert.KernelSide.img0_apply x0 x1 x2 x3 x4 x5 x6 x7 (hidx 0) s e]; rfl

/-! ## What a point writes back, the cover, the whole array -/

/-- The array the kernel leaves, of the arrays the region finds. -/
abbrev GV (c : Dev nD) : S64x196x768.Idx → EReal :=
  G (V m c main_arg0) (V m c main_v42) (V m c main_v44) (V m c main_v49) (V m c main_v46) (V m c main_v50) (V m c main_v48) (V m c main_v51)

/-- The output buffer after the body, at a block index: the block-level function. -/
theorem out0_8_apply (x0 : Vec Ideal S4x196x768 .f32) (x1 : Vec Ideal S4x196x4 .i32) (x2 : Vec Ideal S768x768 .bf16) (x3 : Vec Ideal S1x768 .f32)
    (x4 : Vec Ideal S768x768 .bf16) (x5 : Vec Ideal S1x768 .f32) (x6 : Vec Ideal S768x768 .bf16) (x7 : Vec Ideal S1x768 .f32)
    (hidx : ∀ (k : Fin 4) (s : Fin 196) (c : Fin 4), 0 ≤ (x1 (ix3 k s c)).toInt ∧ (x1 (ix3 k s c)).toInt ≤ 195)
    (k : Fin 4) (s : Fin 196) (e : Fin 768) :
    out0_8 (F := Ideal) x0 x1 x2 x3 x4 x5 x6 x7 (ix3 k s e) = Gb x0 x1 x2 x3 x4 x5 x6 x7 k s e := by
  unfold out0_8
  rw [View.canon_apply_of_pieces (Gbi x0 x1 x2 x3 x4 x5 x6 x7) _ (pieces x0 x1 x2 x3 x4 x5 x6 x7 hidx) (ix3 k s e)
    (cover0_8 (img3 (F := Ideal) x0 x1 x2 x3 x4 x5 x6 x7) (img2 (F := Ideal) x0 x1 x2 x3 x4 x5 x6 x7) (img1 (F := Ideal) x0 x1 x2 x3 x4 x5 x6 x7) (img0 (F := Ideal) x0 x1 x2 x3 x4 x5 x6 x7) (ix3 k s e))]
  rfl

set_option maxHeartbeats 2000000 in
theorem flushed_eq (c : Dev nD) (hI : ∀ i, 0 ≤ (V m c main_v42 i).toInt ∧ (V m c main_v42 i).toInt ≤ 195) (t : Fin cfg0.N) :
    (dats m 0 c).flushed 8 t = ((cfg0.win 8).blk t).view.read (Elt Ideal) (GV m c) := by
  show (cfg0.win 8).cut (grid0.coords t) ((dats m 0 c).after 8 t) = _
  rw [after0_8]
  funext j
  obtain ⟨k, s, e, rfl⟩ : ∃ (k : Fin 4) (s : Fin 196) (e : Fin 768), j = ix3 k s e := ⟨j 0, j 1, j 2, eq_ix3 j⟩
  rw [View.read_apply, emb8]
  have hidx : ∀ (k : Fin 4) (s : Fin 196) (cc : Fin 4), 0 ≤ (iblk m c 1 t (ix3 k s cc)).toInt ∧ (iblk m c 1 t (ix3 k s cc)).toInt ≤ 195 :=
    fun k s cc => by rw [iblk1]; exact hI _
  refine (out0_8_apply (iblk m c 0 t) (iblk m c 1 t) (iblk m c 2 t) (iblk m c 3 t) (iblk m c 4 t) (iblk m c 5 t) (iblk m c 6 t) (iblk m c 7 t) hidx k s e).trans ?_
  exact Gb_blk m c t k s e

theorem mem_blk8 (t : Fin cfg0.N) (i : S64x196x768.Idx) :
    i ∈ ((cfg0.win 8).blk t).view.set ↔ ∀ a : Fin 3, win0_8.index t a * S4x196x768.size a ≤ (i a).val ∧ (i a).val < win0_8.index t a * S4x196x768.size a + S4x196x768.size a := by
  show i ∈ ((View.whole main_v52).slice (win0_8.rect t)).set ↔ _
  rw [View.set_slice_whole, Rect.mem_set_unit]
  exact Iff.rfl

theorem cover8 (i : S64x196x768.Idx) : ∃ t : Fin cfg0.N, (cfg0.win 8).flush t = true ∧ i ∈ ((cfg0.win 8).blk t).view.set := by
  have hi0 : (i 0).val < 64 := (i 0).isLt
  have hi1 : (i 1).val < 196 := (i 1).isLt
  have hi2 : (i 2).val < 768 := (i 2).isLt
  have hN : (i 0).val / 4 < cfg0.N := by show _ < grid0.N; rw [N_0]; omega
  refine ⟨⟨(i 0).val / 4, hN⟩, flush0_8 _, ?_⟩
  obtain ⟨-, -, -, -, -, -, -, -, -, -, -, -, -, -, -, -, -, -, e0, e1, e2⟩ := idx_facts ⟨(i 0).val / 4, hN⟩
  rw [mem_blk8]
  intro a
  match a with
  | ⟨0, _⟩ => show win0_8.index ⟨(i 0).val / 4, hN⟩ (0 : Fin 3) * 4 ≤ (i 0).val ∧ (i 0).val < win0_8.index ⟨(i 0).val / 4, hN⟩ (0 : Fin 3) * 4 + 4; rw [e0]; show (i 0).val / 4 * 4 ≤ _ ∧ _ < (i 0).val / 4 * 4 + 4; omega
  | ⟨1, _⟩ => show win0_8.index ⟨(i 0).val / 4, hN⟩ (1 : Fin 3) * 196 ≤ (i 1).val ∧ (i 1).val < win0_8.index ⟨(i 0).val / 4, hN⟩ (1 : Fin 3) * 196 + 196; omega
  | ⟨2, _⟩ => show win0_8.index ⟨(i 0).val / 4, hN⟩ (2 : Fin 3) * 768 ≤ (i 2).val ∧ (i 2).val < win0_8.index ⟨(i 0).val / 4, hN⟩ (2 : Fin 3) * 768 + 768; omega

/-- The output array after the run. -/
theorem final8 (c : Dev nD) (hI : ∀ i, 0 ≤ (V m c main_v42 i).toInt ∧ (V m c main_v42 i).toInt ≤ 195) :
    (dats m 0 c).arrAt 8 cfg0.N = GV m c :=
  (dats m 0 c).arrAt_eq_of_cover 8 (GV m c) (fun t _ => flushed_eq m c hI t) cover8

/-! ## The run, read -/

/-- Every weakly fair execution of the idealized kernel's @main terminates with the output array at `GV` of the arrays
    the region finds, and the twelve arguments unchanged — provided the index words the region finds are valid rows. -/
theorem run (hI : ∀ c i, 0 ≤ (V m c main_v42 i).toInt ∧ (V m c main_v42 i).toInt ≤ 195) :
    θ_run defs (onTc (τ := τ) (main (F := Ideal))) ⟨m, fun _ => 0, ρ⟩ (fun r => ∀ c : Dev nD,
      r.2.mem ((c.tc : Thread nD τ).loc main_v52) = GV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨((h c).1 8).trans (final8 m c (hI c)),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c)⟩) (run_main m ρ)

end Cert.KernelValue

end
-- ==== Proof.HostReads.lean ====
/-
  What the region finds in the arrays @main's host operations prepare, on the extended reals.

  Before the one region @main transposes the three weight matrices (and rounds them to bf16, which is the identity on
  the extended reals), views the three bias vectors as rows, and computes the four-corner index array from the image
  numbers, the noise and the two tables. Read at an index, a prepared weight matrix is the argument with its two
  coordinates swapped and a prepared bias row is the argument; the index array is the composed term of the operations
  that compute it, stated once as a function of the four arguments it depends on.
-/
import proofs.«123472_j1975684956773_2_alg».proof.Proof.FrameIdeal
import Idealize.ShloMosaic.Lib.StableHlo.Run
import Idealize.ShloMosaic.Lib.ValueLayout
import Idealize.ShloMosaic.Lib.ValueIdx

set_option maxRecDepth 16384
noncomputable section

namespace Cert.HostReads
open Cert.KernelIdeal Cert.KernelIdeal.Gen Cert.KernelIdeal.Frame
open Idealize.ShloMosaic Idealize.ShloMosaic.TcCoe Idealize.ShloMosaic.ValueIdx Idealize.SL.Sem Idealize.ShloMosaic.StableHlo

variable (m : (ℓ : Loc nD τ sig) → Buf (Elt Ideal) ℓ)

/-! ## The weights and the biases -/

/-- The query weights as the region finds them: the argument transposed (the rounding to bf16 is the identity on the
    extended reals). -/
theorem V_main_v44 (c : Dev nD) :
    (V m c main_v44 : S768x768.Idx → EReal)
      = truncf (F := Ideal) .bf16 (transpose S768x768 [1, 0] (m ((c : Thread nD τ).loc main_arg4)) transposes_S768x768_S768x768_1_0)
          bitsLt_bf16_f32 := by
  dsimp only [V]
  simp only [hostOps0, hostOps0_1, hostOps0_2, List.flatten_cons, List.flatten_nil, List.append_nil, List.cons_append,
    List.nil_append]
  after_results_simp <;> rfl

/-- … so its entry (d, e) is the argument's entry (e, d). -/
theorem V_main_v44_apply (c : Dev nD) (d e : Fin 768) :
    (V m c main_v44 : S768x768.Idx → EReal) (ix2 d e) = m ((c : Thread nD τ).loc main_arg4) (ix2 e d) := by
  rw [V_main_v44]
  exact transpose_ix2_apply (m ((c : Thread nD τ).loc main_arg4)) transposes_S768x768_S768x768_1_0 d e

/-- The key weights as the region finds them: the argument transposed (the rounding to bf16 is the identity on the
    extended reals). -/
theorem V_main_v46 (c : Dev nD) :
    (V m c main_v46 : S768x768.Idx → EReal)
      = truncf (F := Ideal) .bf16 (transpose S768x768 [1, 0] (m ((c : Thread nD τ).loc main_arg6)) transposes_S768x768_S768x768_1_0)
          bitsLt_bf16_f32 := by
  dsimp only [V]
  simp only [hostOps0, hostOps0_1, hostOps0_2, List.flatten_cons, List.flatten_nil, List.append_nil, List.cons_append,
    List.nil_append]
  after_results_simp <;> rfl

/-- … so its entry (d, e) is the argument's entry (e, d). -/
theorem V_main_v46_apply (c : Dev nD) (d e : Fin 768) :
    (V m c main_v46 : S768x768.Idx → EReal) (ix2 d e) = m ((c : Thread nD τ).loc main_arg6) (ix2 e d) := by
  rw [V_main_v46]
  exact transpose_ix2_apply (m ((c : Thread nD τ).loc main_arg6)) transposes_S768x768_S768x768_1_0 d e

/-- The value weights as the region finds them: the argument transposed (the rounding to bf16 is the identity on the
    extended reals). -/
theorem V_main_v48 (c : Dev nD) :
    (V m c main_v48 : S768x768.Idx → EReal)
      = truncf (F := Ideal) .bf16 (transpose S768x768 [1, 0] (m ((c : Thread nD τ).loc main_arg8)) transposes_S768x768_S768x768_1_0)
          bitsLt_bf16_f32 := by
  dsimp only [V]
  simp only [hostOps0, hostOps0_1, hostOps0_2, List.flatten_cons, List.flatten_nil, List.append_nil, List.cons_append,
    List.nil_append]
  after_results_simp <;> rfl

/-- … so its entry (d, e) is the argument's entry (e, d). -/
theorem V_main_v48_apply (c : Dev nD) (d e : Fin 768) :
    (V m c main_v48 : S768x768.Idx → EReal) (ix2 d e) = m ((c : Thread nD τ).loc main_arg8) (ix2 e d) := by
  rw [V_main_v48]
  exact transpose_ix2_apply (m ((c : Thread nD τ).loc main_arg8)) transposes_S768x768_S768x768_1_0 d e

/-- The query bias as the region finds it: the argument as one row. -/
theorem V_main_v49 (c : Dev nD) :
    (V m c main_v49 : S1x768.Idx → EReal) = shapeCast S1x768 (m ((c : Thread nD τ).loc main_arg5)) shapeCasts_S768_S1x768 := by
  dsimp only [V]
  simp only [hostOps0, hostOps0_1, hostOps0_2, List.flatten_cons, List.flatten_nil, List.append_nil, List.cons_append,
    List.nil_append]
  after_results_simp <;> rfl

/-- … so its entry (0, e) is the argument's entry e. -/
theorem V_main_v49_apply (c : Dev nD) (e : Fin 768) :
    (V m c main_v49 : S1x768.Idx → EReal) (ix2 (0 : Fin 1) e) = m ((c : Thread nD τ).loc main_arg5) (ix1 e) := by
  rw [V_main_v49]
  exact shapeCast_a_1a_apply (m ((c : Thread nD τ).loc main_arg5)) shapeCasts_S768_S1x768 0 e

/-- The key bias as the region finds it: the argument as one row. -/
theorem V_main_v50 (c : Dev nD) :
    (V m c main_v50 : S1x768.Idx → EReal) = shapeCast S1x768 (m ((c : Thread nD τ).loc main_arg7)) shapeCasts_S768_S1x768 := by
  dsimp only [V]
  simp only [hostOps0, hostOps0_1, hostOps0_2, List.flatten_cons, List.flatten_nil, List.append_nil, List.cons_append,
    List.nil_append]
  after_results_simp <;> rfl

/-- … so its entry (0, e) is the argument's entry e. -/
theorem V_main_v50_apply (c : Dev nD) (e : Fin 768) :
    (V m c main_v50 : S1x768.Idx → EReal) (ix2 (0 : Fin 1) e) = m ((c : Thread nD τ).loc main_arg7) (ix1 e) := by
  rw [V_main_v50]
  exact shapeCast_a_1a_apply (m ((c : Thread nD τ).loc main_arg7)) shapeCasts_S768_S1x768 0 e

/-- The value bias as the region finds it: the argument as one row. -/
theorem V_main_v51 (c : Dev nD) :
    (V m c main_v51 : S1x768.Idx → EReal) = shapeCast S1x768 (m ((c : Thread nD τ).loc main_arg9)) shapeCasts_S768_S1x768 := by
  dsimp only [V]
  simp only [hostOps0, hostOps0_1, hostOps0_2, List.flatten_cons, List.flatten_nil, List.append_nil, List.cons_append,
    List.nil_append]
  after_results_simp <;> rfl

/-- … so its entry (0, e) is the argument's entry e. -/
theorem V_main_v51_apply (c : Dev nD) (e : Fin 768) :
    (V m c main_v51 : S1x768.Idx → EReal) (ix2 (0 : Fin 1) e) = m ((c : Thread nD τ).loc main_arg9) (ix1 e) := by
  rw [V_main_v51]
  exact shapeCast_a_1a_apply (m ((c : Thread nD τ).loc main_arg9)) shapeCasts_S768_S1x768 0 e

/-! ## The index array -/

/-- The four-corner index array as @main computes it before the region, as one term of the image numbers `a2`, the noise
    `a3` and the two tables `a10` (means) and `a11` (deviations): the sampled coordinate is mean + deviation · noise at the
    image's row of the tables (a negative image number wraps by 1024); its two components are rounded up and down; the
    four corners 14 · y + x are laid side by side, clamped into 0 … 195 and converted to 32-bit integers. Every operation
    is the printed one, in the printed order. -/
def idxTerm {F : FTy → Type} [FloatOps F] (a2 : (⟨S64, .i32⟩ : BufTy).Contents (Elt F)) (a3 : (⟨S64x2x196, .f32⟩ : BufTy).Contents (Elt F))
    (a10 a11 : (⟨S1024x2x196, .f32⟩ : BufTy).Contents (Elt F)) : (⟨S64x196x4, .i32⟩ : BufTy).Contents (Elt F) :=
  fptosi 32 (minimumf (broadcastInDim S64x196x4 ![] bcast_S_S64x196x4 (sitofp .f32 (constantI S_ 32 195#32))) (maximumf (broadcastInDim S64x196x4 ![] bcast_S_S64x196x4 (sitofp .f32 (constantI S_ 32 0#32))) (concatenate S64x196x4 2 [⟨S64x196x1, (broadcastInDim S64x196x1 ![0, 1] bcast_S64x196_S64x196x1_0_1 (addf (mulf (broadcastInDim S64x196 ![] bcast_S_S64x196 (constant S_ .f32 0x41600000#32)) (Host.ceil (shapeCast _ (extractStridedSlice S64x1x196 ![0, 1, 0] (addf (Host.gather gather_S1024x2x196_S64x1_S64x2x196_12_0_n_n_0_1_12196 a10 (broadcastInDim S64x1 ![0] bcast_S64_S64x1_0 (select (cmpi .slt a2 (broadcastInDim S64 ![] bcast_S_S64 (constantI S_ 32 0#32))) (addi a2 (broadcastInDim S64 ![] bcast_S_S64 (constantI S_ 32 1024#32))) a2))) (mulf (Host.gather gather_S1024x2x196_S64x1_S64x2x196_12_0_n_n_0_1_12196 a11 (broadcastInDim S64x1 ![0] bcast_S64_S64x1_0 (select (cmpi .slt a2 (broadcastInDim S64 ![] bcast_S_S64 (constantI S_ 32 0#32))) (addi a2 (broadcastInDim S64 ![] bcast_S_S64 (constantI S_ 32 1024#32))) a2))) a3)) slices_S64x2x196_S64x1x196_0_1_0) shapeCasts_S64x1x196_S64x196))) (Host.ceil (shapeCast _ (extractStridedSlice S64x1x196 ![0, 0, 0] (addf (Host.gather gather_S1024x2x196_S64x1_S64x2x196_12_0_n_n_0_1_12196 a10 (broadcastInDim S64x1 ![0] bcast_S64_S64x1_0 (select (cmpi .slt a2 (broadcastInDim S64 ![] bcast_S_S64 (constantI S_ 32 0#32))) (addi a2 (broadcastInDim S64 ![] bcast_S_S64 (constantI S_ 32 1024#32))) a2))) (mulf (Host.gather gather_S1024x2x196_S64x1_S64x2x196_12_0_n_n_0_1_12196 a11 (broadcastInDim S64x1 ![0] bcast_S64_S64x1_0 (select (cmpi .slt a2 (broadcastInDim S64 ![] bcast_S_S64 (constantI S_ 32 0#32))) (addi a2 (broadcastInDim S64 ![] bcast_S_S64 (constantI S_ 32 1024#32))) a2))) a3)) slices_S64x2x196_S64x1x196_0_0_0) shapeCasts_S64x1x196_S64x196))))⟩, ⟨S64x196x1, (broadcastInDim S64x196x1 ![0, 1] bcast_S64x196_S64x196x1_0_1 (addf (mulf (broadcastInDim S64x196 ![] bcast_S_S64x196 (constant S_ .f32 0x41600000#32)) (Host.ceil (shapeCast _ (extractStridedSlice S64x1x196 ![0, 1, 0] (addf (Host.gather gather_S1024x2x196_S64x1_S64x2x196_12_0_n_n_0_1_12196 a10 (broadcastInDim S64x1 ![0] bcast_S64_S64x1_0 (select (cmpi .slt a2 (broadcastInDim S64 ![] bcast_S_S64 (constantI S_ 32 0#32))) (addi a2 (broadcastInDim S64 ![] bcast_S_S64 (constantI S_ 32 1024#32))) a2))) (mulf (Host.gather gather_S1024x2x196_S64x1_S64x2x196_12_0_n_n_0_1_12196 a11 (broadcastInDim S64x1 ![0] bcast_S64_S64x1_0 (select (cmpi .slt a2 (broadcastInDim S64 ![] bcast_S_S64 (constantI S_ 32 0#32))) (addi a2 (broadcastInDim S64 ![] bcast_S_S64 (constantI S_ 32 1024#32))) a2))) a3)) slices_S64x2x196_S64x1x196_0_1_0) shapeCasts_S64x1x196_S64x196))) (Host.floor (shapeCast _ (extractStridedSlice S64x1x196 ![0, 0, 0] (addf (Host.gather gather_S1024x2x196_S64x1_S64x2x196_12_0_n_n_0_1_12196 a10 (broadcastInDim S64x1 ![0] bcast_S64_S64x1_0 (select (cmpi .slt a2 (broadcastInDim S64 ![] bcast_S_S64 (constantI S_ 32 0#32))) (addi a2 (broadcastInDim S64 ![] bcast_S_S64 (constantI S_ 32 1024#32))) a2))) (mulf (Host.gather gather_S1024x2x196_S64x1_S64x2x196_12_0_n_n_0_1_12196 a11 (broadcastInDim S64x1 ![0] bcast_S64_S64x1_0 (select (cmpi .slt a2 (broadcastInDim S64 ![] bcast_S_S64 (constantI S_ 32 0#32))) (addi a2 (broadcastInDim S64 ![] bcast_S_S64 (constantI S_ 32 1024#32))) a2))) a3)) slices_S64x2x196_S64x1x196_0_0_0) shapeCasts_S64x1x196_S64x196))))⟩, ⟨S64x196x1, (broadcastInDim S64x196x1 ![0, 1] bcast_S64x196_S64x196x1_0_1 (addf (mulf (broadcastInDim S64x196 ![] bcast_S_S64x196 (constant S_ .f32 0x41600000#32)) (Host.floor (shapeCast _ (extractStridedSlice S64x1x196 ![0, 1, 0] (addf (Host.gather gather_S1024x2x196_S64x1_S64x2x196_12_0_n_n_0_1_12196 a10 (broadcastInDim S64x1 ![0] bcast_S64_S64x1_0 (select (cmpi .slt a2 (broadcastInDim S64 ![] bcast_S_S64 (constantI S_ 32 0#32))) (addi a2 (broadcastInDim S64 ![] bcast_S_S64 (constantI S_ 32 1024#32))) a2))) (mulf (Host.gather gather_S1024x2x196_S64x1_S64x2x196_12_0_n_n_0_1_12196 a11 (broadcastInDim S64x1 ![0] bcast_S64_S64x1_0 (select (cmpi .slt a2 (broadcastInDim S64 ![] bcast_S_S64 (constantI S_ 32 0#32))) (addi a2 (broadcastInDim S64 ![] bcast_S_S64 (constantI S_ 32 1024#32))) a2))) a3)) slices_S64x2x196_S64x1x196_0_1_0) shapeCasts_S64x1x196_S64x196))) (Host.ceil (shapeCast _ (extractStridedSlice S64x1x196 ![0, 0, 0] (addf (Host.gather gather_S1024x2x196_S64x1_S64x2x196_12_0_n_n_0_1_12196 a10 (broadcastInDim S64x1 ![0] bcast_S64_S64x1_0 (select (cmpi .slt a2 (broadcastInDim S64 ![] bcast_S_S64 (constantI S_ 32 0#32))) (addi a2 (broadcastInDim S64 ![] bcast_S_S64 (constantI S_ 32 1024#32))) a2))) (mulf (Host.gather gather_S1024x2x196_S64x1_S64x2x196_12_0_n_n_0_1_12196 a11 (broadcastInDim S64x1 ![0] bcast_S64_S64x1_0 (select (cmpi .slt a2 (broadcastInDim S64 ![] bcast_S_S64 (constantI S_ 32 0#32))) (addi a2 (broadcastInDim S64 ![] bcast_S_S64 (constantI S_ 32 1024#32))) a2))) a3)) slices_S64x2x196_S64x1x196_0_0_0) shapeCasts_S64x1x196_S64x196))))⟩, ⟨S64x196x1, (broadcastInDim S64x196x1 ![0, 1] bcast_S64x196_S64x196x1_0_1 (addf (mulf (broadcastInDim S64x196 ![] bcast_S_S64x196 (constant S_ .f32 0x41600000#32)) (Host.floor (shapeCast _ (extractStridedSlice S64x1x196 ![0, 1, 0] (addf (Host.gather gather_S1024x2x196_S64x1_S64x2x196_12_0_n_n_0_1_12196 a10 (broadcastInDim S64x1 ![0] bcast_S64_S64x1_0 (select (cmpi .slt a2 (broadcastInDim S64 ![] bcast_S_S64 (constantI S_ 32 0#32))) (addi a2 (broadcastInDim S64 ![] bcast_S_S64 (constantI S_ 32 1024#32))) a2))) (mulf (Host.gather gather_S1024x2x196_S64x1_S64x2x196_12_0_n_n_0_1_12196 a11 (broadcastInDim S64x1 ![0] bcast_S64_S64x1_0 (select (cmpi .slt a2 (broadcastInDim S64 ![] bcast_S_S64 (constantI S_ 32 0#32))) (addi a2 (broadcastInDim S64 ![] bcast_S_S64 (constantI S_ 32 1024#32))) a2))) a3)) slices_S64x2x196_S64x1x196_0_1_0) shapeCasts_S64x1x196_S64x196))) (Host.floor (shapeCast _ (extractStridedSlice S64x1x196 ![0, 0, 0] (addf (Host.gather gather_S1024x2x196_S64x1_S64x2x196_12_0_n_n_0_1_12196 a10 (broadcastInDim S64x1 ![0] bcast_S64_S64x1_0 (select (cmpi .slt a2 (broadcastInDim S64 ![] bcast_S_S64 (constantI S_ 32 0#32))) (addi a2 (broadcastInDim S64 ![] bcast_S_S64 (constantI S_ 32 1024#32))) a2))) (mulf (Host.gather gather_S1024x2x196_S64x1_S64x2x196_12_0_n_n_0_1_12196 a11 (broadcastInDim S64x1 ![0] bcast_S64_S64x1_0 (select (cmpi .slt a2 (broadcastInDim S64 ![] bcast_S_S64 (constantI S_ 32 0#32))) (addi a2 (broadcastInDim S64 ![] bcast_S_S64 (constantI S_ 32 1024#32))) a2))) a3)) slices_S64x2x196_S64x1x196_0_0_0) shapeCasts_S64x1x196_S64x196))))⟩] concatenates_S64x196x1_S64x196x1_S64x196x1_S64x196x1_S64x196x4_d2)))

set_option maxHeartbeats 16000000 in
/-- The index array as the region finds it. -/
theorem V_main_v42 (c : Dev nD) :
    (V m c main_v42 : S64x196x4.Idx → BitVec 32)
      = idxTerm (F := Ideal) (m ((c : Thread nD τ).loc main_arg2)) (m ((c : Thread nD τ).loc main_arg3))
          (m ((c : Thread nD τ).loc main_arg10)) (m ((c : Thread nD τ).loc main_arg11)) := by
  dsimp only [V]
  simp only [hostOps0, hostOps0_1, hostOps0_2, List.flatten_cons, List.flatten_nil, List.append_nil, List.cons_append,
    List.nil_append]
  -- each operation's result at its own buffer, every other buffer as it was; what is left under the concatenation is
  -- the same fold, which computes
  simp (disch := decide) only [after_cons, after_nil, nullary_result', unary_result', binary_result', ternary_result',
    reshape_result', nary4_result', nullary_result_ne', unary_result_ne', binary_result_ne', ternary_result_ne',
    reshape_result_ne', nary_result_ne']
  rfl

end Cert.HostReads

end
-- ==== Proof.MixLaw.lean ====
/-
  The running form of the softmax-weighted sum (one sample at a time, with a running maximum, a running denominator
  and a running numerator, each rescaled when the maximum moves) equals the one-pass form taken against the largest
  logit, whenever the logits and the values are real numbers.

  The idea: after the samples 0 … k the state is (m, Σ_{c ≤ k} exp (l c − m), Σ_{c ≤ k} exp (l c − m) · v c) with
  m = max_{c ≤ k} l c.  A step to the new maximum m' multiplies both sums by exp (m − m'), and
  exp (m − m') · exp (a − m) = exp (a − m'); so the shape of the state is kept.  After four steps the numerator over
  the denominator is the softmax-weighted sum against the largest logit.
-/
import Mathlib
import proofs.«123472_j1975684956773_2_alg».proof.Proof.Spec

noncomputable section

namespace Cert.MixLaw

open Idealize.ShloMosaic Cert.Spec

/-! ### The coercion ℝ → EReal and the lattice / additive structure -/

/-- The coercion commutes with max (it is monotone). -/
theorem coe_max (a b : ℝ) : ((max a b : ℝ) : EReal) = max (a : EReal) (b : EReal) :=
  EReal.coe_strictMono.monotone.map_max

/-- The coercion commutes with finite sums. -/
theorem coe_sum {ι : Type*} (s : Finset ι) (f : ι → ℝ) :
    (∑ i ∈ s, (f i : EReal)) = ((∑ i ∈ s, f i : ℝ) : EReal) := by
  classical
  refine Finset.induction_on s (by simp) ?_
  intro a s ha ih
  rw [Finset.sum_insert ha, Finset.sum_insert ha, ih, EReal.coe_add]

/-! ### One step of the running form, on real data -/

/-- A step from a real state with a real sample is the real step. -/
theorem step_coe (m d n l v : ℝ) :
    step ((m : EReal), (d : EReal), (n : EReal)) (l : EReal) (v : EReal)
      = (((max m l : ℝ) : EReal),
         ((Real.exp (m - max m l) * d + Real.exp (l - max m l) : ℝ) : EReal),
         ((Real.exp (m - max m l) * n + Real.exp (l - max m l) * v : ℝ) : EReal)) := by
  simp only [step, ← coe_max, ← EReal.coe_sub, Ideal.exp_coe, ← EReal.coe_mul, ← EReal.coe_add]

/-- The first step, from (−∞, 0, 0): the maximum becomes the sample, the old state is rescaled by exp (−∞) = 0. -/
theorem step_bot (l v : ℝ) :
    step (⊥, 0, 0) (l : EReal) (v : EReal)
      = ((l : EReal), ((Real.exp (l - l) : ℝ) : EReal), ((Real.exp (l - l) * v : ℝ) : EReal)) := by
  simp only [step, max_bot_left, EReal.bot_sub, Ideal.exp_bot, zero_mul, zero_add, ← EReal.coe_sub, Ideal.exp_coe,
    ← EReal.coe_mul]

/-- Rescaling a term taken against the old maximum gives the term against the new one. -/
theorem exp_shift (m a l : ℝ) : Real.exp (m - max m l) * Real.exp (a - m) = Real.exp (a - max m l) := by
  rw [← Real.exp_add]; congr 1; ring

/-! ### Four steps -/

/-- The state after four real samples: the largest logit, and the two sums taken against it. -/
theorem run4_coe (L V : Fin 4 → ℝ) :
    run4 (fun c => (L c : EReal)) (fun c => (V c : EReal))
      = (((max (max (max (L 0) (L 1)) (L 2)) (L 3) : ℝ) : EReal),
         ((∑ c : Fin 4, Real.exp (L c - max (max (max (L 0) (L 1)) (L 2)) (L 3)) : ℝ) : EReal),
         ((∑ c : Fin 4, Real.exp (L c - max (max (max (L 0) (L 1)) (L 2)) (L 3)) * V c : ℝ) : EReal)) := by
  simp only [run4, step_bot, step_coe, Fin.sum_univ_four, mul_add, ← mul_assoc, exp_shift]

/-- The largest of four real logits, in the association the running form produces. -/
theorem top4_coe (L : Fin 4 → ℝ) :
    top4 (fun c => (L c : EReal)) = ((max (max (max (L 0) (L 1)) (L 2)) (L 3) : ℝ) : EReal) := by
  simp only [top4, ← coe_max, max_assoc]

/-! ### The two forms agree -/

theorem onlineMix_eq_refMix (l v : Fin 4 → EReal) (hl : ∀ c, ∃ r : ℝ, l c = (r : EReal))
    (hv : ∀ c, ∃ r : ℝ, v c = (r : EReal)) : onlineMix l v = refMix l v := by
  choose L hL using hl
  choose V hV using hv
  obtain rfl : l = fun c => (L c : EReal) := funext hL
  obtain rfl : v = fun c => (V c : EReal) := funext hV
  -- the common denominator: a sum of exponentials, hence not zero
  have hS : (∑ c : Fin 4, Real.exp (L c - max (max (max (L 0) (L 1)) (L 2)) (L 3))) ≠ 0 :=
    (Finset.sum_pos (fun c _ => Real.exp_pos _) Finset.univ_nonempty).ne'
  simp only [onlineMix, refMix, run4_coe, top4_coe, ← EReal.coe_sub, Ideal.exp_coe, coe_sum, Ideal.div_coe hS,
    ← EReal.coe_mul]
  congr 1
  rw [Finset.sum_mul]
  exact Finset.sum_congr rfl (fun c _ => by ring)

/-! ### Real-valued data stay real-valued -/

/-- An affine projection of real-valued arrays is real-valued: a finite sum of products of reals, plus a real. -/
theorem proj_real (x : Fin 64 → Fin 196 → Fin 768 → EReal) (W : Fin 768 → Fin 768 → EReal) (bias : Fin 768 → EReal)
    (hx : ∀ b s d, ∃ r : ℝ, x b s d = (r : EReal)) (hW : ∀ e d, ∃ r : ℝ, W e d = (r : EReal))
    (hb : ∀ e, ∃ r : ℝ, bias e = (r : EReal)) :
    ∀ b s e, ∃ r : ℝ, proj x W bias b s e = (r : EReal) := by
  choose X hX using hx
  choose W' hW' using hW
  choose B hB using hb
  intro b s e
  refine ⟨(∑ d : Fin 768, X b s d * W' e d) + B e, ?_⟩
  simp only [proj, hX, hW', hB, ← EReal.coe_mul, coe_sum, ← EReal.coe_add]

/-- The product of two real values is a real value. -/
theorem mul_real {a b : EReal} (ha : ∃ r : ℝ, a = (r : EReal)) (hb : ∃ r : ℝ, b = (r : EReal)) :
    ∃ r : ℝ, a * b = (r : EReal) := by
  obtain ⟨p, rfl⟩ := ha
  obtain ⟨q, rfl⟩ := hb
  exact ⟨p * q, (EReal.coe_mul p q).symm⟩

/-- The whole result at a coordinate: on real-valued arguments the running form and the one-pass form agree,
    whatever the sampled positions are. -/
theorem out_online_eq_ref (x : Fin 64 → Fin 196 → Fin 768 → EReal)
    (Wq : Fin 768 → Fin 768 → EReal) (bq : Fin 768 → EReal)
    (Wk : Fin 768 → Fin 768 → EReal) (bk : Fin 768 → EReal)
    (Wv : Fin 768 → Fin 768 → EReal) (bv : Fin 768 → EReal)
    (hx : ∀ b s d, ∃ r : ℝ, x b s d = (r : EReal))
    (hWq : ∀ e d, ∃ r : ℝ, Wq e d = (r : EReal)) (hbq : ∀ e, ∃ r : ℝ, bq e = (r : EReal))
    (hWk : ∀ e d, ∃ r : ℝ, Wk e d = (r : EReal)) (hbk : ∀ e, ∃ r : ℝ, bk e = (r : EReal))
    (hWv : ∀ e d, ∃ r : ℝ, Wv e d = (r : EReal)) (hbv : ∀ e, ∃ r : ℝ, bv e = (r : EReal))
    (J : Fin 64 → Fin 196 → Fin 4 → Fin 196) (b : Fin 64) (s : Fin 196) (e : Fin 768) :
    out onlineMix x Wq bq Wk bk Wv bv J b s e = out refMix x Wq bq Wk bk Wv bv J b s e := by
  unfold out
  exact onlineMix_eq_refMix _ _
    (fun c => mul_real (proj_real x Wq bq hx hWq hbq b s e) (proj_real x Wk bk hx hWk hbk b (J b s c) e))
    (fun c => proj_real x Wv bv hx hWv hbv b (J b s c) e)

end Cert.MixLaw

end
-- ==== Proof.Finite.lean ====
/-
  From the precondition "every float input is finite" to "every entry of each float input is a real".

  The precondition is printed as: for each float argument x, the array |x| < +∞ (a comparison against the
  broadcast pattern 0x7F800000), reduced by "and" over all axes from the initial value true; the ten results
  are chained by "and". At the extended reals, |x| = max x (-x), the pattern 0x7F800000 denotes ⊤, and
  max x (-x) < ⊤ excludes both ⊤ and ⊥, so x is a real.
-/
import proofs.«123472_j1975684956773_2_alg».proof.Pre_finite_inputs
import proofs.«123472_j1975684956773_2_alg».proof.Proof.Gen.Pre_finite_inputs
import Idealize.ShloMosaic.Lib.ReduceAll
import Idealize.ShloMosaic.Lib.ValueIdx
import Idealize.ShloMosaic.PureOps.Ideal

namespace Cert.Finite

open Idealize.ShloMosaic Cert.Pre_finite_inputs

/-- The rank-0 shape has one index. -/
instance : Subsingleton S_.Idx := ⟨fun a b => funext fun d => d.elim0⟩

/-- The f32 pattern 0x7F800000 denotes +∞. -/
theorem ofBits_inf : Ideal.ofBits .f32 0x7F800000#32 = (⊤ : EReal) := by
  simp [Ideal.ofBits, Ideal.ieee]

/-- An extended real whose absolute value compares below +∞ is a real. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- The conjunction over all entries of |x| < +∞, at any shape: if the reduction by "and" over all axes from
    the initial value true is true, every entry is a real. -/
theorem real_of_all {s : Shape} {axes : List (Fin s.rank)} (x : FVec Ideal s .f32)
    (hb : S_.BroadcastsInDim s (![] : Fin 0 → Fin s.rank)) (hr : s.ReducesTo axes S_) (hu : 0 < S_.numel)
    (j : S_.Idx)
    (h : Host.reduce IntOp.andi
          (cmpf .olt (Host.absf x) (broadcastInDim s ![] hb (constant (F := Ideal) S_ .f32 0x7F800000#32)))
          (constantI S_ 1 1#1) hr hu j = 1#1) :
    ∀ i, ∃ r : ℝ, x i = (r : EReal) := by
  intro i
  have e := Host.reduce_andi_all _ _ hr hu j h i
  exact real_of_abs_lt_inf (x i) e

/-- The precondition at the extended reals gives: every entry of every float argument is a real. The ten
    per-argument conjunctions are chained by "and" (associated to the left), so the claim's one bit splits into ten. -/
theorem real_of_pre_all
    (a0 : FVec Ideal S64x196x768 .f32) (a1 : IVec S64x196 1) (a2 : IVec S64 32) (a3 : FVec Ideal S64x2x196 .f32)
    (a4 : FVec Ideal S768x768 .f32) (a5 : FVec Ideal S768 .f32) (a6 : FVec Ideal S768x768 .f32)
    (a7 : FVec Ideal S768 .f32) (a8 : FVec Ideal S768x768 .f32) (a9 : FVec Ideal S768 .f32)
    (a10 : FVec Ideal S1024x2x196 .f32) (a11 : FVec Ideal S1024x2x196 .f32)
    (h : Cert.Pre_finite_inputs.fn (F := Ideal) a0 a1 a2 a3 a4 a5 a6 a7 a8 a9 a10 a11 = (fun _ => 1#1)) :
    (∀ i, ∃ r : ℝ, a0 i = (r : EReal)) ∧ (∀ i, ∃ r : ℝ, a3 i = (r : EReal)) ∧
    (∀ i, ∃ r : ℝ, a4 i = (r : EReal)) ∧ (∀ i, ∃ r : ℝ, a5 i = (r : EReal)) ∧
    (∀ i, ∃ r : ℝ, a6 i = (r : EReal)) ∧ (∀ i, ∃ r : ℝ, a7 i = (r : EReal)) ∧
    (∀ i, ∃ r : ℝ, a8 i = (r : EReal)) ∧ (∀ i, ∃ r : ℝ, a9 i = (r : EReal)) ∧
    (∀ i, ∃ r : ℝ, a10 i = (r : EReal)) ∧ (∀ i, ∃ r : ℝ, a11 i = (r : EReal)) := by
  have h0 := congrFun h ValueIdx.ix0
  dsimp only [fn, fn_part1, fn_part2, Idealize.ShloMosaic.andi] at h0
  simp only [IntOp.andi_eq_one] at h0
  obtain ⟨⟨⟨⟨⟨⟨⟨⟨⟨e0, e3⟩, e4⟩, e5⟩, e6⟩, e7⟩, e8⟩, e9⟩, e10⟩, e11⟩ := h0
  exact ⟨real_of_all a0 _ _ _ _ e0, real_of_all a3 _ _ _ _ e3, real_of_all a4 _ _ _ _ e4,
    real_of_all a5 _ _ _ _ e5, real_of_all a6 _ _ _ _ e6, real_of_all a7 _ _ _ _ e7,
    real_of_all a8 _ _ _ _ e8, real_of_all a9 _ _ _ _ e9, real_of_all a10 _ _ _ _ e10,
    real_of_all a11 _ _ _ _ e11⟩

/-- The form the value proof uses: the input and the six weight and bias arrays have real entries. -/
theorem real_of_pre
    (a0 : FVec Ideal S64x196x768 .f32) (a1 : IVec S64x196 1) (a2 : IVec S64 32) (a3 : FVec Ideal S64x2x196 .f32)
    (a4 : FVec Ideal S768x768 .f32) (a5 : FVec Ideal S768 .f32) (a6 : FVec Ideal S768x768 .f32)
    (a7 : FVec Ideal S768 .f32) (a8 : FVec Ideal S768x768 .f32) (a9 : FVec Ideal S768 .f32)
    (a10 : FVec Ideal S1024x2x196 .f32) (a11 : FVec Ideal S1024x2x196 .f32)
    (h : Cert.Pre_finite_inputs.fn (F := Ideal) a0 a1 a2 a3 a4 a5 a6 a7 a8 a9 a10 a11 = (fun _ => 1#1)) :
    (∀ i, ∃ r : ℝ, a0 i = (r : EReal)) ∧ (∀ i, ∃ r : ℝ, a4 i = (r : EReal)) ∧
    (∀ i, ∃ r : ℝ, a5 i = (r : EReal)) ∧ (∀ i, ∃ r : ℝ, a6 i = (r : EReal)) ∧
    (∀ i, ∃ r : ℝ, a7 i = (r : EReal)) ∧ (∀ i, ∃ r : ℝ, a8 i = (r : EReal)) ∧
    (∀ i, ∃ r : ℝ, a9 i = (r : EReal)) := by
  obtain ⟨r0, _, r4, r5, r6, r7, r8, r9, _, _⟩ := real_of_pre_all a0 a1 a2 a3 a4 a5 a6 a7 a8 a9 a10 a11 h
  exact ⟨r0, r4, r5, r6, r7, r8, r9⟩

end Cert.Finite
-- ==== Proof.RefSide.lean ====
/-
  The reference program, read coordinate by coordinate at the ideal values: its result at (b, s, e) is the
  softmax-weighted sum of the specification, the softmax taken against the largest of the four logits.

  The three affine projections are sums over the contracted axis plus the bias; the two gathers read row
  (b, J b s c) of the key and value projections, J the sampled position after the negative wrap and the clamp;
  the max-reduce over the four samples from −∞ is the largest logit; the two add-reduces from 0 are the sums
  over the four samples.
-/
import proofs.«123472_j1975684956773_2_alg».proof.Proof.Gen.ReferenceIdeal.Read
import proofs.«123472_j1975684956773_2_alg».proof.Proof.Spec
import Idealize.ShloMosaic.Lib.ValueIdx
import Idealize.ShloMosaic.Lib.Pipeline.Value
import Idealize.ShloMosaic.Lib.Affine
import Idealize.ShloMosaic.PureOps.Reduce
import Idealize.ShloMosaic.PureOps.Ideal.Laws

noncomputable section

namespace Cert.RefSide

open Cert.ReferenceIdeal Cert.ReferenceIdeal.Gen Cert.ReferenceIdeal.Read Idealize.ShloMosaic Idealize.ShloMosaic.ValueIdx

/-! ## The argument arrays in coordinates -/

/-- A rank-3 array as a function of its coordinates. -/
abbrev arr3 (x : (⟨S64x196x768, .f32⟩ : BufTy).Contents (Elt Ideal)) : Fin 64 → Fin 196 → Fin 768 → EReal :=
  fun b s d => x (ix3 b s d)
/-- A weight matrix as a function of its coordinates. -/
abbrev arr2 (w : (⟨S768x768, .f32⟩ : BufTy).Contents (Elt Ideal)) : Fin 768 → Fin 768 → EReal :=
  fun e d => w (ix2 e d)
/-- A bias vector as a function of its coordinate. -/
abbrev arr1 (v : (⟨S768, .f32⟩ : BufTy).Contents (Elt Ideal)) : Fin 768 → EReal :=
  fun e => v (ix1 e)

/-! ## The projections -/

/-- The query projection at a coordinate. -/
theorem proj_q (x0 : (⟨S64x196x768, .f32⟩ : BufTy).Contents (Elt Ideal)) (x4 : (⟨S768x768, .f32⟩ : BufTy).Contents (Elt Ideal))
    (x5 : (⟨S768, .f32⟩ : BufTy).Contents (Elt Ideal)) (b : Fin 64) (s : Fin 196) (e : Fin 768) :
    val_main_v3 (F := Ideal) x0 x4 x5 (ix3 b s e) = Cert.Spec.proj (arr3 x0) (arr2 x4) (arr1 x5) b s e := by
  rw [val_main_v3_apply, val_main_v0_apply, val_main_v2_apply, val_main_v1_apply]
  have e1 : ∀ k : Fin 768, lidx_main_v0 (ix3 b s e) k = ix3 b s k := fun k =>
    funext fun a => Fin.ext (by match a with | ⟨0, _⟩ => rfl | ⟨1, _⟩ => rfl | ⟨2, _⟩ => rfl)
  have e2 : ∀ k : Fin 768, ridx_main_v0 (ix3 b s e) k = ix2 e k := fun k =>
    funext fun a => Fin.ext (by match a with | ⟨0, _⟩ => rfl | ⟨1, _⟩ => rfl)
  have e3 : idx_main_v1 (idx_main_v2 (ix3 b s e)) = ix1 e :=
    funext fun a => Fin.ext (by match a with | ⟨0, _⟩ => rfl)
  simp only [e1, e2, e3]
  rfl

/-- The key projection at a coordinate. -/
theorem proj_k (x0 : (⟨S64x196x768, .f32⟩ : BufTy).Contents (Elt Ideal)) (x6 : (⟨S768x768, .f32⟩ : BufTy).Contents (Elt Ideal))
    (x7 : (⟨S768, .f32⟩ : BufTy).Contents (Elt Ideal)) (b : Fin 64) (s : Fin 196) (e : Fin 768) :
    val_main_v7 (F := Ideal) x0 x6 x7 (ix3 b s e) = Cert.Spec.proj (arr3 x0) (arr2 x6) (arr1 x7) b s e := by
  rw [val_main_v7_apply, val_main_v4_apply, val_main_v6_apply, val_main_v5_apply]
  have e1 : ∀ k : Fin 768, lidx_main_v4 (ix3 b s e) k = ix3 b s k := fun k =>
    funext fun a => Fin.ext (by match a with | ⟨0, _⟩ => rfl | ⟨1, _⟩ => rfl | ⟨2, _⟩ => rfl)
  have e2 : ∀ k : Fin 768, ridx_main_v4 (ix3 b s e) k = ix2 e k := fun k =>
    funext fun a => Fin.ext (by match a with | ⟨0, _⟩ => rfl | ⟨1, _⟩ => rfl)
  have e3 : idx_main_v5 (idx_main_v6 (ix3 b s e)) = ix1 e :=
    funext fun a => Fin.ext (by match a with | ⟨0, _⟩ => rfl)
  simp only [e1, e2, e3]
  rfl

/-- The value projection at a coordinate. -/
theorem proj_v (x0 : (⟨S64x196x768, .f32⟩ : BufTy).Contents (Elt Ideal)) (x8 : (⟨S768x768, .f32⟩ : BufTy).Contents (Elt Ideal))
    (x9 : (⟨S768, .f32⟩ : BufTy).Contents (Elt Ideal)) (b : Fin 64) (s : Fin 196) (e : Fin 768) :
    val_main_v11 (F := Ideal) x0 x8 x9 (ix3 b s e) = Cert.Spec.proj (arr3 x0) (arr2 x8) (arr1 x9) b s e := by
  rw [val_main_v11_apply, val_main_v8_apply, val_main_v10_apply, val_main_v9_apply]
  have e1 : ∀ k : Fin 768, lidx_main_v8 (ix3 b s e) k = ix3 b s k := fun k =>
    funext fun a => Fin.ext (by match a with | ⟨0, _⟩ => rfl | ⟨1, _⟩ => rfl | ⟨2, _⟩ => rfl)
  have e2 : ∀ k : Fin 768, ridx_main_v8 (ix3 b s e) k = ix2 e k := fun k =>
    funext fun a => Fin.ext (by match a with | ⟨0, _⟩ => rfl | ⟨1, _⟩ => rfl)
  have e3 : idx_main_v9 (idx_main_v10 (ix3 b s e)) = ix1 e :=
    funext fun a => Fin.ext (by match a with | ⟨0, _⟩ => rfl)
  simp only [e1, e2, e3]
  rfl

/-! ## The index words -/

/-- A word read signed, clamped below by 0 through the conversion to a natural and above by 195, is the clamp of
    the integer into 0 … 195. -/
theorem clamp195 (z : Int) : min z.toNat 195 = (max 0 (min 195 z)).toNat := by omega

/-- A batch coordinate as a 32-bit word reads back as itself, and the clamp into 0 … 63 leaves it. -/
theorem clamp_batch (b : Fin 64) : min (BitVec.ofNat 32 b.val).toInt.toNat 63 = b.val := by
  have hb := b.isLt
  have hn : (BitVec.ofNat 32 b.val).toNat = b.val := by
    rw [BitVec.toNat_ofNat]; omega
  have hi : (BitVec.ofNat 32 b.val).toInt = ((BitVec.ofNat 32 b.val).toNat : Int) :=
    BitVec.toInt_eq_toNat_of_lt (by rw [hn]; omega)
  rw [hi, hn]
  omega

/-- A batch coordinate as a 32-bit word is not negative. -/
theorem batch_not_neg (b : Fin 64) : ¬ IntOp.cmpi .slt (BitVec.ofNat 32 b.val) 0#32 = 1#1 := by
  have hb := b.isLt
  have hn : (BitVec.ofNat 32 b.val).toNat = b.val := by
    rw [BitVec.toNat_ofNat]; omega
  have hi : (BitVec.ofNat 32 b.val).toInt = ((BitVec.ofNat 32 b.val).toNat : Int) :=
    BitVec.toInt_eq_toNat_of_lt (by rw [hn]; omega)
  rw [IntOp.cmpi_slt, hi, hn, BitVec.toInt_zero]
  omega

/-- The wrapped and clamped word is the specification's sampled position. -/
theorem clamp_row (w : BitVec 32) :
    min (Scalar.select (IntOp.cmpi .slt w 0#32) (IntOp.addi w 196#32) w).toInt.toNat 195 = (Cert.Spec.row w).val := by
  unfold Cert.Spec.row
  by_cases h : w.toInt < 0
  · have hc : IntOp.cmpi .slt w 0#32 = 1#1 := IntOp.cmpi_slt.mpr (by rw [BitVec.toInt_zero]; exact h)
    rw [hc, select_one]
    simp only [if_pos h]
    exact clamp195 _
  · have hc : ¬ IntOp.cmpi .slt w 0#32 = 1#1 := fun hc => h (by have := IntOp.cmpi_slt.mp hc; rwa [BitVec.toInt_zero] at this)
    rw [eq_zero_of_ne_one hc, select_zero]
    simp only [if_neg h]
    exact clamp195 _

section Words
variable {F : FTy → Type} [FloatOps F]

/-- The batch index word of the key gather: the iota, never negative, so the wrap leaves it. -/
theorem batch_word_k (b : Fin 64) (s : Fin 196) (c : Fin 4) :
    val_main_v68 (F := F) (ix4 b s c (0 : Fin 1)) = BitVec.ofNat 32 b.val := by
  rw [val_main_v68_apply, val_main_v67_apply, val_main_v61_apply, val_main_v58_apply, val_main_v60_apply,
    val_main_v56_apply, val_main_v57_apply, val_main_v59_apply, val_main_v55_apply, val_main_c_8_apply, val_main_c_9_apply]
  show Scalar.select (IntOp.cmpi .slt (BitVec.ofNat 32 b.val) 0#32) (IntOp.addi (BitVec.ofNat 32 b.val) 64#32)
    (BitVec.ofNat 32 b.val) = _
  rw [eq_zero_of_ne_one (batch_not_neg b), select_zero]

/-- The batch index word of the value gather. -/
theorem batch_word_v (b : Fin 64) (s : Fin 196) (c : Fin 4) :
    val_main_v83 (F := F) (ix4 b s c (0 : Fin 1)) = BitVec.ofNat 32 b.val := by
  rw [val_main_v83_apply, val_main_v82_apply, val_main_v76_apply, val_main_v73_apply, val_main_v75_apply,
    val_main_v56_apply, val_main_v72_apply, val_main_v74_apply, val_main_v55_apply, val_main_c_12_apply, val_main_c_13_apply]
  show Scalar.select (IntOp.cmpi .slt (BitVec.ofNat 32 b.val) 0#32) (IntOp.addi (BitVec.ofNat 32 b.val) 64#32)
    (BitVec.ofNat 32 b.val) = _
  rw [eq_zero_of_ne_one (batch_not_neg b), select_zero]

variable (x2 : (⟨S64, .i32⟩ : BufTy).Contents (Elt F)) (x3 : (⟨S64x2x196, .f32⟩ : BufTy).Contents (Elt F))
  (x10 x11 : (⟨S1024x2x196, .f32⟩ : BufTy).Contents (Elt F))

/-- The position word of the key gather: the index word after the negative wrap. -/
theorem row_word_k (b : Fin 64) (s : Fin 196) (c : Fin 4) :
    val_main_v69 (F := F) x2 x3 x10 x11 (ix4 b s c (0 : Fin 1))
      = Scalar.select (IntOp.cmpi .slt (val_main_v54 (F := F) x2 x3 x10 x11 (ix3 b s c)) 0#32)
          (IntOp.addi (val_main_v54 (F := F) x2 x3 x10 x11 (ix3 b s c)) 196#32)
          (val_main_v54 (F := F) x2 x3 x10 x11 (ix3 b s c)) := by
  have e : idx_main_v69 (ix4 b s c (0 : Fin 1)) = ix3 b s c :=
    funext fun a => Fin.ext (by match a with | ⟨0, _⟩ => rfl | ⟨1, _⟩ => rfl | ⟨2, _⟩ => rfl)
  rw [val_main_v69_apply, e, val_main_v66_apply, val_main_v63_apply, val_main_v65_apply, val_main_v62_apply,
    val_main_v64_apply, val_main_c_10_apply, val_main_c_11_apply]

/-- The position word of the value gather. -/
theorem row_word_v (b : Fin 64) (s : Fin 196) (c : Fin 4) :
    val_main_v84 (F := F) x2 x3 x10 x11 (ix4 b s c (0 : Fin 1))
      = Scalar.select (IntOp.cmpi .slt (val_main_v54 (F := F) x2 x3 x10 x11 (ix3 b s c)) 0#32)
          (IntOp.addi (val_main_v54 (F := F) x2 x3 x10 x11 (ix3 b s c)) 196#32)
          (val_main_v54 (F := F) x2 x3 x10 x11 (ix3 b s c)) := by
  have e : idx_main_v84 (ix4 b s c (0 : Fin 1)) = ix3 b s c :=
    funext fun a => Fin.ext (by match a with | ⟨0, _⟩ => rfl | ⟨1, _⟩ => rfl | ⟨2, _⟩ => rfl)
  rw [val_main_v84_apply, e, val_main_v81_apply, val_main_v78_apply, val_main_v80_apply, val_main_v77_apply,
    val_main_v79_apply, val_main_c_14_apply, val_main_c_15_apply]

end Words

/-! ## The start indices: a two-piece concatenation along the last axis -/

section Concat
variable {α : Type}

/-- Component 0 of the start index at (b, s, c) is the first piece there. -/
theorem concat_fst (p q : S64x196x4x1.Idx → α) (b : Fin 64) (s : Fin 196) (c : Fin 4) :
    concatenate S64x196x4x2 3 [⟨S64x196x4x1, p⟩, ⟨S64x196x4x1, q⟩] concatenates_S64x196x4x1_S64x196x4x1_S64x196x4x2_d3
        (ix4 b s c (0 : Fin 2)) = p (ix4 b s c (0 : Fin 1)) :=
  concatenate_pair_apply_left (3 : Fin S64x196x4x2.rank) p q concatenates_S64x196x4x1_S64x196x4x1_S64x196x4x2_d3
    (ix4 b s c (0 : Fin 2)) rfl (ix4 b s c (0 : Fin 1))
    (fun a => by match a with | ⟨0, _⟩ => rfl | ⟨1, _⟩ => rfl | ⟨2, _⟩ => rfl | ⟨3, _⟩ => rfl)

/-- Component 1 of the start index at (b, s, c) is the second piece there. -/
theorem concat_snd (p q : S64x196x4x1.Idx → α) (b : Fin 64) (s : Fin 196) (c : Fin 4) :
    concatenate S64x196x4x2 3 [⟨S64x196x4x1, p⟩, ⟨S64x196x4x1, q⟩] concatenates_S64x196x4x1_S64x196x4x1_S64x196x4x2_d3
        (ix4 b s c (1 : Fin 2)) = q (ix4 b s c (0 : Fin 1)) :=
  concatenate_pair_apply_right (3 : Fin S64x196x4x2.rank) p q concatenates_S64x196x4x1_S64x196x4x1_S64x196x4x2_d3
    (ix4 b s c (1 : Fin 2)) rfl rfl (ix4 b s c (0 : Fin 1))
    (fun a => by match a with | ⟨0, _⟩ => exact fun _ => rfl | ⟨1, _⟩ => exact fun _ => rfl | ⟨2, _⟩ => exact fun _ => rfl
                              | ⟨3, _⟩ => exact fun h => absurd rfl h)
    rfl

end Concat

/-! ## The gather of rows -/

/-- Result element (b, s, c, e) of the gather is the operand at row (i₀, i₁), column e: (i₀, i₁) the start index at
    (b, s, c), each component read signed and clamped into the operand's extent. -/
theorem gather_rows {α : Type} {w : Nat} (x : S64x196x768.Idx → α) (idx : IVec S64x196x4x2 w)
    (b : Fin 64) (s : Fin 196) (c : Fin 4) (e : Fin 768) :
    Host.gather gather_S64x196x768_S64x196x4x2_S64x196x4x768_3_01_n_n_01_3_11768 x idx (ix4 b s c e)
      = x (ix3 (⟨min (idx (ix4 b s c (0 : Fin 2))).toInt.toNat 63, by omega⟩ : Fin 64)
            (⟨min (idx (ix4 b s c (1 : Fin 2))).toInt.toNat 195, by omega⟩ : Fin 196) e) := by
  unfold Host.gather
  congr 1
  funext a
  refine Fin.ext ?_
  have nb : ∀ a : Fin S64x196x768.rank, a ∉ gather_S64x196x768_S64x196x4x2_S64x196x4x768_3_01_n_n_01_3_11768.operandBatchingDims := fun a => List.not_mem_nil
  match a with
  | ⟨0, _⟩ =>
    show gather_S64x196x768_S64x196x4x2_S64x196x4x768_3_01_n_n_01_3_11768.start (ix4 b s c e) idx 0 + gather_S64x196x768_S64x196x4x2_S64x196x4x768_3_01_n_n_01_3_11768.batchCoord (ix4 b s c e) 0 + gather_S64x196x768_S64x196x4x2_S64x196x4x768_3_01_n_n_01_3_11768.offCoord (ix4 b s c e) 0 = _
    rw [GatherDims.batchCoord_eq_zero _ _ _ (nb 0),
      GatherDims.offCoord_eq_zero _ _ _ (fun h => ((GatherDims.mem_sKept _ _).mp h).1 (by decide))]
    simp only [Nat.add_zero]
    unfold GatherDims.start
    rw [dif_pos (show (0 : Fin S64x196x768.rank) ∈ gather_S64x196x768_S64x196x4x2_S64x196x4x768_3_01_n_n_01_3_11768.startIndexMap by decide)]
    refine congrArg₂ min (congrArg (fun i => (idx i).toInt.toNat) ?_) rfl
    funext a'
    refine Fin.ext ?_
    match a' with
    | ⟨0, _⟩ => rfl
    | ⟨1, _⟩ => rfl
    | ⟨2, _⟩ => rfl
    | ⟨3, _⟩ => rfl
  | ⟨1, _⟩ =>
    show gather_S64x196x768_S64x196x4x2_S64x196x4x768_3_01_n_n_01_3_11768.start (ix4 b s c e) idx 1 + gather_S64x196x768_S64x196x4x2_S64x196x4x768_3_01_n_n_01_3_11768.batchCoord (ix4 b s c e) 1 + gather_S64x196x768_S64x196x4x2_S64x196x4x768_3_01_n_n_01_3_11768.offCoord (ix4 b s c e) 1 = _
    rw [GatherDims.batchCoord_eq_zero _ _ _ (nb 1),
      GatherDims.offCoord_eq_zero _ _ _ (fun h => ((GatherDims.mem_sKept _ _).mp h).1 (by decide))]
    simp only [Nat.add_zero]
    unfold GatherDims.start
    rw [dif_pos (show (1 : Fin S64x196x768.rank) ∈ gather_S64x196x768_S64x196x4x2_S64x196x4x768_3_01_n_n_01_3_11768.startIndexMap by decide)]
    refine congrArg₂ min (congrArg (fun i => (idx i).toInt.toNat) ?_) rfl
    funext a'
    refine Fin.ext ?_
    match a' with
    | ⟨0, _⟩ => rfl
    | ⟨1, _⟩ => rfl
    | ⟨2, _⟩ => rfl
    | ⟨3, _⟩ => rfl
  | ⟨2, _⟩ =>
    show gather_S64x196x768_S64x196x4x2_S64x196x4x768_3_01_n_n_01_3_11768.start (ix4 b s c e) idx 2 + gather_S64x196x768_S64x196x4x2_S64x196x4x768_3_01_n_n_01_3_11768.batchCoord (ix4 b s c e) 2 + gather_S64x196x768_S64x196x4x2_S64x196x4x768_3_01_n_n_01_3_11768.offCoord (ix4 b s c e) 2 = _
    rw [GatherDims.batchCoord_eq_zero _ _ _ (nb 2)]
    unfold GatherDims.start
    rw [dif_neg (show ¬ (2 : Fin S64x196x768.rank) ∈ gather_S64x196x768_S64x196x4x2_S64x196x4x768_3_01_n_n_01_3_11768.startIndexMap by decide)]
    unfold GatherDims.offCoord
    rw [dif_pos (show (2 : Fin S64x196x768.rank) ∈ gather_S64x196x768_S64x196x4x2_S64x196x4x768_3_01_n_n_01_3_11768.sKept by decide)]
    simp only [Nat.zero_add, Nat.add_zero]
    rfl

/-- The fold of a commutative, associative operation over the four samples, spelt out. -/
theorem fold_univ_fin4 {α : Type} (f : α → α → α) [Std.Commutative f] [Std.Associative f] (z : α) (g : Fin 4 → α) :
    (Finset.univ : Finset (Fin 4)).fold f z g = f (g 0) (f (g 1) (f (g 2) (f (g 3) z))) := by
  simp only [Fin.univ_succ, Finset.fold_cons, Finset.fold_map, Finset.univ_unique, Finset.fold_singleton]
  rfl

/-- The f32 word of −∞ is the least extended real. -/
theorem neg_inf_bits : Ideal.ofBits .f32 0xFF800000#32 = (⊥ : EReal) := by simp [Ideal.ofBits, Ideal.ieee]

/-- The largest of four, folded from −∞ one at a time, is the largest of the two pairs' largest. -/
theorem max4_bot (a0 a1 a2 a3 : EReal) : max a0 (max a1 (max a2 (max a3 ⊥))) = max (max a0 a1) (max a2 a3) := by
  rw [max_eq_left (bot_le : (⊥ : EReal) ≤ a3), ← max_assoc]

/-- The max-reduce over the four samples from −∞, at (b, s, e): the largest of the four. -/
theorem max_reduce (y : S64x196x4x768.Idx → EReal) (b : Fin 64) (s : Fin 196) (e : Fin 768) :
    Host.reduce (FloatOps.maximumf (F := Ideal) (φ := .f32)) y (val_main_cst_16 (F := Ideal))
        reducesTo_S64x196x4x768_S64x196x768_d2 h_S_ (ix3 b s e)
      = Cert.Spec.top4 (fun c => y (ix4 b s c e)) := by
  have h : S64x196x4x768.Reduces [2] S64x196x768 := by decide
  refine (Host.reduce_eq_fold_single (FloatOps.maximumf (F := Ideal) (φ := .f32)) y (val_main_cst_16 (F := Ideal))
    reducesTo_S64x196x4x768_S64x196x768_d2 h h_S_ (ix3 b s e)).trans ?_
  have hl : (y ∘ h.lift (ix3 b s e)) = fun c : Fin 4 => y (ix4 b s c e) := funext fun k => congrArg y (funext fun a =>
    Fin.ext (by match a with | ⟨0, _⟩ => rfl | ⟨1, _⟩ => rfl | ⟨2, _⟩ => rfl | ⟨3, _⟩ => rfl))
  have hz : val_main_cst_16 (F := Ideal) (Shape.Idx.first h_S_) = (⊥ : EReal) := neg_inf_bits
  have e4 := fold_univ_fin4 (max : EReal → EReal → EReal) ⊥ (fun c : Fin 4 => y (ix4 b s c e))
  refine Eq.trans ?_ (e4.trans (max4_bot _ _ _ _))
  rw [hl, hz]
  rfl

/-! ## The reference's stages at a coordinate -/

section Stages
variable (x0 : (⟨S64x196x768, .f32⟩ : BufTy).Contents (Elt Ideal)) (x2 : (⟨S64, .i32⟩ : BufTy).Contents (Elt Ideal))
  (x3 : (⟨S64x2x196, .f32⟩ : BufTy).Contents (Elt Ideal)) (x4 : (⟨S768x768, .f32⟩ : BufTy).Contents (Elt Ideal))
  (x5 : (⟨S768, .f32⟩ : BufTy).Contents (Elt Ideal)) (x6 : (⟨S768x768, .f32⟩ : BufTy).Contents (Elt Ideal))
  (x7 : (⟨S768, .f32⟩ : BufTy).Contents (Elt Ideal)) (x8 : (⟨S768x768, .f32⟩ : BufTy).Contents (Elt Ideal))
  (x9 : (⟨S768, .f32⟩ : BufTy).Contents (Elt Ideal)) (x10 x11 : (⟨S1024x2x196, .f32⟩ : BufTy).Contents (Elt Ideal))

/-- The sampled key positions: the index array's word at (b, s, c), wrapped and clamped. -/
abbrev pos : Fin 64 → Fin 196 → Fin 4 → Fin 196 :=
  fun b s c => Cert.Spec.row (val_main_v54 (F := Ideal) x2 x3 x10 x11 (ix3 b s c))

/-- The four logits at (b, s, e). -/
abbrev logit (b : Fin 64) (s : Fin 196) (e : Fin 768) : Fin 4 → EReal :=
  fun c => Cert.Spec.proj (arr3 x0) (arr2 x4) (arr1 x5) b s e
    * Cert.Spec.proj (arr3 x0) (arr2 x6) (arr1 x7) b (pos x2 x3 x10 x11 b s c) e

/-- The four sampled values at (b, s, e). -/
abbrev value (b : Fin 64) (s : Fin 196) (e : Fin 768) : Fin 4 → EReal :=
  fun c => Cert.Spec.proj (arr3 x0) (arr2 x8) (arr1 x9) b (pos x2 x3 x10 x11 b s c) e

/-- The start indices of the key gather at (b, s, c): the batch word … -/
theorem start_k_fst (b : Fin 64) (s : Fin 196) (c : Fin 4) :
    val_main_v70 (F := Ideal) x2 x3 x10 x11 (ix4 b s c (0 : Fin 2)) = BitVec.ofNat 32 b.val := by
  unfold val_main_v70
  exact (concat_fst _ _ b s c).trans (batch_word_k b s c)

/-- … and the wrapped position word. -/
theorem start_k_snd (b : Fin 64) (s : Fin 196) (c : Fin 4) :
    val_main_v70 (F := Ideal) x2 x3 x10 x11 (ix4 b s c (1 : Fin 2))
      = Scalar.select (IntOp.cmpi .slt (val_main_v54 (F := Ideal) x2 x3 x10 x11 (ix3 b s c)) 0#32)
          (IntOp.addi (val_main_v54 (F := Ideal) x2 x3 x10 x11 (ix3 b s c)) 196#32)
          (val_main_v54 (F := Ideal) x2 x3 x10 x11 (ix3 b s c)) := by
  unfold val_main_v70
  exact (concat_snd _ _ b s c).trans (row_word_k x2 x3 x10 x11 b s c)

/-- The start indices of the value gather at (b, s, c): the batch word … -/
theorem start_v_fst (b : Fin 64) (s : Fin 196) (c : Fin 4) :
    val_main_v85 (F := Ideal) x2 x3 x10 x11 (ix4 b s c (0 : Fin 2)) = BitVec.ofNat 32 b.val := by
  unfold val_main_v85
  exact (concat_fst _ _ b s c).trans (batch_word_v b s c)

/-- … and the wrapped position word. -/
theorem start_v_snd (b : Fin 64) (s : Fin 196) (c : Fin 4) :
    val_main_v85 (F := Ideal) x2 x3 x10 x11 (ix4 b s c (1 : Fin 2))
      = Scalar.select (IntOp.cmpi .slt (val_main_v54 (F := Ideal) x2 x3 x10 x11 (ix3 b s c)) 0#32)
          (IntOp.addi (val_main_v54 (F := Ideal) x2 x3 x10 x11 (ix3 b s c)) 196#32)
          (val_main_v54 (F := Ideal) x2 x3 x10 x11 (ix3 b s c)) := by
  unfold val_main_v85
  exact (concat_snd _ _ b s c).trans (row_word_v x2 x3 x10 x11 b s c)

/-- The gathered keys: row (b, J b s c) of the key projection. -/
theorem gather_k (b : Fin 64) (s : Fin 196) (c : Fin 4) (e : Fin 768) :
    val_main_v71 (F := Ideal) x0 x2 x3 x6 x7 x10 x11 (ix4 b s c e)
      = Cert.Spec.proj (arr3 x0) (arr2 x6) (arr1 x7) b (pos x2 x3 x10 x11 b s c) e := by
  unfold val_main_v71
  refine (gather_rows _ _ b s c e).trans ?_
  have hA : (⟨min (val_main_v70 (F := Ideal) x2 x3 x10 x11 (ix4 b s c (0 : Fin 2))).toInt.toNat 63, by omega⟩ : Fin 64) = b :=
    Fin.ext (by show min _ 63 = b.val; rw [start_k_fst]; exact clamp_batch b)
  have hB : (⟨min (val_main_v70 (F := Ideal) x2 x3 x10 x11 (ix4 b s c (1 : Fin 2))).toInt.toNat 195, by omega⟩ : Fin 196)
      = pos x2 x3 x10 x11 b s c :=
    Fin.ext (by show min _ 195 = (Cert.Spec.row _).val; rw [start_k_snd]; exact clamp_row _)
  rw [hA, hB]
  exact proj_k x0 x6 x7 b _ e

/-- The gathered values: row (b, J b s c) of the value projection. -/
theorem gather_v (b : Fin 64) (s : Fin 196) (c : Fin 4) (e : Fin 768) :
    val_main_v86 (F := Ideal) x0 x2 x3 x8 x9 x10 x11 (ix4 b s c e) = value x0 x2 x3 x8 x9 x10 x11 b s e c := by
  unfold val_main_v86
  refine (gather_rows _ _ b s c e).trans ?_
  have hA : (⟨min (val_main_v85 (F := Ideal) x2 x3 x10 x11 (ix4 b s c (0 : Fin 2))).toInt.toNat 63, by omega⟩ : Fin 64) = b :=
    Fin.ext (by show min _ 63 = b.val; rw [start_v_fst]; exact clamp_batch b)
  have hB : (⟨min (val_main_v85 (F := Ideal) x2 x3 x10 x11 (ix4 b s c (1 : Fin 2))).toInt.toNat 195, by omega⟩ : Fin 196)
      = pos x2 x3 x10 x11 b s c :=
    Fin.ext (by show min _ 195 = (Cert.Spec.row _).val; rw [start_v_snd]; exact clamp_row _)
  rw [hA, hB]
  exact proj_v x0 x8 x9 b _ e

/-- The logits: the query at (b, s, e) times the gathered key. -/
theorem logit_apply (b : Fin 64) (s : Fin 196) (c : Fin 4) (e : Fin 768) :
    val_main_v89 (F := Ideal) x0 x2 x3 x4 x5 x6 x7 x10 x11 (ix4 b s c e) = logit x0 x2 x3 x4 x5 x6 x7 x10 x11 b s e c := by
  have e1 : idx_main_v87 (idx_main_v88 (ix4 b s c e)) = ix3 b s e :=
    funext fun a => Fin.ext (by match a with | ⟨0, _⟩ => rfl | ⟨1, _⟩ => rfl | ⟨2, _⟩ => rfl)
  rw [val_main_v89_apply, val_main_v88_apply, val_main_v87_apply, e1, proj_q, gather_k]
  rfl

/-- The largest logit: the max-reduce from −∞, and the further maximum with −∞. -/
theorem max_apply (b : Fin 64) (s : Fin 196) (e : Fin 768) :
    val_main_v92 (F := Ideal) x0 x2 x3 x4 x5 x6 x7 x10 x11 (ix3 b s e) = Cert.Spec.top4 (logit x0 x2 x3 x4 x5 x6 x7 x10 x11 b s e) := by
  rw [val_main_v92_apply, val_main_v91_apply, val_main_cst_17_apply]
  unfold val_main_v90
  rw [max_reduce]
  have hl : (fun c => val_main_v89 (F := Ideal) x0 x2 x3 x4 x5 x6 x7 x10 x11 (ix4 b s c e)) = logit x0 x2 x3 x4 x5 x6 x7 x10 x11 b s e :=
    funext fun c => logit_apply x0 x2 x3 x4 x5 x6 x7 x10 x11 b s c e
  rw [hl]
  show max (Ideal.ofBits .f32 0xFF800000#32) _ = _
  rw [neg_inf_bits]
  exact max_eq_right bot_le

/-- The exponentials: e^(logit − largest logit). -/
theorem exp_apply (b : Fin 64) (s : Fin 196) (c : Fin 4) (e : Fin 768) :
    val_main_v96 (F := Ideal) x0 x2 x3 x4 x5 x6 x7 x10 x11 (ix4 b s c e)
      = Ideal.exp (logit x0 x2 x3 x4 x5 x6 x7 x10 x11 b s e c - Cert.Spec.top4 (logit x0 x2 x3 x4 x5 x6 x7 x10 x11 b s e)) := by
  have e1 : idx_main_v93 (idx_main_v94 (ix4 b s c e)) = ix3 b s e :=
    funext fun a => Fin.ext (by match a with | ⟨0, _⟩ => rfl | ⟨1, _⟩ => rfl | ⟨2, _⟩ => rfl)
  rw [val_main_v96_apply, val_main_v95_apply, val_main_v94_apply, val_main_v93_apply, e1, max_apply, logit_apply]
  rfl

/-- The denominator: the sum of the four exponentials (the reduce starts from 0). -/
theorem den_apply (b : Fin 64) (s : Fin 196) (e : Fin 768) :
    val_main_v97 (F := Ideal) x0 x2 x3 x4 x5 x6 x7 x10 x11 (ix3 b s e)
      = ∑ c : Fin 4, Ideal.exp (logit x0 x2 x3 x4 x5 x6 x7 x10 x11 b s e c - Cert.Spec.top4 (logit x0 x2 x3 x4 x5 x6 x7 x10 x11 b s e)) := by
  rw [val_main_v97_apply, val_main_cst_18_apply]
  have hz : FloatOps.ofBits (F := Ideal) .f32 0x00000000#32 = (0 : EReal) := Ideal.ofBits_zero_f32
  rw [hz, zero_add]
  refine Finset.sum_congr rfl fun c _ => ?_
  have e1 : idx_main_v97 (ix3 b s e) c = ix4 b s c e :=
    funext fun a => Fin.ext (by match a with | ⟨0, _⟩ => rfl | ⟨1, _⟩ => rfl | ⟨2, _⟩ => rfl | ⟨3, _⟩ => rfl)
  rw [e1, exp_apply]

/-- The softmax weights: each exponential over the denominator. -/
theorem weight_apply (b : Fin 64) (s : Fin 196) (c : Fin 4) (e : Fin 768) :
    val_main_v100 (F := Ideal) x0 x2 x3 x4 x5 x6 x7 x10 x11 (ix4 b s c e)
      = Ideal.div (Ideal.exp (logit x0 x2 x3 x4 x5 x6 x7 x10 x11 b s e c - Cert.Spec.top4 (logit x0 x2 x3 x4 x5 x6 x7 x10 x11 b s e)))
          (∑ c' : Fin 4, Ideal.exp (logit x0 x2 x3 x4 x5 x6 x7 x10 x11 b s e c' - Cert.Spec.top4 (logit x0 x2 x3 x4 x5 x6 x7 x10 x11 b s e))) := by
  have e1 : idx_main_v98 (idx_main_v99 (ix4 b s c e)) = ix3 b s e :=
    funext fun a => Fin.ext (by match a with | ⟨0, _⟩ => rfl | ⟨1, _⟩ => rfl | ⟨2, _⟩ => rfl)
  rw [val_main_v100_apply, val_main_v99_apply, val_main_v98_apply, e1, den_apply, exp_apply]
  rfl

/-- The result at (b, s, e): the softmax-weighted sum of the four sampled values. -/
theorem result_apply (b : Fin 64) (s : Fin 196) (e : Fin 768) :
    val_main_v102 (F := Ideal) x0 x2 x3 x4 x5 x6 x7 x8 x9 x10 x11 (ix3 b s e)
      = Cert.Spec.refMix (logit x0 x2 x3 x4 x5 x6 x7 x10 x11 b s e) (value x0 x2 x3 x8 x9 x10 x11 b s e) := by
  rw [val_main_v102_apply, val_main_cst_19_apply]
  have hz : FloatOps.ofBits (F := Ideal) .f32 0x00000000#32 = (0 : EReal) := Ideal.ofBits_zero_f32
  rw [hz, zero_add]
  unfold Cert.Spec.refMix
  refine Finset.sum_congr rfl fun c _ => ?_
  have e1 : idx_main_v102 (ix3 b s e) c = ix4 b s c e :=
    funext fun a => Fin.ext (by match a with | ⟨0, _⟩ => rfl | ⟨1, _⟩ => rfl | ⟨2, _⟩ => rfl | ⟨3, _⟩ => rfl)
  rw [e1, val_main_v101_apply, weight_apply, gather_v]
  rfl

end Stages

/-! ## The reference's result is the specification's -/

/-- At every coordinate the reference's result is the specification's output with the one-pass softmax, over the
    argument arrays in coordinates and the positions sampled from the index array. -/
theorem reference_eq_spec (x0 : (⟨S64x196x768, .f32⟩ : BufTy).Contents (Elt Ideal)) (x2 : (⟨S64, .i32⟩ : BufTy).Contents (Elt Ideal))
  (x3 : (⟨S64x2x196, .f32⟩ : BufTy).Contents (Elt Ideal)) (x4 : (⟨S768x768, .f32⟩ : BufTy).Contents (Elt Ideal))
  (x5 : (⟨S768, .f32⟩ : BufTy).Contents (Elt Ideal)) (x6 : (⟨S768x768, .f32⟩ : BufTy).Contents (Elt Ideal))
  (x7 : (⟨S768, .f32⟩ : BufTy).Contents (Elt Ideal)) (x8 : (⟨S768x768, .f32⟩ : BufTy).Contents (Elt Ideal))
  (x9 : (⟨S768, .f32⟩ : BufTy).Contents (Elt Ideal)) (x10 x11 : (⟨S1024x2x196, .f32⟩ : BufTy).Contents (Elt Ideal))
    (b : Fin 64) (s : Fin 196) (e : Fin 768) :
    val_main_v102 (F := Ideal) x0 x2 x3 x4 x5 x6 x7 x8 x9 x10 x11 (ix3 b s e)
      = Cert.Spec.out Cert.Spec.refMix (fun b s d => x0 (ix3 b s d)) (fun e d => x4 (ix2 e d)) (fun e => x5 (ix1 e))
          (fun e d => x6 (ix2 e d)) (fun e => x7 (ix1 e)) (fun e d => x8 (ix2 e d)) (fun e => x9 (ix1 e))
          (fun b s c => Cert.Spec.row (val_main_v54 (F := Ideal) x2 x3 x10 x11 (ix3 b s c))) b s e :=
  result_apply x0 x2 x3 x4 x5 x6 x7 x8 x9 x10 x11 b s e

end Cert.RefSide

end
-- ==== Proof.IdxRange.lean ====
/-
  The sampled key positions of the reference program are in range.

  The reference clamps the four corner positions into [0, 195] on the extended reals before converting them to
  32-bit integers.  Whatever the clamped array holds (an infinity included), the clamp min 195 (max 0 z) is a real
  number between 0 and 195; the conversion takes its integer part toward zero, which for a non-negative real is its
  floor, an integer between 0 and 195, well inside the 32-bit signed range, so the word's signed value is that
  integer.  Such a word is its own sampled position.
-/
import proofs.«123472_j1975684956773_2_alg».proof.Proof.Gen.ReferenceIdeal.Read
import proofs.«123472_j1975684956773_2_alg».proof.Proof.Spec
import Idealize.ShloMosaic.PureOps.Ideal

noncomputable section

namespace Cert.IdxRange

open Idealize.ShloMosaic Cert.ReferenceIdeal Cert.ReferenceIdeal.Read

/-- An integer between 0 and 195 is its own signed value as a 32-bit word. -/
theorem toInt_ofInt_small (n : Int) (h0 : 0 ≤ n) (h1 : n ≤ 195) : (BitVec.ofInt 32 n).toInt = n := by
  rw [BitVec.toInt_ofInt]
  exact Int.bmod_eq_of_le (by omega) (by omega)

/-- The integer part toward zero of an extended real between 0 and 195, clamped to the 32-bit signed range, is an
    integer between 0 and 195: the value is a real, its integer part is its floor, and the outer clamp does nothing. -/
theorem clamp_range (x : EReal) (h0 : ((0 : ℝ) : EReal) ≤ x) (h1 : x ≤ ((195 : ℝ) : EReal)) :
    0 ≤ Ideal.toIntClamped (-((2 ^ (32 - 1) : Nat) : Int)) (((2 ^ (32 - 1) : Nat) : Int) - 1) x
      ∧ Ideal.toIntClamped (-((2 ^ (32 - 1) : Nat) : Int)) (((2 ^ (32 - 1) : Nat) : Int) - 1) x ≤ 195 := by
  induction x using EReal.rec with
  | bot => exact absurd h0 (by simp)
  | top => exact absurd h1 (by simp)
  | coe r =>
    have hr0 : (0 : ℝ) ≤ r := EReal.coe_le_coe_iff.mp h0
    have hr1 : r ≤ 195 := EReal.coe_le_coe_iff.mp h1
    have hf0 : 0 ≤ ⌊r⌋ := Int.floor_nonneg.mpr hr0
    have hf1 : ⌊r⌋ ≤ 195 := by
      have : ((⌊r⌋ : Int) : ℝ) ≤ 195 := le_trans (Int.floor_le r) hr1
      exact_mod_cast this
    rw [Ideal.toIntClamped_coe, if_pos hr0]
    constructor <;> omega

/-- The float-to-integer conversion of an extended real between 0 and 195 is a word with signed value in 0 … 195. -/
theorem fptosi_range (x : EReal) (h0 : ((0 : ℝ) : EReal) ≤ x) (h1 : x ≤ ((195 : ℝ) : EReal)) :
    0 ≤ (Ideal.fptosi 32 x).toInt ∧ (Ideal.fptosi 32 x).toInt ≤ 195 := by
  obtain ⟨a, b⟩ := clamp_range x h0 h1
  unfold Ideal.fptosi
  rw [toInt_ofInt_small _ a b]
  exact ⟨a, b⟩

/-- The clamp min 195 (max 0 z) of any extended real z, an infinity included, lies between 0 and 195. -/
theorem clip_range (z : EReal) :
    ((0 : ℝ) : EReal) ≤ min ((195 : ℝ) : EReal) (max ((0 : ℝ) : EReal) z)
      ∧ min ((195 : ℝ) : EReal) (max ((0 : ℝ) : EReal) z) ≤ ((195 : ℝ) : EReal) :=
  ⟨le_min (EReal.coe_le_coe_iff.mpr (by norm_num)) (le_max_left _ _), min_le_left _ _⟩

/-- The converted word of the reference program at an index, read from the clamped array: the conversion of
    min 195 (max 0 z), z the (arbitrary) element of the joined array of corner positions. -/
theorem val_main_v54_read (x2 : (⟨S64, .i32⟩ : BufTy).Contents (Elt Ideal))
    (x3 : (⟨S64x2x196, .f32⟩ : BufTy).Contents (Elt Ideal))
    (x10 x11 : (⟨S1024x2x196, .f32⟩ : BufTy).Contents (Elt Ideal)) (i : S64x196x4.Idx) :
    val_main_v54 (F := Ideal) x2 x3 x10 x11 i
      = Ideal.fptosi 32 (min ((195 : ℝ) : EReal) (max ((0 : ℝ) : EReal) (val_main_v52 (F := Ideal) x2 x3 x10 x11 i))) := by
  rw [val_main_v54_apply, val_main_v53_apply, val_main_call0_v4_apply, val_main_call0_v3_apply, val_main_c_7_apply,
    val_main_call0_v2_apply, val_main_call0_v1_apply, val_main_call0_v0_apply, val_main_c_6_apply]
  show Ideal.fptosi 32 (min ((((195#32 : BitVec 32).toInt : Int) : ℝ) : EReal)
    (max ((((0#32 : BitVec 32).toInt : Int) : ℝ) : EReal) (val_main_v52 (F := Ideal) x2 x3 x10 x11 i))) = _
  have e0 : (0#32 : BitVec 32).toInt = 0 := by decide
  have e195 : (195#32 : BitVec 32).toInt = 195 := by decide
  rw [e0, e195]
  norm_num

/-- Every sampled-position word of the reference program has signed value in 0 … 195, whatever the arrays hold. -/
theorem val_main_v54_range (x2 : (⟨S64, .i32⟩ : BufTy).Contents (Elt Ideal))
    (x3 : (⟨S64x2x196, .f32⟩ : BufTy).Contents (Elt Ideal))
    (x10 x11 : (⟨S1024x2x196, .f32⟩ : BufTy).Contents (Elt Ideal)) (i : S64x196x4.Idx) :
    0 ≤ (val_main_v54 (F := Ideal) x2 x3 x10 x11 i : BitVec 32).toInt
      ∧ (val_main_v54 (F := Ideal) x2 x3 x10 x11 i : BitVec 32).toInt ≤ 195 := by
  rw [val_main_v54_read]
  exact fptosi_range _ (clip_range _).1 (clip_range _).2

/-- A word with signed value in 0 … 195 has that value as its unsigned value. -/
theorem toNat_of_range (w : BitVec 32) (h0 : 0 ≤ w.toInt) (h1 : w.toInt ≤ 195) : (w.toNat : Int) = w.toInt := by
  have hlt : w.toNat < 2 ^ 32 := w.isLt
  rw [BitVec.toInt_eq_toNat_cond] at h0 h1 ⊢
  split_ifs at h0 h1 ⊢ <;> omega

/-- A word with signed value in 0 … 195 is its own sampled position. -/
theorem row_of_range (w : BitVec 32) (h0 : 0 ≤ w.toInt) (h1 : w.toInt ≤ 195) : (Cert.Spec.row w).val = w.toNat := by
  have hn := toNat_of_range w h0 h1
  unfold Cert.Spec.row
  simp only [if_neg (not_lt.mpr h0)]
  omega

/-- A word with signed value in 0 … 195 is the 32-bit word of its sampled position. -/
theorem eq_ofNat_row_of_range (w : BitVec 32) (h0 : 0 ≤ w.toInt) (h1 : w.toInt ≤ 195) :
    w = BitVec.ofNat 32 (Cert.Spec.row w).val := by
  rw [row_of_range w h0 h1]
  apply BitVec.eq_of_toNat_eq
  rw [BitVec.toNat_ofNat, Nat.mod_eq_of_lt w.isLt]

/-- The sampled position of a reference index word is the word's unsigned value. -/
theorem row_val_main_v54 (x2 : (⟨S64, .i32⟩ : BufTy).Contents (Elt Ideal))
    (x3 : (⟨S64x2x196, .f32⟩ : BufTy).Contents (Elt Ideal))
    (x10 x11 : (⟨S1024x2x196, .f32⟩ : BufTy).Contents (Elt Ideal)) (i : S64x196x4.Idx) :
    (Cert.Spec.row (val_main_v54 (F := Ideal) x2 x3 x10 x11 i)).val
      = (val_main_v54 (F := Ideal) x2 x3 x10 x11 i : BitVec 32).toNat :=
  row_of_range _ (val_main_v54_range x2 x3 x10 x11 i).1 (val_main_v54_range x2 x3 x10 x11 i).2

/-- A reference index word is the 32-bit word of its sampled position. -/
theorem val_main_v54_eq_ofNat_row (x2 : (⟨S64, .i32⟩ : BufTy).Contents (Elt Ideal))
    (x3 : (⟨S64x2x196, .f32⟩ : BufTy).Contents (Elt Ideal))
    (x10 x11 : (⟨S1024x2x196, .f32⟩ : BufTy).Contents (Elt Ideal)) (i : S64x196x4.Idx) :
    (val_main_v54 (F := Ideal) x2 x3 x10 x11 i : BitVec 32)
      = BitVec.ofNat 32 (Cert.Spec.row (val_main_v54 (F := Ideal) x2 x3 x10 x11 i)).val :=
  eq_ofNat_row_of_range _ (val_main_v54_range x2 x3 x10 x11 i).1 (val_main_v54_range x2 x3 x10 x11 i).2

end Cert.IdxRange

end
-- ==== Proof.IdxSame.lean ====
/-
  The four-corner index array is computed by the same operations in both programs.

  The kernel's program prepares the index array on the host before its region; the reference computes the same array
  as a stage of its own. Both are the printed operations — the sampled coordinate mean + deviation · noise at the
  image's row of the tables, its components rounded up and down, the four corners 14 · y + x side by side, clamped
  into 0 … 195 and converted to integers — over separately named copies of the same shapes and records, so the two
  terms are equal by unfolding.
-/
import proofs.«123472_j1975684956773_2_alg».proof.Proof.HostReads
import proofs.«123472_j1975684956773_2_alg».proof.Proof.Gen.ReferenceIdeal.Read

set_option maxRecDepth 16384
noncomputable section

namespace Cert.IdxSame

open Idealize.ShloMosaic

/-- The index array the kernel's program prepares is the reference's stage of the same name. -/
theorem idx_same (a2 : (⟨Cert.KernelIdeal.S64, .i32⟩ : BufTy).Contents (Elt Ideal))
    (a3 : (⟨Cert.KernelIdeal.S64x2x196, .f32⟩ : BufTy).Contents (Elt Ideal))
    (a10 a11 : (⟨Cert.KernelIdeal.S1024x2x196, .f32⟩ : BufTy).Contents (Elt Ideal)) :
    Cert.HostReads.idxTerm (F := Ideal) a2 a3 a10 a11 = Cert.ReferenceIdeal.Read.val_main_v54 (F := Ideal) a2 a3 a10 a11 := by
  rfl

end Cert.IdxSame

end
-- ==== Proof.Bridge.lean ====
/-
  The two idealized programs end with the same result array.

  The kernel's array (the running softmax over the four sampled rows, of the arrays the region finds) is, coordinate by
  coordinate, the specification's running form of the ARGUMENT arrays: the region finds the input as launched, each weight
  transposed and each bias as a row, and the index array the host computed.  The running form equals the one-pass form
  wherever every projection is a real number, which the precondition (every float input finite) gives.  The reference's
  result is the one-pass form of the same arguments and the same index array.
-/
import proofs.«123472_j1975684956773_2_alg».proof.Proof.KernelValue
import proofs.«123472_j1975684956773_2_alg».proof.Proof.HostReads
import proofs.«123472_j1975684956773_2_alg».proof.Proof.MixLaw
import proofs.«123472_j1975684956773_2_alg».proof.Proof.Finite
import proofs.«123472_j1975684956773_2_alg».proof.Proof.RefSide
import proofs.«123472_j1975684956773_2_alg».proof.Proof.IdxRange
import proofs.«123472_j1975684956773_2_alg».proof.Proof.IdxSame

noncomputable section

namespace Cert.Bridge

open Cert.KernelIdeal Cert.KernelIdeal.Gen Cert.KernelIdeal.Frame Cert.KernelValue
open Idealize.ShloMosaic Idealize.ShloMosaic.TcCoe Idealize.ShloMosaic.ValueIdx
open Idealize.SL Idealize.SL.Sem

/-! ## The argument arrays in coordinates -/

def X3 (a : S64x196x768.Idx → EReal) (b : Fin 64) (s : Fin 196) (d : Fin 768) : EReal := a (ix3 b s d)
def W2 (a : S768x768.Idx → EReal) (e d : Fin 768) : EReal := a (ix2 e d)
def B1 (a : S768.Idx → EReal) (e : Fin 768) : EReal := a (ix1 e)
def J3 (a : S64x196x4.Idx → BitVec 32) (b : Fin 64) (s : Fin 196) (c : Fin 4) : Fin 196 := Cert.Spec.row (a (ix3 b s c))

variable (m : (ℓ : Loc nD τ sig) → Buf (Elt Ideal) ℓ)

/-- A projection of the arrays the region finds is the specification's projection of the arguments. -/
theorem pj_q (c : Dev nD) (b : Fin 64) (s : Fin 196) (e : Fin 768) :
    pj (V m c main_arg0) (V m c main_v44) (V m c main_v49) b s e
      = Cert.Spec.proj (X3 (m ((c : Thread nD τ).loc main_arg0))) (W2 (m ((c : Thread nD τ).loc main_arg4))) (B1 (m ((c : Thread nD τ).loc main_arg5))) b s e := by
  unfold pj Cert.Spec.proj X3 W2 B1
  exact congrArg₂ (· + ·) (Finset.sum_congr rfl fun d _ => congrArg₂ (· * ·) (congrFun (V_main_arg0 m c) (ix3 b s d)) (Cert.HostReads.V_main_v44_apply m c d e))
    (Cert.HostReads.V_main_v49_apply m c e)
theorem pj_k (c : Dev nD) (b : Fin 64) (s : Fin 196) (e : Fin 768) :
    pj (V m c main_arg0) (V m c main_v46) (V m c main_v50) b s e
      = Cert.Spec.proj (X3 (m ((c : Thread nD τ).loc main_arg0))) (W2 (m ((c : Thread nD τ).loc main_arg6))) (B1 (m ((c : Thread nD τ).loc main_arg7))) b s e := by
  unfold pj Cert.Spec.proj X3 W2 B1
  exact congrArg₂ (· + ·) (Finset.sum_congr rfl fun d _ => congrArg₂ (· * ·) (congrFun (V_main_arg0 m c) (ix3 b s d)) (Cert.HostReads.V_main_v46_apply m c d e))
    (Cert.HostReads.V_main_v50_apply m c e)
theorem pj_v (c : Dev nD) (b : Fin 64) (s : Fin 196) (e : Fin 768) :
    pj (V m c main_arg0) (V m c main_v48) (V m c main_v51) b s e
      = Cert.Spec.proj (X3 (m ((c : Thread nD τ).loc main_arg0))) (W2 (m ((c : Thread nD τ).loc main_arg8))) (B1 (m ((c : Thread nD τ).loc main_arg9))) b s e := by
  unfold pj Cert.Spec.proj X3 W2 B1
  exact congrArg₂ (· + ·) (Finset.sum_congr rfl fun d _ => congrArg₂ (· * ·) (congrFun (V_main_arg0 m c) (ix3 b s d)) (Cert.HostReads.V_main_v48_apply m c d e))
    (Cert.HostReads.V_main_v51_apply m c e)

/-- The kernel's array at a coordinate: the specification's running form of the arguments and the index array the
    region finds. -/
theorem GV_apply (c : Dev nD) (b : Fin 64) (s : Fin 196) (e : Fin 768) :
    GV m c (ix3 b s e)
      = Cert.Spec.out Cert.Spec.onlineMix (X3 (m ((c : Thread nD τ).loc main_arg0)))
          (W2 (m ((c : Thread nD τ).loc main_arg4))) (B1 (m ((c : Thread nD τ).loc main_arg5)))
          (W2 (m ((c : Thread nD τ).loc main_arg6))) (B1 (m ((c : Thread nD τ).loc main_arg7)))
          (W2 (m ((c : Thread nD τ).loc main_arg8))) (B1 (m ((c : Thread nD τ).loc main_arg9)))
          (J3 (V m c main_v42)) b s e := by
  show Gc (V m c main_arg0) (V m c main_v42) (V m c main_v44) (V m c main_v49) (V m c main_v46) (V m c main_v50) (V m c main_v48) (V m c main_v51) b s e = _
  unfold Gc Cert.Spec.out J3
  exact congrArg₂ Cert.Spec.onlineMix
    (funext fun cc => congrArg₂ (· * ·) (pj_q m c b s e) (pj_k m c b _ e))
    (funext fun cc => pj_v m c b _ e)

/-! ## The index array -/

/-- The index array the region finds is the reference's index stage of the arguments. -/
theorem idx_eq (c : Dev nD) (i : S64x196x4.Idx) :
    V m c main_v42 i = Cert.ReferenceIdeal.Read.val_main_v54 (F := Ideal) (m ((c : Thread nD τ).loc main_arg2)) (m ((c : Thread nD τ).loc main_arg3))
      (m ((c : Thread nD τ).loc main_arg10)) (m ((c : Thread nD τ).loc main_arg11)) i :=
  (congrFun (Cert.HostReads.V_main_v42 m c) i).trans (congrFun (Cert.IdxSame.idx_same _ _ _ _) i)

/-- Its words are valid rows: the clip brings every sampled position into 0 … 195 before the conversion. -/
theorem idx_valid (c : Dev nD) (i : S64x196x4.Idx) : 0 ≤ (V m c main_v42 i).toInt ∧ (V m c main_v42 i).toInt ≤ 195 := by
  have h := Cert.IdxRange.val_main_v54_range (m ((c : Thread nD τ).loc main_arg2)) (m ((c : Thread nD τ).loc main_arg3))
      (m ((c : Thread nD τ).loc main_arg10)) (m ((c : Thread nD τ).loc main_arg11)) i
  rw [← idx_eq m c i] at h
  exact h

/-! ## The kernel's run -/

theorem kernel_run (ρ : Dev nD → PrngReg) :
    θ_run defs (onTc (τ := τ) (main (F := Ideal))) ⟨m, fun _ => 0, ρ⟩ (fun r => ∀ c : Dev nD,
      r.2.mem ((c.tc : Thread nD τ).loc main_v52) = GV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Cert.KernelValue.run m ρ (fun c i => idx_valid m c i)

/-! ## The reference's result is the kernel's -/

/-- From memories agreeing on the arguments, every float argument finite: the reference's result term is the kernel's
    array. -/
theorem agree (m' : (ℓ : Loc Cert.ReferenceIdeal.nD Cert.ReferenceIdeal.τ Cert.ReferenceIdeal.sig) → Buf (Elt Ideal) ℓ) (c : Dev nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) = (fun _ => 1#1))
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    Cert.ReferenceIdeal.Value.res_main_v102 m' c = GV m c := by
  obtain ⟨g0, g1, g2, g3, g4, g5, g6, g7, g8, g9, g10, g11⟩ := hag
  obtain ⟨r0, r4, r5, r6, r7, r8, r9⟩ := Cert.Finite.real_of_pre _ _ _ _ _ _ _ _ _ _ _ _ hpre
  funext i
  obtain ⟨b, s, e, rfl⟩ : ∃ (b : Fin 64) (s : Fin 196) (e : Fin 768), i = ix3 b s e := ⟨i 0, i 1, i 2, eq_ix3 i⟩
  rw [Cert.ReferenceIdeal.Read.val_main_v102_eq m' c, g0, g2, g3, g4, g5, g6, g7, g8, g9, g10, g11, Cert.RefSide.reference_eq_spec]
  refine Eq.trans ?_ (GV_apply m c b s e).symm
  refine Eq.trans ?_ (Cert.MixLaw.out_online_eq_ref (X3 (m ((c.tc : Thread Cert.KernelIdeal.nD Cert.KernelIdeal.τ).loc Cert.KernelIdeal.main_arg0))) (W2 (m ((c.tc : Thread Cert.KernelIdeal.nD Cert.KernelIdeal.τ).loc Cert.KernelIdeal.main_arg4))) (B1 (m ((c.tc : Thread Cert.KernelIdeal.nD Cert.KernelIdeal.τ).loc Cert.KernelIdeal.main_arg5))) (W2 (m ((c.tc : Thread Cert.KernelIdeal.nD Cert.KernelIdeal.τ).loc Cert.KernelIdeal.main_arg6))) (B1 (m ((c.tc : Thread Cert.KernelIdeal.nD Cert.KernelIdeal.τ).loc Cert.KernelIdeal.main_arg7))) (W2 (m ((c.tc : Thread Cert.KernelIdeal.nD Cert.KernelIdeal.τ).loc Cert.KernelIdeal.main_arg8))) (B1 (m ((c.tc : Thread Cert.KernelIdeal.nD Cert.KernelIdeal.τ).loc Cert.KernelIdeal.main_arg9)))
    (fun b s d => r0 (ix3 b s d)) (fun e d => r4 (ix2 e d)) (fun e => r5 (ix1 e))
    (fun e d => r6 (ix2 e d)) (fun e => r7 (ix1 e)) (fun e d => r8 (ix2 e d)) (fun e => r9 (ix1 e)) (J3 (V m c main_v42)) b s e).symm
  have hJ : (fun (b : Fin 64) (s : Fin 196) (cc : Fin 4) => Cert.Spec.row (Cert.ReferenceIdeal.Read.val_main_v54 (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (ix3 b s cc)))
      = J3 (V m c main_v42) :=
    funext fun b => funext fun s => funext fun cc => congrArg Cert.Spec.row (idx_eq m c (ix3 b s cc)).symm
  exact congrArg (fun J => Cert.Spec.out Cert.Spec.refMix (X3 (m ((c.tc : Thread Cert.KernelIdeal.nD Cert.KernelIdeal.τ).loc Cert.KernelIdeal.main_arg0))) (W2 (m ((c.tc : Thread Cert.KernelIdeal.nD Cert.KernelIdeal.τ).loc Cert.KernelIdeal.main_arg4))) (B1 (m ((c.tc : Thread Cert.KernelIdeal.nD Cert.KernelIdeal.τ).loc Cert.KernelIdeal.main_arg5))) (W2 (m ((c.tc : Thread Cert.KernelIdeal.nD Cert.KernelIdeal.τ).loc Cert.KernelIdeal.main_arg6))) (B1 (m ((c.tc : Thread Cert.KernelIdeal.nD Cert.KernelIdeal.τ).loc Cert.KernelIdeal.main_arg7))) (W2 (m ((c.tc : Thread Cert.KernelIdeal.nD Cert.KernelIdeal.τ).loc Cert.KernelIdeal.main_arg8))) (B1 (m ((c.tc : Thread Cert.KernelIdeal.nD Cert.KernelIdeal.τ).loc Cert.KernelIdeal.main_arg9))) J b s e) hJ

end Cert.Bridge

end
-- ==== Proof.lean ====
/-
  The certificate of the fused projection-and-sampling kernel against its jnp reference.

  Both programs compute, for a query position s of image b and a feature e, the softmax-weighted sum over four sampled key
  positions of the value rows, the logits being the products of the query with the sampled keys, feature by feature; the
  query, key and value rows are affine maps of the input.  The kernel does it image by image inside one region of sixteen
  grid points, sampling the rows by products with one-hot rows and folding the four samples one at a time with a running
  maximum; the reference gathers the rows and takes one softmax.  On the extended reals the two agree wherever the inputs
  are finite, which is the precondition.

  The frames of the two kernels are their regions' runs (each stored image a pure function of what the body loaded, the
  arguments never written); the reference's frame is its run with the result dropped; the idealization rewrote nothing.
-/
import proofs.«123472_j1975684956773_2_alg».proof.Defs
import proofs.«123472_j1975684956773_2_alg».proof.Proof.Gen.Kernel
import proofs.«123472_j1975684956773_2_alg».proof.Proof.Gen.KernelIdeal
import proofs.«123472_j1975684956773_2_alg».proof.Proof.Gen.ReferenceIdeal
import proofs.«123472_j1975684956773_2_alg».proof.Proof.Gen.Pre_finite_inputs
import proofs.«123472_j1975684956773_2_alg».proof.Proof.Gen.ReferenceIdeal.Run
import proofs.«123472_j1975684956773_2_alg».proof.Proof.Gen.ReferenceIdeal.Read
import proofs.«123472_j1975684956773_2_alg».proof.Proof.FrameBits
import proofs.«123472_j1975684956773_2_alg».proof.Proof.FrameIdeal
import proofs.«123472_j1975684956773_2_alg».proof.Proof.Bridge
import Idealize.ShloMosaic.Adequacy
import Idealize.ShloMosaic.Init

noncomputable section

namespace Cert.Proof

open Idealize.ShloMosaic Idealize.SL.Sem

/-- The word-level kernel runs to the end and leaves its arguments as they were. -/
theorem frame_kernel : Cert.frame_Kernel := fun m ρ _ => Cert.Kernel.Frame.frame m ρ

/-- So does the idealized kernel. -/
theorem frame_kernelIdeal : Cert.frame_KernelIdeal := fun m ρ _ => Cert.KernelIdeal.Frame.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the running-softmax array of the arguments: the kernel by its region's run, the
    reference because its one-pass softmax of the gathered rows is the same numbers where every input is finite. -/
theorem algebraic : Cert.algebraic_KernelIdeal_ReferenceIdeal := by
  intro m ρ m' ρ' hpre hagree
  refine ⟨fun c => Cert.KernelValue.GV m c, Cert.Bridge.kernel_run m ρ, ?_⟩
  exact (θ_run Cert.ReferenceIdeal.defs _ _).mono
    (fun _ h c => ⟨(h c).1.trans (Cert.Bridge.agree m m' c (hpre c) (hagree c)), (h c).2⟩)
    (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
